-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x6400000 : Shape := ⟨2, ![2, 6400000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S100000x128 .f32) (main_arg1 : IVec S2x6400000 32) (main_arg2 : FVec F S128x16 .f32) (main_arg3 : FVec F S16 .f32) (main_arg4 : FVec F S16x8 .f32) (main_arg5 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x8 .f32 := Host.absf main_arg4
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_arg5 main_v13 main_v16
-- ==== Kernel.lean ====
abbrev S100000x128 : Shape := ⟨2, ![100000, 128]⟩
abbrev S2x6400000 : Shape := ⟨2, ![2, 6400000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S1x6400000 : Shape := ⟨2, ![1, 6400000]⟩
abbrev S6400000 : Shape := ⟨1, ![6400000]⟩
abbrev S_ : Shape := ⟨0, ![]⟩
abbrev S100000 : Shape := ⟨1, ![100000]⟩
abbrev S6400000x1 : Shape := ⟨2, ![6400000, 1]⟩
abbrev S100000x1 : Shape := ⟨2, ![100000, 1]⟩
abbrev S100000x16 : Shape := ⟨2, ![100000, 16]⟩
abbrev S5000x128 : Shape := ⟨2, ![5000, 128]⟩
abbrev S5000x1 : Shape := ⟨2, ![5000, 1]⟩
abbrev S5000x16 : Shape := ⟨2, ![5000, 16]⟩
abbrev S6400000x16 : Shape := ⟨2, ![6400000, 16]⟩
abbrev S1x16 : Shape := ⟨2, ![1, 16]⟩
abbrev S100000x8 : Shape := ⟨2, ![100000, 8]⟩
abbrev S5000x8 : Shape := ⟨2, ![5000, 8]⟩
abbrev S6400000x8 : Shape := ⟨2, ![6400000, 8]⟩
abbrev S1x8 : Shape := ⟨2, ![1, 8]⟩

abbrev nBuf : Space → Nat
  | .hbm => 59
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x6400000, .i32⟩
  | .hbm, ⟨2, _⟩ => ⟨S128x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S_, .f32⟩
  | .hbm, ⟨11, _⟩ => ⟨S6400000, .f32⟩
  | .hbm, ⟨12, _⟩ => ⟨S_, .f32⟩
  | .hbm, ⟨13, _⟩ => ⟨S100000, .f32⟩
  | .hbm, ⟨14, _⟩ => ⟨S6400000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x16, .f32⟩
  | .hbm, ⟨28, _⟩ => ⟨S_, .i32⟩
  | .hbm, ⟨29, _⟩ => ⟨S6400000, .i32⟩
  | .hbm, ⟨30, _⟩ => ⟨S6400000, .i1⟩
  | .hbm, ⟨31, _⟩ => ⟨S_, .i32⟩
  | .hbm, ⟨32, _⟩ => ⟨S6400000, .i32⟩
  | .hbm, ⟨33, _⟩ => ⟨S6400000, .i32⟩
  | .hbm, ⟨34, _⟩ => ⟨S6400000, .i32⟩
  | .hbm, ⟨35, _⟩ => ⟨S6400000x1, .i32⟩
  | .hbm, ⟨36, _⟩ => ⟨S6400000x16, .f32⟩
  | .hbm, ⟨37, _⟩ => ⟨S_, .f32⟩
  | .hbm, ⟨38, _⟩ => ⟨S100000x16, .f32⟩
  | .hbm, ⟨39, _⟩ => ⟨S6400000x1, .i32⟩
  | .hbm, ⟨40, _⟩ => ⟨S100000x16, .f32⟩
  | .hbm, ⟨41, _⟩ => ⟨S1x16, .f32⟩
  | .hbm, ⟨42, _⟩ => ⟨S100000x16, .f32⟩
  | .hbm, ⟨43, _⟩ => ⟨S100000x8, .f32⟩
  | .hbm, ⟨44, _⟩ => ⟨S_, .i32⟩
  | .hbm, ⟨45, _⟩ => ⟨S6400000, .i32⟩
  | .hbm, ⟨46, _⟩ => ⟨S6400000, .i1⟩
  | .hbm, ⟨47, _⟩ => ⟨S_, .i32⟩
  | .hbm, ⟨48, _⟩ => ⟨S6400000, .i32⟩
  | .hbm, ⟨49, _⟩ => ⟨S6400000, .i32⟩
  | .hbm, ⟨50, _⟩ => ⟨S6400000, .i32⟩
  | .hbm, ⟨51, _⟩ => ⟨S6400000x1, .i32⟩
  | .hbm, ⟨52, _⟩ => ⟨S6400000x8, .f32⟩
  | .hbm, ⟨53, _⟩ => ⟨S_, .f32⟩
  | .hbm, ⟨54, _⟩ => ⟨S100000x8, .f32⟩
  | .hbm, ⟨55, _⟩ => ⟨S6400000x1, .i32⟩
  | .hbm, ⟨56, _⟩ => ⟨S100000x8, .f32⟩
  | .hbm, ⟨57, _⟩ => ⟨S1x8, .f32⟩
  | .hbm, ⟨58, _⟩ => ⟨S100000x8, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x1, .f32⟩
  | .local _ .vmem, ⟨4, _⟩ => ⟨S5000x1, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x1, .f32⟩
  | .local _ .vmem, ⟨12, _⟩ => ⟨S5000x1, .f32⟩
  | .local _ .vmem, ⟨13, _⟩ => ⟨S1x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S16x8, .f32⟩
  | .local _ .vmem, ⟨19, _⟩ => ⟨S5000x1, .f32⟩
  | .local _ .vmem, ⟨20, _⟩ => ⟨S5000x1, .f32⟩
  | .local _ .vmem, ⟨21, _⟩ => ⟨S5000x8, .f32⟩
  | .local _ .vmem, ⟨22, _⟩ => ⟨S5000x8, .f32⟩
  | .local _ .vmem, ⟨23, _⟩ => ⟨S5000x8, .f32⟩
  | .local _ .vmem, ⟨24, _⟩ => ⟨S5000x8, .f32⟩
  | .local _ .vmem, ⟨25, _⟩ => ⟨S5000x8, .f32⟩
  | .local _ .vmem, ⟨26, _⟩ => ⟨S5000x8, .f32⟩
  | .local _ .vmem, ⟨27, _⟩ => ⟨S5000x1, .f32⟩
  | .local _ .vmem, ⟨28, _⟩ => ⟨S5000x1, .f32⟩
  | .local _ .vmem, ⟨29, _⟩ => ⟨S1x8, .f32⟩
  | .local _ .vmem, ⟨30, _⟩ => ⟨S5000x8, .f32⟩
  | .local _ .vmem, ⟨31, _⟩ => ⟨S5000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x8 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x8 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x8 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x8 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S100000 : S_.BroadcastsInDim S100000 (![] : Fin 0 → Fin S100000.rank)
  bcast_S6400000_S6400000x1_0 : S6400000.BroadcastsInDim S6400000x1 (![0] : Fin 1 → Fin S6400000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x8_S16x8_0_0 : ∀ a, (![0, 0] : Fin 2 → Nat) a + S16x8.size a ≤ S16x8.size a
  h_S16x8 : 0 < S16x8.numel
  broadcasts_S5000x1_S5000x8 : S5000x1.Broadcasts S5000x8
  inb_S5000x8_S5000x8_0_0 : ∀ a, (![0, 0] : Fin 2 → Nat) a + S5000x8.size a ≤ S5000x8.size a
  h_S5000x8 : 0 < S5000x8.numel
  bcast_S_S100000x8 : S_.BroadcastsInDim S100000x8 (![] : Fin 0 → Fin S100000x8.rank)
  shapeCasts_S8_S1x8 : S8.ShapeCasts S1x8
  shapeCasts_S5000x8_S5000x8 : S5000x8.ShapeCasts S5000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  scatter_S100000_S6400000x1_S6400000_n_0_0_1_wf : ScatterDims.WF S100000 S6400000x1 S6400000 [] [0] [0] 1
  dot_S5000x128_S128x16_S5000x16_1_0_0_1_n_n_wf : DotDims.WF S5000x128 S128x16 S5000x16 [1] [0] [0] [1] [] []
  gather_S100000x16_S6400000x1_S6400000x16_1_0_n_n_0_1_116_wf : GatherDims.WF S100000x16 S6400000x1 S6400000x16 [1] [0] [] [0] [] 1 ![1, 16]
  scatter_S100000x16_S6400000x1_S6400000x16_1_0_0_1_wf : ScatterDims.WF S100000x16 S6400000x1 S6400000x16 [1] [0] [0] 1
  dot_S5000x16_S16x8_S5000x8_1_0_0_1_n_n_wf : DotDims.WF S5000x16 S16x8 S5000x8 [1] [0] [0] [1] [] []
  gather_S100000x8_S6400000x1_S6400000x8_1_0_n_n_0_1_18_wf : GatherDims.WF S100000x8 S6400000x1 S6400000x8 [1] [0] [] [0] [] 1 ![1, 8]
  scatter_S100000x8_S6400000x1_S6400000x8_1_0_0_1_wf : ScatterDims.WF S100000x8 S6400000x1 S6400000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x16.size a ≤ S100000x16.size a
  hwx1_4 : ∀ i : grid1.Coords, EltTy.bits .f32 = 32 ∨ (Rect.block (s := S100000x16) S5000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x8.size a ≤ S16x8.size a
  hwx2_1 : ∀ i : grid2.Coords, EltTy.bits .f32 = 32 ∨ (Rect.block (s := S16x8) S16x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x8.size a ≤ S100000x8.size a
  hwx2_3 : ∀ i : grid2.Coords, EltTy.bits .f32 = 32 ∨ (Rect.block (s := S100000x8) S5000x8.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x8.size a ≤ S100000x8.size a
  hwx3_0 : ∀ i : grid3.Coords, EltTy.bits .f32 = 32 ∨ (Rect.block (s := S100000x8) S5000x8.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x8.size a ≤ S100000x8.size a
  hwx3_1 : ∀ i : grid3.Coords, EltTy.bits .f32 = 32 ∨ (Rect.block (s := S100000x8) S5000x8.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x8.size a ≤ S1x8.size a
  hwx3_3 : ∀ i : grid3.Coords, EltTy.bits .f32 = 32 ∨ (Rect.block (s := S1x8) S1x8.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x8.size a ≤ S100000x8.size a
  hwx3_4 : ∀ i : grid3.Coords, EltTy.bits .f32 = 32 ∨ (Rect.block (s := S100000x8) S5000x8.size (cc3_transform_4 i) (hinb3_4 i)).WholeWords (EltTy.packing .f32)

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S6400000x1_S6400000x16_1_0_n_n_0_1_116 : GatherDims S100000x16 S6400000x1 S6400000x16 where
  offsetDims := [1]
  collapsedSliceDims := [0]
  operandBatchingDims := []
  startIndicesBatchingDims := []
  startIndexMap := [0]
  indexVectorDim := 1
  sliceSizes := ![1, 16]
  wf := gather_S100000x16_S6400000x1_S6400000x16_1_0_n_n_0_1_116_wf
def scatter_S100000x16_S6400000x1_S6400000x16_1_0_0_1 : ScatterDims S100000x16 S6400000x1 S6400000x16 where
  updateWindowDims := [1]
  insertedWindowDims := [0]
  scatterDimsToOperandDims := [0]
  indexVectorDim := 1
  wf := scatter_S100000x16_S6400000x1_S6400000x16_1_0_0_1_wf
def dot_S5000x16_S16x8_S5000x8_1_0_0_1_n_n : DotDims S5000x16 S16x8 S5000x8 where
  lhsContracting := [1]
  rhsContracting := [0]
  lhsNonContracting := [0]
  rhsNonContracting := [1]
  lhsBatch := []
  rhsBatch := []
  wf := dot_S5000x16_S16x8_S5000x8_1_0_0_1_n_n_wf
def gather_S100000x8_S6400000x1_S6400000x8_1_0_n_n_0_1_18 : GatherDims S100000x8 S6400000x1 S6400000x8 where
  offsetDims := [1]
  collapsedSliceDims := [0]
  operandBatchingDims := []
  startIndicesBatchingDims := []
  startIndexMap := [0]
  indexVectorDim := 1
  sliceSizes := ![1, 8]
  wf := gather_S100000x8_S6400000x1_S6400000x8_1_0_n_n_0_1_18_wf
def scatter_S100000x8_S6400000x1_S6400000x8_1_0_0_1 : ScatterDims S100000x8 S6400000x1 S6400000x8 where
  updateWindowDims := [1]
  insertedWindowDims := [0]
  scatterDimsToOperandDims := [0]
  indexVectorDim := 1
  wf := scatter_S100000x8_S6400000x1_S6400000x8_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28) S5000x8.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S5000x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S5000x8.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v39) S1x8.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S5000x8.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x6400000 : Shape := ⟨2, ![2, 6400000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S1x6400000 : Shape := ⟨2, ![1, 6400000]⟩
abbrev S6400000 : Shape := ⟨1, ![6400000]⟩
abbrev S100000 : Shape := ⟨1, ![100000]⟩
abbrev S6500000 : Shape := ⟨1, ![6500000]⟩
abbrev S_ : Shape := ⟨0, ![]⟩
abbrev S6500000x1 : Shape := ⟨2, ![6500000, 1]⟩
abbrev S100000x16 : Shape := ⟨2, ![100000, 16]⟩
abbrev S6500000x16 : Shape := ⟨2, ![6500000, 16]⟩
abbrev S1x16 : Shape := ⟨2, ![1, 16]⟩
abbrev S100000x8 : Shape := ⟨2, ![100000, 8]⟩
abbrev S6500000x8 : Shape := ⟨2, ![6500000, 8]⟩
abbrev S1x8 : Shape := ⟨2, ![1, 8]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x6400000, .i32⟩
  | .hbm, ⟨2, _⟩ => ⟨S128x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S100000, .i32⟩
  | .hbm, ⟨11, _⟩ => ⟨S6500000, .i32⟩
  | .hbm, ⟨12, _⟩ => ⟨S6500000, .i32⟩
  | .hbm, ⟨13, _⟩ => ⟨S_, .f32⟩
  | .hbm, ⟨14, _⟩ => ⟨S6500000, .f32⟩
  | .hbm, ⟨15, _⟩ => ⟨S_, .f32⟩
  | .hbm, ⟨16, _⟩ => ⟨S100000, .f32⟩
  | .hbm, ⟨17, _⟩ => ⟨S6500000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S6500000, .i32⟩
  | .hbm, ⟨29, _⟩ => ⟨S6500000, .i1⟩
  | .hbm, ⟨30, _⟩ => ⟨S_, .i32⟩
  | .hbm, ⟨31, _⟩ => ⟨S6500000, .i32⟩
  | .hbm, ⟨32, _⟩ => ⟨S6500000, .i32⟩
  | .hbm, ⟨33, _⟩ => ⟨S6500000, .i32⟩
  | .hbm, ⟨34, _⟩ => ⟨S6500000x1, .i32⟩
  | .hbm, ⟨35, _⟩ => ⟨S6500000, .f32⟩
  | .hbm, ⟨36, _⟩ => ⟨S_, .i32⟩
  | .hbm, ⟨37, _⟩ => ⟨S6500000, .i32⟩
  | .hbm, ⟨38, _⟩ => ⟨S6500000, .i1⟩
  | .hbm, ⟨39, _⟩ => ⟨S_, .i32⟩
  | .hbm, ⟨40, _⟩ => ⟨S6500000, .i32⟩
  | .hbm, ⟨41, _⟩ => ⟨S6500000, .i32⟩
  | .hbm, ⟨42, _⟩ => ⟨S6500000, .i32⟩
  | .hbm, ⟨43, _⟩ => ⟨S6500000x1, .i32⟩
  | .hbm, ⟨44, _⟩ => ⟨S6500000, .f32⟩
  | .hbm, ⟨45, _⟩ => ⟨S6500000, .f32⟩
  | .hbm, ⟨46, _⟩ => ⟨S100000x16, .f32⟩
  | .hbm, ⟨47, _⟩ => ⟨S_, .i32⟩
  | .hbm, ⟨48, _⟩ => ⟨S6500000, .i32⟩
  | .hbm, ⟨49, _⟩ => ⟨S6500000, .i1⟩
  | .hbm, ⟨50, _⟩ => ⟨S_, .i32⟩
  | .hbm, ⟨51, _⟩ => ⟨S6500000, .i32⟩
  | .hbm, ⟨52, _⟩ => ⟨S6500000, .i32⟩
  | .hbm, ⟨53, _⟩ => ⟨S6500000, .i32⟩
  | .hbm, ⟨54, _⟩ => ⟨S6500000x1, .i32⟩
  | .hbm, ⟨55, _⟩ => ⟨S6500000x16, .f32⟩
  | .hbm, ⟨56, _⟩ => ⟨S6500000x1, .f32⟩
  | .hbm, ⟨57, _⟩ => ⟨S6500000x16, .f32⟩
  | .hbm, ⟨58, _⟩ => ⟨S6500000x16, .f32⟩
  | .hbm, ⟨59, _⟩ => ⟨S_, .f32⟩
  | .hbm, ⟨60, _⟩ => ⟨S100000x16, .f32⟩
  | .hbm, ⟨61, _⟩ => ⟨S6500000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x8, .f32⟩
  | .hbm, ⟨70, _⟩ => ⟨S_, .i32⟩
  | .hbm, ⟨71, _⟩ => ⟨S6500000, .i32⟩
  | .hbm, ⟨72, _⟩ => ⟨S6500000, .i1⟩
  | .hbm, ⟨73, _⟩ => ⟨S_, .i32⟩
  | .hbm, ⟨74, _⟩ => ⟨S6500000, .i32⟩
  | .hbm, ⟨75, _⟩ => ⟨S6500000, .i32⟩
  | .hbm, ⟨76, _⟩ => ⟨S6500000, .i32⟩
  | .hbm, ⟨77, _⟩ => ⟨S6500000x1, .i32⟩
  | .hbm, ⟨78, _⟩ => ⟨S6500000x8, .f32⟩
  | .hbm, ⟨79, _⟩ => ⟨S6500000x1, .f32⟩
  | .hbm, ⟨80, _⟩ => ⟨S6500000x8, .f32⟩
  | .hbm, ⟨81, _⟩ => ⟨S6500000x8, .f32⟩
  | .hbm, ⟨82, _⟩ => ⟨S_, .f32⟩
  | .hbm, ⟨83, _⟩ => ⟨S100000x8, .f32⟩
  | .hbm, ⟨84, _⟩ => ⟨S6500000x1, .i32⟩
  | .hbm, ⟨85, _⟩ => ⟨S100000x8, .f32⟩
  | .hbm, ⟨86, _⟩ => ⟨S1x8, .f32⟩
  | .hbm, ⟨87, _⟩ => ⟨S100000x8, .f32⟩
  | .hbm, ⟨88, _⟩ => ⟨S100000x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S100000_S6500000_d0 : Shape.Concatenates [S6400000, S100000] S6500000 0
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  bcast_S6500000x1_S6500000x16_0_1 : S6500000x1.BroadcastsInDim S6500000x16 (![0, 1] : Fin 2 → Fin S6500000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S6500000x1_S6500000x8_0_1 : S6500000x1.BroadcastsInDim S6500000x8 (![0, 1] : Fin 2 → Fin S6500000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S100000x128_S128x16_S100000x16_1_0_0_1_n_n_wf : DotDims.WF S100000x128 S128x16 S100000x16 [1] [0] [0] [1] [] []
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S100000x16_S16x8_S100000x8_1_0_0_1_n_n_wf : DotDims.WF S100000x16 S16x8 S100000x8 [1] [0] [0] [1] [] []
  gather_S100000x8_S6500000x1_S6500000x8_1_0_n_n_0_1_18_wf : GatherDims.WF S100000x8 S6500000x1 S6500000x8 [1] [0] [] [0] [] 1 ![1, 8]
  scatter_S100000x8_S6500000x1_S6500000x8_1_0_0_1_wf : ScatterDims.WF S100000x8 S6500000x1 S6500000x8 [1] [0] [0] 1

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def gather_S100000x8_S6500000x1_S6500000x8_1_0_n_n_0_1_18 : GatherDims S100000x8 S6500000x1 S6500000x8 where
  offsetDims := [1]
  collapsedSliceDims := [0]
  operandBatchingDims := []
  startIndicesBatchingDims := []
  startIndexMap := [0]
  indexVectorDim := 1
  sliceSizes := ![1, 8]
  wf := gather_S100000x8_S6500000x1_S6500000x8_1_0_n_n_0_1_18_wf
def scatter_S100000x8_S6500000x1_S6500000x8_1_0_0_1 : ScatterDims S100000x8 S6500000x1 S6500000x8 where
  updateWindowDims := [1]
  insertedWindowDims := [0]
  scatterDimsToOperandDims := [0]
  indexVectorDim := 1
  wf := scatter_S100000x8_S6500000x1_S6500000x8_1_0_0_1_wf

class Facts : Prop extends Facts₀ where

variable [Facts]
-- ==== Proof.Spec.lean ====
/-
  The two kinds of node-wise step the kernel is made of, each as ONE function of whole arrays over the extended reals.

  A graph-convolution layer on `N` nodes first multiplies the node features by a weight matrix and scales row `r` by
  the node's normalising factor `dis r` (`linScale`); after the sums over incoming edges have been formed it adds the
  node's own scaled row to its aggregate, scales the sum by `dis r` again and adds the bias (`finalize`), the first
  layer also cutting negative values off at zero (`finalizeRelu`). The factor is carried as a column `[N, 1]`, the
  bias as a row `[1, D]`.
-/
import Idealize.ShloMosaic.PureOps.Ideal
import Idealize.ShloMosaic.Lib.ValueIdx

noncomputable section

namespace Cert.Spec

open Idealize.ShloMosaic Idealize.ShloMosaic.ValueIdx

/-- Entry `(r, c)` of `x · w`, the sum over `k` of `x (r, k) · w (k, c)`, times row `r`'s factor `dis (r, 0)`. -/
def linScale {N K D : Nat} (x : (⟨2, ![N, K]⟩ : Shape).Idx → EReal) (w : (⟨2, ![K, D]⟩ : Shape).Idx → EReal)
    (dis : (⟨2, ![N, 1]⟩ : Shape).Idx → EReal) : (⟨2, ![N, D]⟩ : Shape).Idx → EReal :=
  fun i => (∑ k : Fin K, x (ix2 (i 0) k) * w (ix2 k (i 1))) * dis (ix2 (i 0) (0 : Fin 1))

/-- Entry `(r, c)`: row `r`'s factor times the sum of the aggregate and the node's own scaled entry, plus the bias
    of column `c`. -/
def finalize {N D : Nat} (agg hws : (⟨2, ![N, D]⟩ : Shape).Idx → EReal) (dis : (⟨2, ![N, 1]⟩ : Shape).Idx → EReal)
    (b : (⟨2, ![1, D]⟩ : Shape).Idx → EReal) : (⟨2, ![N, D]⟩ : Shape).Idx → EReal :=
  fun i => dis (ix2 (i 0) (0 : Fin 1)) * (agg i + hws i) + b (ix2 (0 : Fin 1) (i 1))

/-- `finalize` followed by the maximum with zero. -/
def finalizeRelu {N D : Nat} (agg hws : (⟨2, ![N, D]⟩ : Shape).Idx → EReal) (dis : (⟨2, ![N, 1]⟩ : Shape).Idx → EReal)
    (b : (⟨2, ![1, D]⟩ : Shape).Idx → EReal) : (⟨2, ![N, D]⟩ : Shape).Idx → EReal :=
  fun i => max (finalize agg hws dis b i) 0

end Cert.Spec

end
-- ==== Proof.KRegions.lean ====
/-
  The four node-wise steps of the two-layer graph convolution, each read as ONE function of whole arrays.

  Each step runs over 20 grid points. At point `t` it reads rows `5000 t … 5000 t + 4999` of its row-blocked operands
  (and the whole weight matrix, or the whole bias row), computes on that block, and writes rows `5000 t … 5000 t + 4999`
  of its result. Every entry of the result depends only on its own row of the row-blocked operands, so what point `t`
  computes is block `t` of the whole-array function (`Cert.Spec.linScale`, `finalizeRelu`, `finalize`); the 20 blocks
  tile the result; hence after the step the result array is that function of the operand arrays as the step found
  them, whatever the contents `V` at entry were.

  Per step: the body's value at an index (a product accumulated onto zero is the sum over the contracted coordinate;
  a column or row broadcast reads the column's or row's entry; a change of float format is the identity over the
  extended reals), the index maps decided over the grid, each operand block as rows of its array, the block written
  back at a point, the cover of the result by the points' blocks, and the whole-array equation.
-/
import proofs.«174125_j69157563400469_2_alg».proof.Proof.Gen.KernelIdeal.Frame
import proofs.«174125_j69157563400469_2_alg».proof.Proof.Spec
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-block access, as the constant function. -/
theorem hz : (![0, 0] : Fin 2 → Nat) = fun _ => 0 := funext fun a => by fin_cases a <;> rfl

/-- The left factor's entry for output index `i` and contraction index `q` is in `i`'s row … -/
theorem matmul0_lhs_0 (i : S5000x16.Idx) (q : dot_S5000x128_S128x16_S5000x16_1_0_0_1_n_n.contr.Idx) : (dot_S5000x128_S128x16_S5000x16_1_0_0_1_n_n.lhsIdx i q 0).val = (i 0).val := by
  unfold DotDims.lhsIdx
  rw [dif_neg (show ¬(0 : Fin S5000x128.rank) ∈ dot_S5000x128_S128x16_S5000x16_1_0_0_1_n_n.lhsBatch by decide),
    dif_pos (show (0 : Fin S5000x128.rank) ∈ dot_S5000x128_S128x16_S5000x16_1_0_0_1_n_n.lhsNonContracting by decide)]
  rfl
/-- … and in the column `q` names. -/
theorem matmul0_lhs_1 (i : S5000x16.Idx) (q : dot_S5000x128_S128x16_S5000x16_1_0_0_1_n_n.contr.Idx) : (dot_S5000x128_S128x16_S5000x16_1_0_0_1_n_n.lhsIdx i q 1).val = (q ⟨0, by decide⟩).val :=
  dot_S5000x128_S128x16_S5000x16_1_0_0_1_n_n.lhsIdx_val_of_single rfl i q
/-- The right factor's entry for output index `i` and contraction index `q` is in the row `q` names … -/
theorem matmul0_rhs_0 (i : S5000x16.Idx) (q : dot_S5000x128_S128x16_S5000x16_1_0_0_1_n_n.contr.Idx) : (dot_S5000x128_S128x16_S5000x16_1_0_0_1_n_n.rhsIdx i q 0).val = (q ⟨0, by decide⟩).val :=
  dot_S5000x128_S128x16_S5000x16_1_0_0_1_n_n.rhsIdx_val_of_single rfl i q
/-- … and in `i`'s column. -/
theorem matmul0_rhs_1 (i : S5000x16.Idx) (q : dot_S5000x128_S128x16_S5000x16_1_0_0_1_n_n.contr.Idx) : (dot_S5000x128_S128x16_S5000x16_1_0_0_1_n_n.rhsIdx i q 1).val = (i 1).val := by
  unfold DotDims.rhsIdx
  rw [dif_neg (show ¬(1 : Fin S128x16.rank) ∈ dot_S5000x128_S128x16_S5000x16_1_0_0_1_n_n.rhsBatch by decide),
    dif_pos (show (1 : Fin S128x16.rank) ∈ dot_S5000x128_S128x16_S5000x16_1_0_0_1_n_n.rhsNonContracting by decide)]
  rfl

/-- Entry `(p, q)` of the product of a `[5000, 128]` block by a `[128, 16]` matrix accumulated onto zero: the sum over the
    contracted coordinate `k` of `a (p, k) · b (k, q)`. -/
theorem matmul0_apply (a : FVec Ideal S5000x128 .bf16) (b : FVec Ideal S128x16 .bf16) (p : Fin 5000) (q : Fin 16) :
    matmul dot_S5000x128_S128x16_S5000x16_1_0_0_1_n_n none a b (constant (F := Ideal) S5000x16 .f32 0x00000000#32) (ix2 p q)
      = ∑ k : Fin 128, a (ix2 p k) * b (ix2 k q) := by
  show FloatOps.matmul _ none a b _ (ix2 p q) = _
  rw [Ideal.matmul_constant_zero_apply, ← Equiv.sum_comp (contrEquiv1 dot_S5000x128_S128x16_S5000x16_1_0_0_1_n_n 128 rfl rfl).symm]
  refine Finset.sum_congr rfl fun k _ => ?_
  have hk := contrEquiv1_symm_val dot_S5000x128_S128x16_S5000x16_1_0_0_1_n_n 128 rfl rfl k
  have el : dot_S5000x128_S128x16_S5000x16_1_0_0_1_n_n.lhsIdx (ix2 p q) ((contrEquiv1 dot_S5000x128_S128x16_S5000x16_1_0_0_1_n_n 128 rfl rfl).symm k) = ix2 p k :=
    funext fun ax => Fin.ext (by
      match ax with
      | ⟨0, _⟩ => exact matmul0_lhs_0 _ _
      | ⟨1, _⟩ => exact (matmul0_lhs_1 _ _).trans hk)
  have er : dot_S5000x128_S128x16_S5000x16_1_0_0_1_n_n.rhsIdx (ix2 p q) ((contrEquiv1 dot_S5000x128_S128x16_S5000x16_1_0_0_1_n_n 128 rfl rfl).symm k) = ix2 k q :=
    funext fun ax => Fin.ext (by
      match ax with
      | ⟨0, _⟩ => exact (matmul0_rhs_0 _ _).trans hk
      | ⟨1, _⟩ => exact matmul0_rhs_1 _ _)
  rw [el, er]

/-- The left factor's entry for output index `i` and contraction index `q` is in `i`'s row … -/
theorem matmul2_lhs_0 (i : S5000x8.Idx) (q : dot_S5000x16_S16x8_S5000x8_1_0_0_1_n_n.contr.Idx) : (dot_S5000x16_S16x8_S5000x8_1_0_0_1_n_n.lhsIdx i q 0).val = (i 0).val := by
  unfold DotDims.lhsIdx
  rw [dif_neg (show ¬(0 : Fin S5000x16.rank) ∈ dot_S5000x16_S16x8_S5000x8_1_0_0_1_n_n.lhsBatch by decide),
    dif_pos (show (0 : Fin S5000x16.rank) ∈ dot_S5000x16_S16x8_S5000x8_1_0_0_1_n_n.lhsNonContracting by decide)]
  rfl
/-- … and in the column `q` names. -/
theorem matmul2_lhs_1 (i : S5000x8.Idx) (q : dot_S5000x16_S16x8_S5000x8_1_0_0_1_n_n.contr.Idx) : (dot_S5000x16_S16x8_S5000x8_1_0_0_1_n_n.lhsIdx i q 1).val = (q ⟨0, by decide⟩).val :=
  dot_S5000x16_S16x8_S5000x8_1_0_0_1_n_n.lhsIdx_val_of_single rfl i q
/-- The right factor's entry for output index `i` and contraction index `q` is in the row `q` names … -/
theorem matmul2_rhs_0 (i : S5000x8.Idx) (q : dot_S5000x16_S16x8_S5000x8_1_0_0_1_n_n.contr.Idx) : (dot_S5000x16_S16x8_S5000x8_1_0_0_1_n_n.rhsIdx i q 0).val = (q ⟨0, by decide⟩).val :=
  dot_S5000x16_S16x8_S5000x8_1_0_0_1_n_n.rhsIdx_val_of_single rfl i q
/-- … and in `i`'s column. -/
theorem matmul2_rhs_1 (i : S5000x8.Idx) (q : dot_S5000x16_S16x8_S5000x8_1_0_0_1_n_n.contr.Idx) : (dot_S5000x16_S16x8_S5000x8_1_0_0_1_n_n.rhsIdx i q 1).val = (i 1).val := by
  unfold DotDims.rhsIdx
  rw [dif_neg (show ¬(1 : Fin S16x8.rank) ∈ dot_S5000x16_S16x8_S5000x8_1_0_0_1_n_n.rhsBatch by decide),
    dif_pos (show (1 : Fin S16x8.rank) ∈ dot_S5000x16_S16x8_S5000x8_1_0_0_1_n_n.rhsNonContracting by decide)]
  rfl

/-- Entry `(p, q)` of the product of a `[5000, 16]` block by a `[16, 8]` matrix accumulated onto zero: the sum over the
    contracted coordinate `k` of `a (p, k) · b (k, q)`. -/
theorem matmul2_apply (a : FVec Ideal S5000x16 .bf16) (b : FVec Ideal S16x8 .bf16) (p : Fin 5000) (q : Fin 8) :
    matmul dot_S5000x16_S16x8_S5000x8_1_0_0_1_n_n none a b (constant (F := Ideal) S5000x8 .f32 0x00000000#32) (ix2 p q)
      = ∑ k : Fin 16, a (ix2 p k) * b (ix2 k q) := by
  show FloatOps.matmul _ none a b _ (ix2 p q) = _
  rw [Ideal.matmul_constant_zero_apply, ← Equiv.sum_comp (contrEquiv1 dot_S5000x16_S16x8_S5000x8_1_0_0_1_n_n 16 rfl rfl).symm]
  refine Finset.sum_congr rfl fun k _ => ?_
  have hk := contrEquiv1_symm_val dot_S5000x16_S16x8_S5000x8_1_0_0_1_n_n 16 rfl rfl k
  have el : dot_S5000x16_S16x8_S5000x8_1_0_0_1_n_n.lhsIdx (ix2 p q) ((contrEquiv1 dot_S5000x16_S16x8_S5000x8_1_0_0_1_n_n 16 rfl rfl).symm k) = ix2 p k :=
    funext fun ax => Fin.ext (by
      match ax with
      | ⟨0, _⟩ => exact matmul2_lhs_0 _ _
      | ⟨1, _⟩ => exact (matmul2_lhs_1 _ _).trans hk)
  have er : dot_S5000x16_S16x8_S5000x8_1_0_0_1_n_n.rhsIdx (ix2 p q) ((contrEquiv1 dot_S5000x16_S16x8_S5000x8_1_0_0_1_n_n 16 rfl rfl).symm k) = ix2 k q :=
    funext fun ax => Fin.ext (by
      match ax with
      | ⟨0, _⟩ => exact (matmul2_rhs_0 _ _).trans hk
      | ⟨1, _⟩ => exact matmul2_rhs_1 _ _)
  rw [el, er]

/-- A column `[5000, 1]` broadcast along the rows of a `[5000, 16]` block reads, at `(p, q)`, the column's entry `p`. -/
theorem bcastCol16_apply (v : FVec Ideal S5000x1 .f32) (p : Fin 5000) (q : Fin 16) :
    broadcastTo S5000x16 v broadcasts_S5000x1_S5000x16 (ix2 p q) = v (ix2 p (0 : Fin 1)) :=
  broadcastTo_apply v _ (ix2 p q) (ix2 p (0 : Fin 1)) (fun a => by
    match a with
    | ⟨0, _⟩ => rfl
    | ⟨1, _⟩ => rfl)

/-- A row `[1, 16]` broadcast down the columns of a `[5000, 16]` block reads, at `(p, q)`, the row's entry `q`. -/
theorem bcastRow16_apply (v : FVec Ideal S1x16 .f32) (p : Fin 5000) (q : Fin 16) :
    broadcastTo S5000x16 v broadcasts_S1x16_S5000x16 (ix2 p q) = v (ix2 (0 : Fin 1) q) :=
  broadcastTo_apply v _ (ix2 p q) (ix2 (0 : Fin 1) q) (fun a => by
    match a with
    | ⟨0, _⟩ => rfl
    | ⟨1, _⟩ => rfl)

/-- A column `[5000, 1]` broadcast along the rows of a `[5000, 8]` block reads, at `(p, q)`, the column's entry `p`. -/
theorem bcastCol8_apply (v : FVec Ideal S5000x1 .f32) (p : Fin 5000) (q : Fin 8) :
    broadcastTo S5000x8 v broadcasts_S5000x1_S5000x8 (ix2 p q) = v (ix2 p (0 : Fin 1)) :=
  broadcastTo_apply v _ (ix2 p q) (ix2 p (0 : Fin 1)) (fun a => by
    match a with
    | ⟨0, _⟩ => rfl
    | ⟨1, _⟩ => rfl)

/-- A row `[1, 8]` broadcast down the columns of a `[5000, 8]` block reads, at `(p, q)`, the row's entry `q`. -/
theorem bcastRow8_apply (v : FVec Ideal S1x8 .f32) (p : Fin 5000) (q : Fin 8) :
    broadcastTo S5000x8 v broadcasts_S1x8_S5000x8 (ix2 p q) = v (ix2 (0 : Fin 1) q) :=
  broadcastTo_apply v _ (ix2 p q) (ix2 (0 : Fin 1) q) (fun a => by
    match a with
    | ⟨0, _⟩ => rfl
    | ⟨1, _⟩ => rfl)

/-- The body of region 0 computes, on its blocks, the scaled product: entry `(p, q)` is `(∑ k, x (p, k) · w (k, q)) · dis (p, 0)`
    (rounding the factors to a narrower format changes nothing over the extended reals). -/
theorem pay0_eq (x0 : Vec Ideal S5000x128 .f32) (x1 : Vec Ideal S128x16 .f32) (x2 : Vec Ideal S5000x1 .f32) :
    k0_pay1 x0 x1 x2 = Cert.Spec.linScale x0 x1 x2 := by
  funext j
  obtain ⟨p, q, rfl⟩ : ∃ (p : Fin 5000) (q : Fin 16), j = ix2 p q := ⟨j 0, j 1, eq_ix2 j⟩
  unfold k0_pay1
  rw [mulf_apply, matmul0_apply, bcastCol16_apply, shapeCast_self]
  rfl

/-- The body of region 1 computes, on its blocks, the finished layer: entry `(p, q)` is
    `max (dis (p, 0) · (agg (p, q) + hws (p, q)) + b (0, q)) 0`. -/
theorem pay1_eq (d : Vec Ideal S5000x1 .f32) (g : Vec Ideal S5000x16 .f32) (s : Vec Ideal S5000x16 .f32) (b : Vec Ideal S1x16 .f32) :
    k1_pay1 d g s b = Cert.Spec.finalizeRelu g s d b := by
  funext j
  obtain ⟨p, q, rfl⟩ : ∃ (p : Fin 5000) (q : Fin 16), j = ix2 p q := ⟨j 0, j 1, eq_ix2 j⟩
  unfold k1_pay1
  rw [maximumf_apply, addf_apply, mulf_apply, addf_apply, bcastCol16_apply, bcastRow16_apply, broadcast_apply,
    shapeCast_self, shapeCast_self, shapeCast_self, shapeCast_self]
  show max _ (Ideal.ofBits .f32 0x00000000#32) = _
  rw [Ideal.ofBits_zero_f32]
  rfl

/-- The body of region 2 computes, on its blocks, the scaled product: entry `(p, q)` is `(∑ k, x (p, k) · w (k, q)) · dis (p, 0)`
    (rounding the factors to a narrower format changes nothing over the extended reals). -/
theorem pay2_eq (x0 : Vec Ideal S5000x16 .f32) (x1 : Vec Ideal S16x8 .f32) (x2 : Vec Ideal S5000x1 .f32) :
    k2_pay1 x0 x1 x2 = Cert.Spec.linScale x0 x1 x2 := by
  funext j
  obtain ⟨p, q, rfl⟩ : ∃ (p : Fin 5000) (q : Fin 8), j = ix2 p q := ⟨j 0, j 1, eq_ix2 j⟩
  unfold k2_pay1
  rw [mulf_apply, matmul2_apply, bcastCol8_apply, shapeCast_self, shapeCast_self]
  rfl

/-- The body of region 3 computes, on its blocks, the finished layer: entry `(p, q)` is
    `dis (p, 0) · (agg (p, q) + hws (p, q)) + b (0, q)`. -/
theorem pay3_eq (d : Vec Ideal S5000x1 .f32) (g : Vec Ideal S5000x8 .f32) (s : Vec Ideal S5000x8 .f32) (b : Vec Ideal S1x8 .f32) :
    k3_pay1 d g s b = Cert.Spec.finalize g s d b := by
  funext j
  obtain ⟨p, q, rfl⟩ : ∃ (p : Fin 5000) (q : Fin 8), j = ix2 p q := ⟨j 0, j 1, eq_ix2 j⟩
  unfold k3_pay1
  rw [addf_apply, mulf_apply, addf_apply, bcastCol8_apply, bcastRow8_apply,
    shapeCast_self, shapeCast_self, shapeCast_self, shapeCast_self]
  rfl

variable (V : (c : Dev nD) → (b : Ref sig .tc) → Buf (Elt Ideal) ((c : Thread nD τ).loc b))

/-! ## Region 0: the scaled product `[100000, 128] · [128, 16]`, in 20 blocks of 5000 rows -/

/-- The index maps of region 0, decided over its 20 grid points: a window cut into row blocks is at block row `t`
    at point `t`, a window that is its whole array stays at block `(0, 0)`. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Window 0's block at point `t` is rows `5000 t … 5000 t + 4999` of its array. -/
theorem blk0_0_apply (c : Dev nD) (t : Fin cfg0.N) (y : S5000x128.Idx) (i : S100000x128.Idx)
    (h0 : (i 0).val = t.val * 5000 + (y 0).val) (h1 : (i 1).val = (y 1).val) :
    (iblk0 V c 0 t : Vec Ideal S5000x128 .f32) y = (V c main_arg0 : S100000x128.Idx → Elt Ideal .f32) i := by
  obtain ⟨e0, e1, -, -, -, -, -, -⟩ := idx_facts0 t
  unfold iblk0
  rw [View.read_apply]
  show V c main_arg0 _ = V c main_arg0 i
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- Window 1's block at every point is its whole array. -/
theorem blk0_1_eq (c : Dev nD) (t : Fin cfg0.N) :
    (iblk0 V c 1 t : Vec Ideal S128x16 .f32) = (V c main_arg2 : S128x16.Idx → Elt Ideal .f32) := by
  obtain ⟨-, -, e0, e1, -, -, -, -⟩ := idx_facts0 t
  funext y
  unfold iblk0
  rw [View.read_apply]
  show V c main_arg2 _ = V c main_arg2 y
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 16 + 1 * (y 1).val = (y 1).val; rw [e1]; omega

/-- Window 2's block at point `t` is rows `5000 t … 5000 t + 4999` of its array. -/
theorem blk0_2_apply (c : Dev nD) (t : Fin cfg0.N) (y : S5000x1.Idx) (i : S100000x1.Idx)
    (h0 : (i 0).val = t.val * 5000 + (y 0).val) (h1 : (i 1).val = (y 1).val) :
    (iblk0 V c 2 t : Vec Ideal S5000x1 .f32) y = (V c main_v14 : S100000x1.Idx → Elt Ideal .f32) i := by
  obtain ⟨-, -, -, -, e0, e1, -, -⟩ := idx_facts0 t
  unfold iblk0
  rw [View.read_apply]
  show V c main_v14 _ = V c main_v14 i
  congr 1
  funext a
  apply Fin.ext
  match a with
  | ⟨0, _⟩ => show win0_2.index t (0 : Fin 2) * 5000 + 1 * (y 0).val = (i 0).val; rw [e0, h0]; omega
  | ⟨1, _⟩ => show win0_2.index t (1 : Fin 2) * 1 + 1 * (y 1).val = (i 1).val; rw [e1, h1]; omega

/-- The scaled product of a row block is the row block of the scaled product: entry `y` of the block computed from rows
    `x0`, the whole matrix `x1` and the factors `x2` of the block is entry `i` computed from the whole arrays, when the
    block's rows are the arrays' rows at `i`'s row. -/
theorem linScale_block0 (A0 : S100000x128.Idx → EReal) (A1 : S128x16.Idx → EReal) (A2 : S100000x1.Idx → EReal)
    (x0 : S5000x128.Idx → EReal) (x1 : S128x16.Idx → EReal) (x2 : S5000x1.Idx → EReal) (y : S5000x16.Idx) (i : S100000x16.Idx)
    (h0 : ∀ k : Fin 128, x0 (ix2 (y 0) k) = A0 (ix2 (i 0) k))
    (h1 : ∀ k : Fin 128, x1 (ix2 k (y 1)) = A1 (ix2 k (i 1)))
    (h2 : x2 (ix2 (y 0) (0 : Fin 1)) = A2 (ix2 (i 0) (0 : Fin 1))) :
    Cert.Spec.linScale x0 x1 x2 y = Cert.Spec.linScale A0 A1 A2 i := by
  show (∑ k : Fin 128, x0 (ix2 (y 0) k) * x1 (ix2 k (y 1))) * x2 (ix2 (y 0) (0 : Fin 1))
    = (∑ k : Fin 128, A0 (ix2 (i 0) k) * A1 (ix2 k (i 1))) * A2 (ix2 (i 0) (0 : Fin 1))
  rw [h2]
  congr 1
  exact Finset.sum_congr rfl fun k _ => by rw [h0 k, h1 k]

/-- Entry `j` of the output window's block at point `t` sits at row `5000 t + j₀`, column `j₁` of the output array. -/
theorem emb0_3 (t : Fin cfg0.N) (j : S5000x16.Idx) :
    ((((cfg0.win 3).blk t).view.emb j) 0).val = t.val * 5000 + (j 0).val
    ∧ ((((cfg0.win 3).blk t).view.emb j) 1).val = (j 1).val := by
  obtain ⟨-, -, -, -, -, -, e0, e1⟩ := idx_facts0 t
  constructor
  · show win0_3.index t (0 : Fin 2) * 5000 + 1 * (j 0).val = _; rw [e0]; omega
  · show win0_3.index t (1 : Fin 2) * 16 + 1 * (j 1).val = _; rw [e1]; omega

/-- An index of the output array is in point `t`'s block iff each coordinate is in the block's range on its axis. -/
theorem mem_blk0_3 (t : Fin cfg0.N) (i : S100000x16.Idx) :
    i ∈ ((cfg0.win 3).blk t).view.set ↔ ∀ a : Fin 2, win0_3.index t a * S5000x16.size a ≤ (i a).val ∧ (i a).val < win0_3.index t a * S5000x16.size a + S5000x16.size a := by
  show i ∈ ((View.whole main_v15).slice (win0_3.rect t)).set ↔ _
  rw [View.set_slice_whole, Rect.mem_set_unit]
  exact Iff.rfl

/-- Every row `r` of the output array is written back by the point `r / 5000`. -/
theorem covered0_3 (i : S100000x16.Idx) :
    ∃ t : Fin cfg0.N, (cfg0.win 3).flush t = true ∧ i ∈ ((cfg0.win 3).blk t).view.set := by
  have hi0 : (i 0).val < 100000 := idx2_lt0 i
  have hi1 : (i 1).val < 16 := idx2_lt1 i
  have hN : grid0.N = 20 := N_0
  have ht : (i 0).val / 5000 < grid0.N := by rw [hN]; omega
  refine ⟨⟨(i 0).val / 5000, ht⟩, flush0_3 _, ?_⟩
  rw [mem_blk0_3]
  obtain ⟨-, -, -, -, -, -, e0, e1⟩ := idx_facts0 ⟨(i 0).val / 5000, ht⟩
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ (1 : Fin 2) * 16 ≤ (i 1).val ∧ (i 1).val < win0_3.index ⟨(i 0).val / 5000, ht⟩ (1 : Fin 2) * 16 + 16
    rw [e1]; omega

/-- What point `t` writes back is block `t` of the scaled product of the arrays as the region finds them. -/
theorem flushed0_eq (c : Dev nD) (t : Fin cfg0.N) :
    (dat0 V c).flushed 3 t = ((cfg0.win 3).blk t).view.read (Elt Ideal)
      (Cert.Spec.linScale (V c main_arg0 : S100000x128.Idx → Elt Ideal .f32) (V c main_arg2 : S128x16.Idx → Elt Ideal .f32) (V c main_v14 : S100000x1.Idx → Elt Ideal .f32)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x16) hz, View.ld_unit_zero (S := S5000x1) hz]
  rw [pay0_eq, blk0_1_eq V c t]
  funext j
  rw [View.read_apply]
  obtain ⟨hj0, hj1⟩ := emb0_3 t j
  exact linScale_block0 _ _ _ _ _ _ j _ (fun k => blk0_0_apply V c t _ _ hj0 rfl)
    (fun k => congrArg _ (funext fun a => Fin.ext (by match a with | ⟨0, _⟩ => rfl | ⟨1, _⟩ => exact hj1.symm)))
    (blk0_2_apply V c t _ _ hj0 rfl)

/-- REGION 0: after the run its output array is the scaled product of its input arrays as the region found them. -/
theorem region0 (c : Dev nD) :
    (dat0 V c).arrAt 3 cfg0.N = Cert.Spec.linScale (V c main_arg0 : S100000x128.Idx → Elt Ideal .f32) (V c main_arg2 : S128x16.Idx → Elt Ideal .f32) (V c main_v14 : S100000x1.Idx → Elt Ideal .f32) :=
  (dat0 V c).arrAt_eq_of_cover 3 _ (fun t _ => flushed0_eq V c t) covered0_3

/-! ## Region 1: the layer finished on `[100000, 16]`, negative values cut off, in 20 blocks of 5000 rows -/

/-- The index maps of region 1, decided over its 20 grid points: a window cut into row blocks is at block row `t`
    at point `t`, a window that is its whole array stays at block `(0, 0)`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Window 0's block at point `t` is rows `5000 t … 5000 t + 4999` of its array. -/
theorem blk1_0_apply (c : Dev nD) (t : Fin cfg1.N) (y : S5000x16.Idx) (i : S100000x16.Idx)
    (h0 : (i 0).val = t.val * 5000 + (y 0).val) (h1 : (i 1).val = (y 1).val) :
    (iblk1 V c 0 t : Vec Ideal S5000x16 .f32) y = (V c main_v25 : S100000x16.Idx → Elt Ideal .f32) i := by
  obtain ⟨e0, e1, -, -, -, -, -, -, -, -⟩ := idx_facts1 t
  unfold iblk1
  rw [View.read_apply]
  show V c main_v25 _ = V c main_v25 i
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 16 + 1 * (y 1).val = (i 1).val; rw [e1, h1]; omega

/-- Window 1's block at point `t` is rows `5000 t … 5000 t + 4999` of its array. -/
theorem blk1_1_apply (c : Dev nD) (t : Fin cfg1.N) (y : S5000x16.Idx) (i : S100000x16.Idx)
    (h0 : (i 0).val = t.val * 5000 + (y 0).val) (h1 : (i 1).val = (y 1).val) :
    (iblk1 V c 1 t : Vec Ideal S5000x16 .f32) y = (V c main_v15 : S100000x16.Idx → Elt Ideal .f32) i := by
  obtain ⟨-, -, e0, e1, -, -, -, -, -, -⟩ := idx_facts1 t
  unfold iblk1
  rw [View.read_apply]
  show V c main_v15 _ = V c main_v15 i
  congr 1
  funext a
  apply Fin.ext
  match a with
  | ⟨0, _⟩ => show win1_1.index t (0 : Fin 2) * 5000 + 1 * (y 0).val = (i 0).val; rw [e0, h0]; omega
  | ⟨1, _⟩ => show win1_1.index t (1 : Fin 2) * 16 + 1 * (y 1).val = (i 1).val; rw [e1, h1]; omega

/-- Window 2's block at point `t` is rows `5000 t … 5000 t + 4999` of its array. -/
theorem blk1_2_apply (c : Dev nD) (t : Fin cfg1.N) (y : S5000x1.Idx) (i : S100000x1.Idx)
    (h0 : (i 0).val = t.val * 5000 + (y 0).val) (h1 : (i 1).val = (y 1).val) :
    (iblk1 V c 2 t : Vec Ideal S5000x1 .f32) y = (V c main_v14 : S100000x1.Idx → Elt Ideal .f32) i := by
  obtain ⟨-, -, -, -, e0, e1, -, -, -, -⟩ := idx_facts1 t
  unfold iblk1
  rw [View.read_apply]
  show V c main_v14 _ = V c main_v14 i
  congr 1
  funext a
  apply Fin.ext
  match a with
  | ⟨0, _⟩ => show win1_2.index t (0 : Fin 2) * 5000 + 1 * (y 0).val = (i 0).val; rw [e0, h0]; omega
  | ⟨1, _⟩ => show win1_2.index t (1 : Fin 2) * 1 + 1 * (y 1).val = (i 1).val; rw [e1, h1]; omega

/-- Window 3's block at every point is its whole array. -/
theorem blk1_3_eq (c : Dev nD) (t : Fin cfg1.N) :
    (iblk1 V c 3 t : Vec Ideal S1x16 .f32) = (V c main_v26 : S1x16.Idx → Elt Ideal .f32) := by
  obtain ⟨-, -, -, -, -, -, e0, e1, -, -⟩ := idx_facts1 t
  funext y
  unfold iblk1
  rw [View.read_apply]
  show V c main_v26 _ = V c main_v26 y
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 16 + 1 * (y 1).val = (y 1).val; rw [e1]; omega

/-- The finished layer of a row block is the row block of the finished layer: entry `y` computed from the block's rows of the
    aggregate, of the scaled products and of the factors, and from the bias row, is entry `i` computed from the whole arrays. -/
theorem finalizeRelu_block1 (A0 A1 : S100000x16.Idx → EReal) (A2 : S100000x1.Idx → EReal) (A3 : S1x16.Idx → EReal)
    (x0 x1 : S5000x16.Idx → EReal) (x2 : S5000x1.Idx → EReal) (x3 : S1x16.Idx → EReal) (y : S5000x16.Idx) (i : S100000x16.Idx)
    (h0 : x0 y = A0 i) (h1 : x1 y = A1 i)
    (h2 : x2 (ix2 (y 0) (0 : Fin 1)) = A2 (ix2 (i 0) (0 : Fin 1)))
    (h3 : x3 (ix2 (0 : Fin 1) (y 1)) = A3 (ix2 (0 : Fin 1) (i 1))) :
    Cert.Spec.finalizeRelu x0 x1 x2 x3 y = Cert.Spec.finalizeRelu A0 A1 A2 A3 i := by
  show max (x2 (ix2 (y 0) (0 : Fin 1)) * (x0 y + x1 y) + x3 (ix2 (0 : Fin 1) (y 1))) 0
    = max (A2 (ix2 (i 0) (0 : Fin 1)) * (A0 i + A1 i) + A3 (ix2 (0 : Fin 1) (i 1))) 0
  rw [h0, h1, h2, h3]

/-- Entry `j` of the output window's block at point `t` sits at row `5000 t + j₀`, column `j₁` of the output array. -/
theorem emb1_4 (t : Fin cfg1.N) (j : S5000x16.Idx) :
    ((((cfg1.win 4).blk t).view.emb j) 0).val = t.val * 5000 + (j 0).val
    ∧ ((((cfg1.win 4).blk t).view.emb j) 1).val = (j 1).val := by
  obtain ⟨-, -, -, -, -, -, -, -, e0, e1⟩ := idx_facts1 t
  constructor
  · show win1_4.index t (0 : Fin 2) * 5000 + 1 * (j 0).val = _; rw [e0]; omega
  · show win1_4.index t (1 : Fin 2) * 16 + 1 * (j 1).val = _; rw [e1]; omega

/-- An index of the output array is in point `t`'s block iff each coordinate is in the block's range on its axis. -/
theorem mem_blk1_4 (t : Fin cfg1.N) (i : S100000x16.Idx) :
    i ∈ ((cfg1.win 4).blk t).view.set ↔ ∀ a : Fin 2, win1_4.index t a * S5000x16.size a ≤ (i a).val ∧ (i a).val < win1_4.index t a * S5000x16.size a + S5000x16.size a := by
  show i ∈ ((View.whole main_v27).slice (win1_4.rect t)).set ↔ _
  rw [View.set_slice_whole, Rect.mem_set_unit]
  exact Iff.rfl

/-- Every row `r` of the output array is written back by the point `r / 5000`. -/
theorem covered1_4 (i : S100000x16.Idx) :
    ∃ t : Fin cfg1.N, (cfg1.win 4).flush t = true ∧ i ∈ ((cfg1.win 4).blk t).view.set := by
  have hi0 : (i 0).val < 100000 := idx2_lt0 i
  have hi1 : (i 1).val < 16 := idx2_lt1 i
  have hN : grid1.N = 20 := N_1
  have ht : (i 0).val / 5000 < grid1.N := by rw [hN]; omega
  refine ⟨⟨(i 0).val / 5000, ht⟩, flush1_4 _, ?_⟩
  rw [mem_blk1_4]
  obtain ⟨-, -, -, -, -, -, -, -, e0, e1⟩ := idx_facts1 ⟨(i 0).val / 5000, ht⟩
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, ht⟩ (1 : Fin 2) * 16 ≤ (i 1).val ∧ (i 1).val < win1_4.index ⟨(i 0).val / 5000, ht⟩ (1 : Fin 2) * 16 + 16
    rw [e1]; omega

/-- What point `t` writes back is block `t` of the finished layer of the arrays as the region finds them. -/
theorem flushed1_eq (c : Dev nD) (t : Fin cfg1.N) :
    (dat1 V c).flushed 4 t = ((cfg1.win 4).blk t).view.read (Elt Ideal)
      (Cert.Spec.finalizeRelu (V c main_v25 : S100000x16.Idx → Elt Ideal .f32) (V c main_v15 : S100000x16.Idx → Elt Ideal .f32) (V c main_v14 : S100000x1.Idx → Elt Ideal .f32) (V c main_v26 : S1x16.Idx → Elt Ideal .f32)) := by
  show (cfg1.win 4).cut (grid1.coords t) ((dat1 V c).after 4 t) = _
  rw [after1_4]
  unfold out1_4
  rw [View.canon_unit_zero hz]
  simp only [View.ld_unit_zero (S := S5000x16) hz, View.ld_unit_zero (S := S5000x1) hz, View.ld_unit_zero (S := S1x16) hz]
  rw [pay1_eq, blk1_3_eq V c t]
  funext j
  rw [View.read_apply]
  obtain ⟨hj0, hj1⟩ := emb1_4 t j
  exact finalizeRelu_block1 _ _ _ _ _ _ _ _ j _ (blk1_0_apply V c t _ _ hj0 hj1) (blk1_1_apply V c t _ _ hj0 hj1)
    (blk1_2_apply V c t _ _ hj0 rfl)
    (congrArg _ (funext fun a => Fin.ext (by match a with | ⟨0, _⟩ => rfl | ⟨1, _⟩ => exact hj1.symm)))

/-- REGION 1: after the run its output array is the finished layer of its input arrays as the region found them. -/
theorem region1 (c : Dev nD) :
    (dat1 V c).arrAt 4 cfg1.N = Cert.Spec.finalizeRelu (V c main_v25 : S100000x16.Idx → Elt Ideal .f32) (V c main_v15 : S100000x16.Idx → Elt Ideal .f32) (V c main_v14 : S100000x1.Idx → Elt Ideal .f32) (V c main_v26 : S1x16.Idx → Elt Ideal .f32) :=
  (dat1 V c).arrAt_eq_of_cover 4 _ (fun t _ => flushed1_eq V c t) covered1_4

/-! ## Region 2: the scaled product `[100000, 16] · [16, 8]`, in 20 blocks of 5000 rows -/

/-- The index maps of region 2, decided over its 20 grid points: a window cut into row blocks is at block row `t`
    at point `t`, a window that is its whole array stays at block `(0, 0)`. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Window 0's block at point `t` is rows `5000 t … 5000 t + 4999` of its array. -/
theorem blk2_0_apply (c : Dev nD) (t : Fin cfg2.N) (y : S5000x16.Idx) (i : S100000x16.Idx)
    (h0 : (i 0).val = t.val * 5000 + (y 0).val) (h1 : (i 1).val = (y 1).val) :
    (iblk2 V c 0 t : Vec Ideal S5000x16 .f32) y = (V c main_v27 : S100000x16.Idx → Elt Ideal .f32) i := by
  obtain ⟨e0, e1, -, -, -, -, -, -⟩ := idx_facts2 t
  unfold iblk2
  rw [View.read_apply]
  show V c main_v27 _ = V c main_v27 i
  congr 1
  funext a
  apply Fin.ext
  match a with
  | ⟨0, _⟩ => show win2_0.index t (0 : Fin 2) * 5000 + 1 * (y 0).val = (i 0).val; rw [e0, h0]; omega
  | ⟨1, _⟩ => show win2_0.index t (1 : Fin 2) * 16 + 1 * (y 1).val = (i 1).val; rw [e1, h1]; omega

/-- Window 1's block at every point is its whole array. -/
theorem blk2_1_eq (c : Dev nD) (t : Fin cfg2.N) :
    (iblk2 V c 1 t : Vec Ideal S16x8 .f32) = (V c main_arg4 : S16x8.Idx → Elt Ideal .f32) := by
  obtain ⟨-, -, e0, e1, -, -, -, -⟩ := idx_facts2 t
  funext y
  unfold iblk2
  rw [View.read_apply]
  show V c main_arg4 _ = V c main_arg4 y
  congr 1
  funext a
  apply Fin.ext
  match a with
  | ⟨0, _⟩ => show win2_1.index t (0 : Fin 2) * 16 + 1 * (y 0).val = (y 0).val; rw [e0]; omega
  | ⟨1, _⟩ => show win2_1.index t (1 : Fin 2) * 8 + 1 * (y 1).val = (y 1).val; rw [e1]; omega

/-- Window 2's block at point `t` is rows `5000 t … 5000 t + 4999` of its array. -/
theorem blk2_2_apply (c : Dev nD) (t : Fin cfg2.N) (y : S5000x1.Idx) (i : S100000x1.Idx)
    (h0 : (i 0).val = t.val * 5000 + (y 0).val) (h1 : (i 1).val = (y 1).val) :
    (iblk2 V c 2 t : Vec Ideal S5000x1 .f32) y = (V c main_v14 : S100000x1.Idx → Elt Ideal .f32) i := by
  obtain ⟨-, -, -, -, e0, e1, -, -⟩ := idx_facts2 t
  unfold iblk2
  rw [View.read_apply]
  show V c main_v14 _ = V c main_v14 i
  congr 1
  funext a
  apply Fin.ext
  match a with
  | ⟨0, _⟩ => show win2_2.index t (0 : Fin 2) * 5000 + 1 * (y 0).val = (i 0).val; rw [e0, h0]; omega
  | ⟨1, _⟩ => show win2_2.index t (1 : Fin 2) * 1 + 1 * (y 1).val = (i 1).val; rw [e1, h1]; omega

/-- The scaled product of a row block is the row block of the scaled product: entry `y` of the block computed from rows
    `x0`, the whole matrix `x1` and the factors `x2` of the block is entry `i` computed from the whole arrays, when the
    block's rows are the arrays' rows at `i`'s row. -/
theorem linScale_block2 (A0 : S100000x16.Idx → EReal) (A1 : S16x8.Idx → EReal) (A2 : S100000x1.Idx → EReal)
    (x0 : S5000x16.Idx → EReal) (x1 : S16x8.Idx → EReal) (x2 : S5000x1.Idx → EReal) (y : S5000x8.Idx) (i : S100000x8.Idx)
    (h0 : ∀ k : Fin 16, x0 (ix2 (y 0) k) = A0 (ix2 (i 0) k))
    (h1 : ∀ k : Fin 16, x1 (ix2 k (y 1)) = A1 (ix2 k (i 1)))
    (h2 : x2 (ix2 (y 0) (0 : Fin 1)) = A2 (ix2 (i 0) (0 : Fin 1))) :
    Cert.Spec.linScale x0 x1 x2 y = Cert.Spec.linScale A0 A1 A2 i := by
  show (∑ k : Fin 16, x0 (ix2 (y 0) k) * x1 (ix2 k (y 1))) * x2 (ix2 (y 0) (0 : Fin 1))
    = (∑ k : Fin 16, A0 (ix2 (i 0) k) * A1 (ix2 k (i 1))) * A2 (ix2 (i 0) (0 : Fin 1))
  rw [h2]
  congr 1
  exact Finset.sum_congr rfl fun k _ => by rw [h0 k, h1 k]

/-- Entry `j` of the output window's block at point `t` sits at row `5000 t + j₀`, column `j₁` of the output array. -/
theorem emb2_3 (t : Fin cfg2.N) (j : S5000x8.Idx) :
    ((((cfg2.win 3).blk t).view.emb j) 0).val = t.val * 5000 + (j 0).val
    ∧ ((((cfg2.win 3).blk t).view.emb j) 1).val = (j 1).val := by
  obtain ⟨-, -, -, -, -, -, e0, e1⟩ := idx_facts2 t
  constructor
  · show win2_3.index t (0 : Fin 2) * 5000 + 1 * (j 0).val = _; rw [e0]; omega
  · show win2_3.index t (1 : Fin 2) * 8 + 1 * (j 1).val = _; rw [e1]; omega

/-- An index of the output array is in point `t`'s block iff each coordinate is in the block's range on its axis. -/
theorem mem_blk2_3 (t : Fin cfg2.N) (i : S100000x8.Idx) :
    i ∈ ((cfg2.win 3).blk t).view.set ↔ ∀ a : Fin 2, win2_3.index t a * S5000x8.size a ≤ (i a).val ∧ (i a).val < win2_3.index t a * S5000x8.size a + S5000x8.size a := by
  show i ∈ ((View.whole main_v28).slice (win2_3.rect t)).set ↔ _
  rw [View.set_slice_whole, Rect.mem_set_unit]
  exact Iff.rfl

/-- Every row `r` of the output array is written back by the point `r / 5000`. -/
theorem covered2_3 (i : S100000x8.Idx) :
    ∃ t : Fin cfg2.N, (cfg2.win 3).flush t = true ∧ i ∈ ((cfg2.win 3).blk t).view.set := by
  have hi0 : (i 0).val < 100000 := idx2_lt0 i
  have hi1 : (i 1).val < 8 := idx2_lt1 i
  have hN : grid2.N = 20 := N_2
  have ht : (i 0).val / 5000 < grid2.N := by rw [hN]; omega
  refine ⟨⟨(i 0).val / 5000, ht⟩, flush2_3 _, ?_⟩
  rw [mem_blk2_3]
  obtain ⟨-, -, -, -, -, -, e0, e1⟩ := idx_facts2 ⟨(i 0).val / 5000, ht⟩
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_3.index ⟨(i 0).val / 5000, ht⟩ (1 : Fin 2) * 8 ≤ (i 1).val ∧ (i 1).val < win2_3.index ⟨(i 0).val / 5000, ht⟩ (1 : Fin 2) * 8 + 8
    rw [e1]; omega

/-- What point `t` writes back is block `t` of the scaled product of the arrays as the region finds them. -/
theorem flushed2_eq (c : Dev nD) (t : Fin cfg2.N) :
    (dat2 V c).flushed 3 t = ((cfg2.win 3).blk t).view.read (Elt Ideal)
      (Cert.Spec.linScale (V c main_v27 : S100000x16.Idx → Elt Ideal .f32) (V c main_arg4 : S16x8.Idx → Elt Ideal .f32) (V c main_v14 : S100000x1.Idx → Elt Ideal .f32)) := by
  show (cfg2.win 3).cut (grid2.coords t) ((dat2 V c).after 3 t) = _
  rw [after2_3]
  unfold out2_3
  rw [View.canon_unit_zero hz]
  simp only [View.ld_unit_zero (S := S5000x16) hz, View.ld_unit_zero (S := S16x8) hz, View.ld_unit_zero (S := S5000x1) hz]
  rw [pay2_eq, blk2_1_eq V c t]
  funext j
  rw [View.read_apply]
  obtain ⟨hj0, hj1⟩ := emb2_3 t j
  exact linScale_block2 _ _ _ _ _ _ j _ (fun k => blk2_0_apply V c t _ _ hj0 rfl)
    (fun k => congrArg _ (funext fun a => Fin.ext (by match a with | ⟨0, _⟩ => rfl | ⟨1, _⟩ => exact hj1.symm)))
    (blk2_2_apply V c t _ _ hj0 rfl)

/-- REGION 2: after the run its output array is the scaled product of its input arrays as the region found them. -/
theorem region2 (c : Dev nD) :
    (dat2 V c).arrAt 3 cfg2.N = Cert.Spec.linScale (V c main_v27 : S100000x16.Idx → Elt Ideal .f32) (V c main_arg4 : S16x8.Idx → Elt Ideal .f32) (V c main_v14 : S100000x1.Idx → Elt Ideal .f32) :=
  (dat2 V c).arrAt_eq_of_cover 3 _ (fun t _ => flushed2_eq V c t) covered2_3

/-! ## Region 3: the layer finished on `[100000, 8]`, in 20 blocks of 5000 rows -/

/-- The index maps of region 3, decided over its 20 grid points: a window cut into row blocks is at block row `t`
    at point `t`, a window that is its whole array stays at block `(0, 0)`. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Window 0's block at point `t` is rows `5000 t … 5000 t + 4999` of its array. -/
theorem blk3_0_apply (c : Dev nD) (t : Fin cfg3.N) (y : S5000x8.Idx) (i : S100000x8.Idx)
    (h0 : (i 0).val = t.val * 5000 + (y 0).val) (h1 : (i 1).val = (y 1).val) :
    (iblk3 V c 0 t : Vec Ideal S5000x8 .f32) y = (V c main_v38 : S100000x8.Idx → Elt Ideal .f32) i := by
  obtain ⟨e0, e1, -, -, -, -, -, -, -, -⟩ := idx_facts3 t
  unfold iblk3
  rw [View.read_apply]
  show V c main_v38 _ = V c main_v38 i
  congr 1
  funext a
  apply Fin.ext
  match a with
  | ⟨0, _⟩ => show win3_0.index t (0 : Fin 2) * 5000 + 1 * (y 0).val = (i 0).val; rw [e0, h0]; omega
  | ⟨1, _⟩ => show win3_0.index t (1 : Fin 2) * 8 + 1 * (y 1).val = (i 1).val; rw [e1, h1]; omega

/-- Window 1's block at point `t` is rows `5000 t … 5000 t + 4999` of its array. -/
theorem blk3_1_apply (c : Dev nD) (t : Fin cfg3.N) (y : S5000x8.Idx) (i : S100000x8.Idx)
    (h0 : (i 0).val = t.val * 5000 + (y 0).val) (h1 : (i 1).val = (y 1).val) :
    (iblk3 V c 1 t : Vec Ideal S5000x8 .f32) y = (V c main_v28 : S100000x8.Idx → Elt Ideal .f32) i := by
  obtain ⟨-, -, e0, e1, -, -, -, -, -, -⟩ := idx_facts3 t
  unfold iblk3
  rw [View.read_apply]
  show V c main_v28 _ = V c main_v28 i
  congr 1
  funext a
  apply Fin.ext
  match a with
  | ⟨0, _⟩ => show win3_1.index t (0 : Fin 2) * 5000 + 1 * (y 0).val = (i 0).val; rw [e0, h0]; omega
  | ⟨1, _⟩ => show win3_1.index t (1 : Fin 2) * 8 + 1 * (y 1).val = (i 1).val; rw [e1, h1]; omega

/-- Window 2's block at point `t` is rows `5000 t … 5000 t + 4999` of its array. -/
theorem blk3_2_apply (c : Dev nD) (t : Fin cfg3.N) (y : S5000x1.Idx) (i : S100000x1.Idx)
    (h0 : (i 0).val = t.val * 5000 + (y 0).val) (h1 : (i 1).val = (y 1).val) :
    (iblk3 V c 2 t : Vec Ideal S5000x1 .f32) y = (V c main_v14 : S100000x1.Idx → Elt Ideal .f32) i := by
  obtain ⟨-, -, -, -, e0, e1, -, -, -, -⟩ := idx_facts3 t
  unfold iblk3
  rw [View.read_apply]
  show V c main_v14 _ = V c main_v14 i
  congr 1
  funext a
  apply Fin.ext
  match a with
  | ⟨0, _⟩ => show win3_2.index t (0 : Fin 2) * 5000 + 1 * (y 0).val = (i 0).val; rw [e0, h0]; omega
  | ⟨1, _⟩ => show win3_2.index t (1 : Fin 2) * 1 + 1 * (y 1).val = (i 1).val; rw [e1, h1]; omega

/-- Window 3's block at every point is its whole array. -/
theorem blk3_3_eq (c : Dev nD) (t : Fin cfg3.N) :
    (iblk3 V c 3 t : Vec Ideal S1x8 .f32) = (V c main_v39 : S1x8.Idx → Elt Ideal .f32) := by
  obtain ⟨-, -, -, -, -, -, e0, e1, -, -⟩ := idx_facts3 t
  funext y
  unfold iblk3
  rw [View.read_apply]
  show V c main_v39 _ = V c main_v39 y
  congr 1
  funext a
  apply Fin.ext
  match a with
  | ⟨0, _⟩ => show win3_3.index t (0 : Fin 2) * 1 + 1 * (y 0).val = (y 0).val; rw [e0]; omega
  | ⟨1, _⟩ => show win3_3.index t (1 : Fin 2) * 8 + 1 * (y 1).val = (y 1).val; rw [e1]; omega

/-- The finished layer of a row block is the row block of the finished layer: entry `y` computed from the block's rows of the
    aggregate, of the scaled products and of the factors, and from the bias row, is entry `i` computed from the whole arrays. -/
theorem finalize_block3 (A0 A1 : S100000x8.Idx → EReal) (A2 : S100000x1.Idx → EReal) (A3 : S1x8.Idx → EReal)
    (x0 x1 : S5000x8.Idx → EReal) (x2 : S5000x1.Idx → EReal) (x3 : S1x8.Idx → EReal) (y : S5000x8.Idx) (i : S100000x8.Idx)
    (h0 : x0 y = A0 i) (h1 : x1 y = A1 i)
    (h2 : x2 (ix2 (y 0) (0 : Fin 1)) = A2 (ix2 (i 0) (0 : Fin 1)))
    (h3 : x3 (ix2 (0 : Fin 1) (y 1)) = A3 (ix2 (0 : Fin 1) (i 1))) :
    Cert.Spec.finalize x0 x1 x2 x3 y = Cert.Spec.finalize A0 A1 A2 A3 i := by
  show x2 (ix2 (y 0) (0 : Fin 1)) * (x0 y + x1 y) + x3 (ix2 (0 : Fin 1) (y 1))
    = A2 (ix2 (i 0) (0 : Fin 1)) * (A0 i + A1 i) + A3 (ix2 (0 : Fin 1) (i 1))
  rw [h0, h1, h2, h3]

/-- Entry `j` of the output window's block at point `t` sits at row `5000 t + j₀`, column `j₁` of the output array. -/
theorem emb3_4 (t : Fin cfg3.N) (j : S5000x8.Idx) :
    ((((cfg3.win 4).blk t).view.emb j) 0).val = t.val * 5000 + (j 0).val
    ∧ ((((cfg3.win 4).blk t).view.emb j) 1).val = (j 1).val := by
  obtain ⟨-, -, -, -, -, -, -, -, e0, e1⟩ := idx_facts3 t
  constructor
  · show win3_4.index t (0 : Fin 2) * 5000 + 1 * (j 0).val = _; rw [e0]; omega
  · show win3_4.index t (1 : Fin 2) * 8 + 1 * (j 1).val = _; rw [e1]; omega

/-- An index of the output array is in point `t`'s block iff each coordinate is in the block's range on its axis. -/
theorem mem_blk3_4 (t : Fin cfg3.N) (i : S100000x8.Idx) :
    i ∈ ((cfg3.win 4).blk t).view.set ↔ ∀ a : Fin 2, win3_4.index t a * S5000x8.size a ≤ (i a).val ∧ (i a).val < win3_4.index t a * S5000x8.size a + S5000x8.size a := by
  show i ∈ ((View.whole main_v40).slice (win3_4.rect t)).set ↔ _
  rw [View.set_slice_whole, Rect.mem_set_unit]
  exact Iff.rfl

/-- Every row `r` of the output array is written back by the point `r / 5000`. -/
theorem covered3_4 (i : S100000x8.Idx) :
    ∃ t : Fin cfg3.N, (cfg3.win 4).flush t = true ∧ i ∈ ((cfg3.win 4).blk t).view.set := by
  have hi0 : (i 0).val < 100000 := idx2_lt0 i
  have hi1 : (i 1).val < 8 := idx2_lt1 i
  have hN : grid3.N = 20 := N_3
  have ht : (i 0).val / 5000 < grid3.N := by rw [hN]; omega
  refine ⟨⟨(i 0).val / 5000, ht⟩, flush3_4 _, ?_⟩
  rw [mem_blk3_4]
  obtain ⟨-, -, -, -, -, -, -, -, e0, e1⟩ := idx_facts3 ⟨(i 0).val / 5000, ht⟩
  intro a
  match a with
  | ⟨0, _⟩ =>
    show win3_4.index ⟨(i 0).val / 5000, ht⟩ (0 : Fin 2) * 5000 ≤ (i 0).val ∧ (i 0).val < win3_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_4.index ⟨(i 0).val / 5000, ht⟩ (1 : Fin 2) * 8 ≤ (i 1).val ∧ (i 1).val < win3_4.index ⟨(i 0).val / 5000, ht⟩ (1 : Fin 2) * 8 + 8
    rw [e1]; omega

/-- What point `t` writes back is block `t` of the finished layer of the arrays as the region finds them. -/
theorem flushed3_eq (c : Dev nD) (t : Fin cfg3.N) :
    (dat3 V c).flushed 4 t = ((cfg3.win 4).blk t).view.read (Elt Ideal)
      (Cert.Spec.finalize (V c main_v38 : S100000x8.Idx → Elt Ideal .f32) (V c main_v28 : S100000x8.Idx → Elt Ideal .f32) (V c main_v14 : S100000x1.Idx → Elt Ideal .f32) (V c main_v39 : S1x8.Idx → Elt Ideal .f32)) := by
  show (cfg3.win 4).cut (grid3.coords t) ((dat3 V c).after 4 t) = _
  rw [after3_4]
  unfold out3_4
  rw [View.canon_unit_zero hz]
  simp only [View.ld_unit_zero (S := S5000x8) hz, View.ld_unit_zero (S := S5000x1) hz, View.ld_unit_zero (S := S1x8) hz]
  rw [pay3_eq, blk3_3_eq V c t]
  funext j
  rw [View.read_apply]
  obtain ⟨hj0, hj1⟩ := emb3_4 t j
  exact finalize_block3 _ _ _ _ _ _ _ _ j _ (blk3_0_apply V c t _ _ hj0 hj1) (blk3_1_apply V c t _ _ hj0 hj1)
    (blk3_2_apply V c t _ _ hj0 rfl)
    (congrArg _ (funext fun a => Fin.ext (by match a with | ⟨0, _⟩ => rfl | ⟨1, _⟩ => exact hj1.symm)))

/-- REGION 3: after the run its output array is the finished layer of its input arrays as the region found them. -/
theorem region3 (c : Dev nD) :
    (dat3 V c).arrAt 4 cfg3.N = Cert.Spec.finalize (V c main_v38 : S100000x8.Idx → Elt Ideal .f32) (V c main_v28 : S100000x8.Idx → Elt Ideal .f32) (V c main_v14 : S100000x1.Idx → Elt Ideal .f32) (V c main_v39 : S1x8.Idx → Elt Ideal .f32) :=
  (dat3 V c).arrAt_eq_of_cover 4 _ (fun t _ => flushed3_eq V c t) covered3_4

end Cert.KernelIdeal.RegionValue

end
-- ==== Proof.KStages.lean ====
/-
  The kernel program's dataflow at the extended reals, stage by stage, as functions of its six argument arrays:
  the node features `x`, the edge list `ei` (row 0 the source node of each edge, row 1 its destination), and the two
  layers' weights and biases. Each stage is spelt with the very operations the program applies on the host, so that the
  program's run ends, by definition, at `out`; the four node-wise steps that run on the accelerator enter as the
  whole-array functions of `Cert.Spec`.
-/
import proofs.«174125_j69157563400469_2_alg».proof.Proof.Gen.KernelIdeal
import proofs.«174125_j69157563400469_2_alg».proof.Proof.Spec
import Idealize.ShloMosaic.PureOps.Ideal

noncomputable section

namespace Cert.KernelIdeal.Stages

open Idealize.ShloMosaic Cert.KernelIdeal Cert.KernelIdeal.Gen

variable (x : FVec Ideal S100000x128 .f32) (ei : IVec S2x6400000 32) (w1 : FVec Ideal S128x16 .f32)
  (b1 : FVec Ideal S16 .f32) (w2 : FVec Ideal S16x8 .f32) (b2 : FVec Ideal S8 .f32)

/-- The edges' source nodes: row 0 of the edge list. -/
def src : IVec S6400000 32 :=
  shapeCast S6400000 (extractStridedSlice S1x6400000 ![0, 0] ei slices_S2x6400000_S1x6400000_0_0) shapeCasts_S1x6400000_S6400000
/-- The edges' destination nodes: row 1 of the edge list. -/
def dst : IVec S6400000 32 :=
  shapeCast S6400000 (extractStridedSlice S1x6400000 ![1, 0] ei slices_S2x6400000_S1x6400000_1_0) shapeCasts_S1x6400000_S6400000

/-- A node's degree: one for every edge arriving at it, and one more for the loop the node is given to itself. -/
def deg : FVec Ideal S100000 .f32 :=
  addf (Host.scatterAdd scatter_S100000_S6400000x1_S6400000_n_0_0_1
      (broadcastInDim S100000 ![] bcast_S_S100000 (constant S_ .f32 0x00000000#32))
      (broadcastInDim S6400000x1 ![0] bcast_S6400000_S6400000x1_0 (dst ei))
      (broadcastInDim S6400000 ![] bcast_S_S6400000 (constant S_ .f32 0x3F800000#32)))
    (broadcastInDim S100000 ![] bcast_S_S100000 (constant S_ .f32 0x3F800000#32))

/-- A node's normalising factor: one over the square root of its degree where the degree is positive, zero elsewhere. -/
def dis : FVec Ideal S100000 .f32 :=
  select (cmpf .ogt (deg ei) (broadcastInDim S100000 ![] bcast_S_S100000 (constant S_ .f32 0x00000000#32)))
    (Host.rsqrt (deg ei))
    (broadcastInDim S100000 ![] bcast_S_S100000 (constant S_ .f32 0x00000000#32))

/-- The factors as a column. -/
def dis2d : FVec Ideal S100000x1 .f32 := broadcastInDim S100000x1 ![0] bcast_S100000_S100000x1_0 (dis ei)

/-- The source nodes as the row lookup takes them: a negative number counts from the end of the node list. -/
def srcN : IVec S6400000 32 :=
  select (cmpi .slt (src ei) (broadcastInDim S6400000 ![] bcast_S_S6400000 (constantI S_ 32 0#32)))
    (addi (src ei) (broadcastInDim S6400000 ![] bcast_S_S6400000 (constantI S_ 32 100000#32)))
    (src ei)

/-- Layer 1, the scaled products: `(x · w1)` with row `r` times `dis r`. -/
def hw1s : FVec Ideal S100000x16 .f32 := Cert.Spec.linScale x w1 (dis2d ei)

/-- Layer 1, the aggregate: for every edge the scaled row of its source node, summed at its destination node. -/
def agg1 : FVec Ideal S100000x16 .f32 :=
  Host.scatterAdd scatter_S100000x16_S6400000x1_S6400000x16_1_0_0_1
    (broadcastInDim S100000x16 ![] bcast_S_S100000x16 (constant S_ .f32 0x00000000#32))
    (broadcastInDim S6400000x1 ![0] bcast_S6400000_S6400000x1_0 (dst ei))
    (Host.gather gather_S100000x16_S6400000x1_S6400000x16_1_0_n_n_0_1_116 (hw1s x ei w1)
      (broadcastInDim S6400000x1 ![0] bcast_S6400000_S6400000x1_0 (srcN ei)))

/-- Layer 1's result: the factor times (aggregate plus own scaled row), plus the bias, cut off at zero. -/
def h : FVec Ideal S100000x16 .f32 :=
  Cert.Spec.finalizeRelu (agg1 x ei w1) (hw1s x ei w1) (dis2d ei) (shapeCast S1x16 b1 shapeCasts_S16_S1x16)

/-- Layer 2, the scaled products. -/
def hw2s : FVec Ideal S100000x8 .f32 := Cert.Spec.linScale (h x ei w1 b1) w2 (dis2d ei)

/-- Layer 2, the aggregate. -/
def agg2 : FVec Ideal S100000x8 .f32 :=
  Host.scatterAdd scatter_S100000x8_S6400000x1_S6400000x8_1_0_0_1
    (broadcastInDim S100000x8 ![] bcast_S_S100000x8 (constant S_ .f32 0x00000000#32))
    (broadcastInDim S6400000x1 ![0] bcast_S6400000_S6400000x1_0 (dst ei))
    (Host.gather gather_S100000x8_S6400000x1_S6400000x8_1_0_n_n_0_1_18 (hw2s x ei w1 b1 w2)
      (broadcastInDim S6400000x1 ![0] bcast_S6400000_S6400000x1_0 (srcN ei)))

/-- The program's result: layer 2 finished, with no cut-off. -/
def out : FVec Ideal S100000x8 .f32 :=
  Cert.Spec.finalize (agg2 x ei w1 b1 w2) (hw2s x ei w1 b1 w2) (dis2d ei) (shapeCast S1x8 b2 shapeCasts_S8_S1x8)

end Cert.KernelIdeal.Stages

end
-- ==== Proof.KRun.lean ====
/-
  The kernel program's run, read as a value: its result buffer ends holding `Cert.KernelIdeal.Stages.out` of the six
  argument arrays.

  The program is a chain of nine segments: stretches of whole-array operations (the degree count and the normalising
  factors; the row lookups and the sums over incoming edges; the biases laid out as rows) alternating with the four
  node-wise steps. What every buffer holds at a segment boundary is a fold over the chain from the launch memory. The
  run ends with the result buffer at the end of that fold. Walking the fold back one segment at a time — a node-wise
  step's output is the whole-array function of `RegionValue`, a whole-array operation's output is that operation of its
  operands, every other buffer is carried unchanged — names each intermediate array, at each boundary where it is
  read, as the corresponding stage of `Stages`, down to the arguments at launch.
-/
import proofs.«174125_j69157563400469_2_alg».proof.Proof.KRegions
import proofs.«174125_j69157563400469_2_alg».proof.Proof.KStages

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of the program from `m` terminates without a fault, with the result buffer holding what the
    fold of the program's segments leaves there (`W9`), and with the six arguments as launched. -/
theorem run_W9 : θ_run defs (onTc (τ := τ) (main (F := Ideal))) ⟨m, fun _ => 0, ρ⟩ (fun r => ∀ c : Dev nD,
      r.2.mem ((c.tc : Thread nD τ).loc main_v40) = W9 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v40 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

/-- The node features of device `c` as launched. -/
abbrev aX (c : Dev nD) : FVec Ideal S100000x128 .f32 := m ((c.tc : Thread nD τ).loc main_arg0)
/-- The edge list as launched. -/
abbrev aE (c : Dev nD) : IVec S2x6400000 32 := m ((c.tc : Thread nD τ).loc main_arg1)
/-- The first layer's weights as launched. -/
abbrev aW1 (c : Dev nD) : FVec Ideal S128x16 .f32 := m ((c.tc : Thread nD τ).loc main_arg2)
/-- The first layer's bias as launched. -/
abbrev aB1 (c : Dev nD) : FVec Ideal S16 .f32 := m ((c.tc : Thread nD τ).loc main_arg3)
/-- The second layer's weights as launched. -/
abbrev aW2 (c : Dev nD) : FVec Ideal S16x8 .f32 := m ((c.tc : Thread nD τ).loc main_arg4)
/-- The second layer's bias as launched. -/
abbrev aB2 (c : Dev nD) : FVec Ideal S8 .f32 := m ((c.tc : Thread nD τ).loc main_arg5)

/-- The select of the factor's definition is written at buffers typed by the values they hold; reading such a buffer at its
    value's type, or writing a value to it, is the identity. -/
theorem where_toBuf13 (v : (⟨S100000, .f32⟩ : BufTy).Contents (Elt Ideal)) :
    (StableHlo.TRef.of (T := ⟨S100000, .f32⟩) main_v13).toBuf v = v := rfl
/-- Reading the positivity mask at its value's type is the identity. -/
theorem where_ofBuf11 (u : main_v11.ty.Contents (Elt Ideal)) :
    (StableHlo.TRef.of (T := ⟨S100000, .i1⟩) main_v11).ofBuf u = u := rfl
/-- Reading the inverse square roots at their value's type is the identity. -/
theorem where_ofBuf12 (v : main_v12.ty.Contents (Elt Ideal)) :
    (StableHlo.TRef.of (T := ⟨S100000, .f32⟩) main_v12).ofBuf v = v := rfl
/-- Reading the broadcast zero at its value's type is the identity. -/
theorem where_ofBuf0 (v : main_call0_v0.ty.Contents (Elt Ideal)) :
    (StableHlo.TRef.of (T := ⟨S100000, .f32⟩) main_call0_v0).ofBuf v = v := rfl
/-- Writing the broadcast zero to its buffer is the identity. -/
theorem where_toBuf0 (v : (⟨S100000, .f32⟩ : BufTy).Contents (Elt Ideal)) :
    (StableHlo.TRef.of (T := ⟨S100000, .f32⟩) main_call0_v0).toBuf v = v := rfl
/-- Reading the scalar zero at its value's type is the identity. -/
theorem where_ofBuf3 (v : main_cst_3.ty.Contents (Elt Ideal)) :
    (StableHlo.TRef.of (T := ⟨S_, .f32⟩) main_cst_3).ofBuf v = v := rfl

/-- The edges' destination nodes, after the opening stretch of whole-array operations. -/
theorem dst_at1 (c : Dev nD) : W1 m ρ c (Proc.devRef .tc main_v3) = Stages.dst (aE m c) := by
  show StableHlo.after hostOps0 (W0 m ρ c) (Proc.devRef .tc main_v3) = _
  simp only [hostOps0]
  after_results
  rfl

/-- The nodes' degrees, after the opening stretch. -/
theorem deg_at1 (c : Dev nD) : W1 m ρ c (Proc.devRef .tc main_v9) = Stages.deg (aE m c) := by
  show StableHlo.after hostOps0 (W0 m ρ c) (Proc.devRef .tc main_v9) = _
  simp only [hostOps0]
  after_results
  rfl

/-- Where the degree is positive, after the opening stretch. -/
theorem v11_at1 (c : Dev nD) : W1 m ρ c (Proc.devRef .tc main_v11)
    = cmpf .ogt (Stages.deg (aE m c)) (broadcastInDim S100000 ![] bcast_S_S100000 (constant (F := Ideal) S_ .f32 0x00000000#32)) := by
  show StableHlo.after hostOps0 (W0 m ρ c) (Proc.devRef .tc main_v11) = _
  simp only [hostOps0]
  after_results
  rfl

/-- One over the square root of the degree, after the opening stretch. -/
theorem v12_at1 (c : Dev nD) : W1 m ρ c (Proc.devRef .tc main_v12) = Host.rsqrt (Stages.deg (aE m c)) := by
  show StableHlo.after hostOps0 (W0 m ρ c) (Proc.devRef .tc main_v12) = _
  simp only [hostOps0]
  after_results
  rfl

/-- The zero the factor takes where the degree is not positive, after the opening stretch. -/
theorem cst3_at1 (c : Dev nD) : W1 m ρ c (Proc.devRef .tc main_cst_3) = constant (F := Ideal) S_ .f32 0x00000000#32 := by
  show StableHlo.after hostOps0 (W0 m ρ c) (Proc.devRef .tc main_cst_3) = _
  simp only [hostOps0]
  after_results

/-- The normalising factors: the select between the two, after its own stretch. -/
theorem dis_at2 (c : Dev nD) : W2 m ρ c (Proc.devRef .tc main_v13) = Stages.dis (aE m c) := by
  have h11 := v11_at1 m ρ c
  have h12 := v12_at1 m ρ c
  have h3 := cst3_at1 m ρ c
  show StableHlo.after hostOps0_1 (W1 m ρ c) (Proc.devRef .tc main_v13) = _
  generalize W1 m ρ c = F at h11 h12 h3 ⊢
  simp only [hostOps0_1]
  after_results
  rw [where_toBuf13, where_ofBuf11, where_ofBuf12, where_ofBuf0, where_toBuf0, where_ofBuf3]
  rw [h11, h12, h3]
  rfl

/-- The column of normalising factors, where the first scaled product starts. -/
theorem dis_at3 (c : Dev nD) : W3 m ρ c (Proc.devRef .tc main_v14) = Stages.dis2d (aE m c) := by
  have h := dis_at2 m ρ c
  show StableHlo.after hostOps0_2 (W2 m ρ c) (Proc.devRef .tc main_v14) = _
  generalize W2 m ρ c = F at h ⊢
  simp only [hostOps0_2]
  after_results
  rw [h]
  first | done | rfl

/-- The edges' source nodes, where the first scaled product starts. -/
theorem src_at3 (c : Dev nD) : W3 m ρ c (Proc.devRef .tc main_v1) = Stages.src (aE m c) := by
  show StableHlo.after hostOps0_2 (StableHlo.after hostOps0_1 (StableHlo.after hostOps0 (W0 m ρ c))) (Proc.devRef .tc main_v1) = _
  simp only [hostOps0, hostOps0_1, hostOps0_2]
  after_results
  try rfl

/-- The edges' destination nodes, where the first scaled product starts. -/
theorem dst_at3 (c : Dev nD) : W3 m ρ c (Proc.devRef .tc main_v3) = Stages.dst (aE m c) := by
  show StableHlo.after hostOps0_2 (StableHlo.after hostOps0_1 (StableHlo.after hostOps0 (W0 m ρ c))) (Proc.devRef .tc main_v3) = _
  simp only [hostOps0, hostOps0_1, hostOps0_2]
  after_results
  try rfl

/-- The node features, where the first scaled product starts. -/
theorem x_at3 (c : Dev nD) : W3 m ρ c (Proc.devRef .tc main_arg0) = (aX m c) := by
  show StableHlo.after hostOps0_2 (StableHlo.after hostOps0_1 (StableHlo.after hostOps0 (W0 m ρ c))) (Proc.devRef .tc main_arg0) = _
  simp only [hostOps0, hostOps0_1, hostOps0_2]
  after_results
  try rfl

/-- The first layer's weights, where the first scaled product starts. -/
theorem w1_at3 (c : Dev nD) : W3 m ρ c (Proc.devRef .tc main_arg2) = (aW1 m c) := by
  show StableHlo.after hostOps0_2 (StableHlo.after hostOps0_1 (StableHlo.after hostOps0 (W0 m ρ c))) (Proc.devRef .tc main_arg2) = _
  simp only [hostOps0, hostOps0_1, hostOps0_2]
  after_results
  try rfl

/-- The first layer's bias, where the first scaled product starts. -/
theorem b1_at3 (c : Dev nD) : W3 m ρ c (Proc.devRef .tc main_arg3) = (aB1 m c) := by
  show StableHlo.after hostOps0_2 (StableHlo.after hostOps0_1 (StableHlo.after hostOps0 (W0 m ρ c))) (Proc.devRef .tc main_arg3) = _
  simp only [hostOps0, hostOps0_1, hostOps0_2]
  after_results
  try rfl

/-- The second layer's weights, where the first scaled product starts. -/
theorem w2_at3 (c : Dev nD) : W3 m ρ c (Proc.devRef .tc main_arg4) = (aW2 m c) := by
  show StableHlo.after hostOps0_2 (StableHlo.after hostOps0_1 (StableHlo.after hostOps0 (W0 m ρ c))) (Proc.devRef .tc main_arg4) = _
  simp only [hostOps0, hostOps0_1, hostOps0_2]
  after_results
  try rfl

/-- The second layer's bias, where the first scaled product starts. -/
theorem b2_at3 (c : Dev nD) : W3 m ρ c (Proc.devRef .tc main_arg5) = (aB2 m c) := by
  show StableHlo.after hostOps0_2 (StableHlo.after hostOps0_1 (StableHlo.after hostOps0 (W0 m ρ c))) (Proc.devRef .tc main_arg5) = _
  simp only [hostOps0, hostOps0_1, hostOps0_2]
  after_results
  try rfl
/-- The first layer's scaled products, after the first scaled product. -/
theorem hw1s_at4 (c : Dev nD) : W4 m ρ c (Proc.devRef .tc main_v15) = Stages.hw1s (aX m c) (aE m c) (aW1 m c) := by
  refine (W4_arr m ρ c 3).trans ((RegionValue.region0 (V3 m ρ) c).trans ?_)
  show Cert.Spec.linScale (W3 m ρ c (Proc.devRef .tc main_arg0) : S100000x128.Idx → Elt Ideal .f32) (W3 m ρ c (Proc.devRef .tc main_arg2) : S128x16.Idx → Elt Ideal .f32) (W3 m ρ c (Proc.devRef .tc main_v14) : S100000x1.Idx → Elt Ideal .f32) = _
  rw [x_at3, w1_at3, dis_at3]
  first | done | rfl

/-- The edges' source nodes, after the first scaled product. -/
theorem src_at4 (c : Dev nD) : W4 m ρ c (Proc.devRef .tc main_v1) = Stages.src (aE m c) :=
  (W4_of_ne m ρ c main_v1 (by decide)).trans (src_at3 m ρ c)

/-- The edges' destination nodes, after the first scaled product. -/
theorem dst_at4 (c : Dev nD) : W4 m ρ c (Proc.devRef .tc main_v3) = Stages.dst (aE m c) :=
  (W4_of_ne m ρ c main_v3 (by decide)).trans (dst_at3 m ρ c)

/-- The first layer's bias, after the first scaled product. -/
theorem b1_at4 (c : Dev nD) : W4 m ρ c (Proc.devRef .tc main_arg3) = (aB1 m c) :=
  (W4_of_ne m ρ c main_arg3 (by decide)).trans (b1_at3 m ρ c)

/-- The second layer's weights, after the first scaled product. -/
theorem w2_at4 (c : Dev nD) : W4 m ρ c (Proc.devRef .tc main_arg4) = (aW2 m c) :=
  (W4_of_ne m ρ c main_arg4 (by decide)).trans (w2_at3 m ρ c)

/-- The second layer's bias, after the first scaled product. -/
theorem b2_at4 (c : Dev nD) : W4 m ρ c (Proc.devRef .tc main_arg5) = (aB2 m c) :=
  (W4_of_ne m ρ c main_arg5 (by decide)).trans (b2_at3 m ρ c)

/-- The column of normalising factors, after the first scaled product. -/
theorem dis_at4 (c : Dev nD) : W4 m ρ c (Proc.devRef .tc main_v14) = Stages.dis2d (aE m c) :=
  calc W4 m ρ c (Proc.devRef .tc main_v14)
    _ = W3 m ρ c (Proc.devRef .tc main_v14) :=
        (W4_arr m ρ c 2).trans (((dat0 (V3 m ρ) c).arrAt_in 2 rfl _).trans (A_eq0 (V3 m ρ) c 2))
    _ = _ := dis_at3 m ρ c

/-- The first layer's aggregate, where the first layer is finished. -/
theorem agg1_at5 (c : Dev nD) : W5 m ρ c (Proc.devRef .tc main_v25) = Stages.agg1 (aX m c) (aE m c) (aW1 m c) := by
  have h0 := src_at4 m ρ c
  have h1 := dst_at4 m ρ c
  have h2 := hw1s_at4 m ρ c
  show StableHlo.after hostOps1 (W4 m ρ c) (Proc.devRef .tc main_v25) = _
  generalize W4 m ρ c = F at h0 h1 h2 ⊢
  simp only [hostOps1]
  after_results
  rw [h0, h1, h2]
  first | done | rfl

/-- The first layer's bias as a row, where the first layer is finished. -/
theorem b1row_at5 (c : Dev nD) : W5 m ρ c (Proc.devRef .tc main_v26) = shapeCast S1x16 (aB1 m c) shapeCasts_S16_S1x16 := by
  have h0 := b1_at4 m ρ c
  show StableHlo.after hostOps1 (W4 m ρ c) (Proc.devRef .tc main_v26) = _
  generalize W4 m ρ c = F at h0 ⊢
  simp only [hostOps1]
  after_results
  rw [h0]
  first | done | rfl

/-- The first layer's scaled products, where the first layer is finished. -/
theorem hw1s_at5 (c : Dev nD) : W5 m ρ c (Proc.devRef .tc main_v15) = Stages.hw1s (aX m c) (aE m c) (aW1 m c) := by
  have h0 := hw1s_at4 m ρ c
  show StableHlo.after hostOps1 (W4 m ρ c) (Proc.devRef .tc main_v15) = _
  generalize W4 m ρ c = F at h0 ⊢
  simp only [hostOps1]
  after_results
  rw [h0]

/-- The column of normalising factors, where the first layer is finished. -/
theorem dis_at5 (c : Dev nD) : W5 m ρ c (Proc.devRef .tc main_v14) = Stages.dis2d (aE m c) := by
  have h0 := dis_at4 m ρ c
  show StableHlo.after hostOps1 (W4 m ρ c) (Proc.devRef .tc main_v14) = _
  generalize W4 m ρ c = F at h0 ⊢
  simp only [hostOps1]
  after_results
  rw [h0]

/-- The edges' source nodes, where the first layer is finished. -/
theorem src_at5 (c : Dev nD) : W5 m ρ c (Proc.devRef .tc main_v1) = Stages.src (aE m c) := by
  have h0 := src_at4 m ρ c
  show StableHlo.after hostOps1 (W4 m ρ c) (Proc.devRef .tc main_v1) = _
  generalize W4 m ρ c = F at h0 ⊢
  simp only [hostOps1]
  after_results
  rw [h0]

/-- The edges' destination nodes, where the first layer is finished. -/
theorem dst_at5 (c : Dev nD) : W5 m ρ c (Proc.devRef .tc main_v3) = Stages.dst (aE m c) := by
  have h0 := dst_at4 m ρ c
  show StableHlo.after hostOps1 (W4 m ρ c) (Proc.devRef .tc main_v3) = _
  generalize W4 m ρ c = F at h0 ⊢
  simp only [hostOps1]
  after_results
  rw [h0]

/-- The second layer's weights, where the first layer is finished. -/
theorem w2_at5 (c : Dev nD) : W5 m ρ c (Proc.devRef .tc main_arg4) = (aW2 m c) := by
  have h0 := w2_at4 m ρ c
  show StableHlo.after hostOps1 (W4 m ρ c) (Proc.devRef .tc main_arg4) = _
  generalize W4 m ρ c = F at h0 ⊢
  simp only [hostOps1]
  after_results
  rw [h0]

/-- The second layer's bias, where the first layer is finished. -/
theorem b2_at5 (c : Dev nD) : W5 m ρ c (Proc.devRef .tc main_arg5) = (aB2 m c) := by
  have h0 := b2_at4 m ρ c
  show StableHlo.after hostOps1 (W4 m ρ c) (Proc.devRef .tc main_arg5) = _
  generalize W4 m ρ c = F at h0 ⊢
  simp only [hostOps1]
  after_results
  rw [h0]

/-- The first layer's result, after the first layer is finished. -/
theorem h_at6 (c : Dev nD) : W6 m ρ c (Proc.devRef .tc main_v27) = Stages.h (aX m c) (aE m c) (aW1 m c) (aB1 m c) := by
  refine (W6_arr m ρ c 4).trans ((RegionValue.region1 (V5 m ρ) c).trans ?_)
  show Cert.Spec.finalizeRelu (W5 m ρ c (Proc.devRef .tc main_v25) : S100000x16.Idx → Elt Ideal .f32) (W5 m ρ c (Proc.devRef .tc main_v15) : S100000x16.Idx → Elt Ideal .f32) (W5 m ρ c (Proc.devRef .tc main_v14) : S100000x1.Idx → Elt Ideal .f32) (W5 m ρ c (Proc.devRef .tc main_v26) : S1x16.Idx → Elt Ideal .f32) = _
  rw [agg1_at5, hw1s_at5, dis_at5, b1row_at5]
  first | done | rfl

/-- The edges' source nodes, after the first layer is finished. -/
theorem src_at6 (c : Dev nD) : W6 m ρ c (Proc.devRef .tc main_v1) = Stages.src (aE m c) :=
  (W6_of_ne m ρ c main_v1 (by decide)).trans (src_at5 m ρ c)

/-- The edges' destination nodes, after the first layer is finished. -/
theorem dst_at6 (c : Dev nD) : W6 m ρ c (Proc.devRef .tc main_v3) = Stages.dst (aE m c) :=
  (W6_of_ne m ρ c main_v3 (by decide)).trans (dst_at5 m ρ c)

/-- The second layer's weights, after the first layer is finished. -/
theorem w2_at6 (c : Dev nD) : W6 m ρ c (Proc.devRef .tc main_arg4) = (aW2 m c) :=
  (W6_of_ne m ρ c main_arg4 (by decide)).trans (w2_at5 m ρ c)

/-- The second layer's bias, after the first layer is finished. -/
theorem b2_at6 (c : Dev nD) : W6 m ρ c (Proc.devRef .tc main_arg5) = (aB2 m c) :=
  (W6_of_ne m ρ c main_arg5 (by decide)).trans (b2_at5 m ρ c)

/-- The column of normalising factors, after the first layer is finished. -/
theorem dis_at6 (c : Dev nD) : W6 m ρ c (Proc.devRef .tc main_v14) = Stages.dis2d (aE m c) :=
  calc W6 m ρ c (Proc.devRef .tc main_v14)
    _ = W5 m ρ c (Proc.devRef .tc main_v14) :=
        (W6_arr m ρ c 2).trans (((dat1 (V5 m ρ) c).arrAt_in 2 rfl _).trans (A_eq1 (V5 m ρ) c 2))
    _ = _ := dis_at5 m ρ c

/-- The second layer's scaled products, after the second scaled product. -/
theorem hw2s_at7 (c : Dev nD) : W7 m ρ c (Proc.devRef .tc main_v28) = Stages.hw2s (aX m c) (aE m c) (aW1 m c) (aB1 m c) (aW2 m c) := by
  refine (W7_arr m ρ c 3).trans ((RegionValue.region2 (V6 m ρ) c).trans ?_)
  show Cert.Spec.linScale (W6 m ρ c (Proc.devRef .tc main_v27) : S100000x16.Idx → Elt Ideal .f32) (W6 m ρ c (Proc.devRef .tc main_arg4) : S16x8.Idx → Elt Ideal .f32) (W6 m ρ c (Proc.devRef .tc main_v14) : S100000x1.Idx → Elt Ideal .f32) = _
  rw [h_at6, w2_at6, dis_at6]
  first | done | rfl

/-- The edges' source nodes, after the second scaled product. -/
theorem src_at7 (c : Dev nD) : W7 m ρ c (Proc.devRef .tc main_v1) = Stages.src (aE m c) :=
  (W7_of_ne m ρ c main_v1 (by decide)).trans (src_at6 m ρ c)

/-- The edges' destination nodes, after the second scaled product. -/
theorem dst_at7 (c : Dev nD) : W7 m ρ c (Proc.devRef .tc main_v3) = Stages.dst (aE m c) :=
  (W7_of_ne m ρ c main_v3 (by decide)).trans (dst_at6 m ρ c)

/-- The second layer's bias, after the second scaled product. -/
theorem b2_at7 (c : Dev nD) : W7 m ρ c (Proc.devRef .tc main_arg5) = (aB2 m c) :=
  (W7_of_ne m ρ c main_arg5 (by decide)).trans (b2_at6 m ρ c)

/-- The column of normalising factors, after the second scaled product. -/
theorem dis_at7 (c : Dev nD) : W7 m ρ c (Proc.devRef .tc main_v14) = Stages.dis2d (aE m c) :=
  calc W7 m ρ c (Proc.devRef .tc main_v14)
    _ = W6 m ρ c (Proc.devRef .tc main_v14) :=
        (W7_arr m ρ c 2).trans (((dat2 (V6 m ρ) c).arrAt_in 2 rfl _).trans (A_eq2 (V6 m ρ) c 2))
    _ = _ := dis_at6 m ρ c

/-- The second layer's aggregate, where the second layer is finished. -/
theorem agg2_at8 (c : Dev nD) : W8 m ρ c (Proc.devRef .tc main_v38) = Stages.agg2 (aX m c) (aE m c) (aW1 m c) (aB1 m c) (aW2 m c) := by
  have h0 := src_at7 m ρ c
  have h1 := dst_at7 m ρ c
  have h2 := hw2s_at7 m ρ c
  show StableHlo.after hostOps3 (W7 m ρ c) (Proc.devRef .tc main_v38) = _
  generalize W7 m ρ c = F at h0 h1 h2 ⊢
  simp only [hostOps3]
  after_results
  rw [h0, h1, h2]
  first | done | rfl

/-- The second layer's bias as a row, where the second layer is finished. -/
theorem b2row_at8 (c : Dev nD) : W8 m ρ c (Proc.devRef .tc main_v39) = shapeCast S1x8 (aB2 m c) shapeCasts_S8_S1x8 := by
  have h0 := b2_at7 m ρ c
  show StableHlo.after hostOps3 (W7 m ρ c) (Proc.devRef .tc main_v39) = _
  generalize W7 m ρ c = F at h0 ⊢
  simp only [hostOps3]
  after_results
  rw [h0]
  first | done | rfl

/-- The second layer's scaled products, where the second layer is finished. -/
theorem hw2s_at8 (c : Dev nD) : W8 m ρ c (Proc.devRef .tc main_v28) = Stages.hw2s (aX m c) (aE m c) (aW1 m c) (aB1 m c) (aW2 m c) := by
  have h0 := hw2s_at7 m ρ c
  show StableHlo.after hostOps3 (W7 m ρ c) (Proc.devRef .tc main_v28) = _
  generalize W7 m ρ c = F at h0 ⊢
  simp only [hostOps3]
  after_results
  rw [h0]

/-- The column of normalising factors, where the second layer is finished. -/
theorem dis_at8 (c : Dev nD) : W8 m ρ c (Proc.devRef .tc main_v14) = Stages.dis2d (aE m c) := by
  have h0 := dis_at7 m ρ c
  show StableHlo.after hostOps3 (W7 m ρ c) (Proc.devRef .tc main_v14) = _
  generalize W7 m ρ c = F at h0 ⊢
  simp only [hostOps3]
  after_results
  rw [h0]

/-- The program's result, at the end. -/
theorem out_at9 (c : Dev nD) : W9 m ρ c (Proc.devRef .tc main_v40) = Stages.out (aX m c) (aE m c) (aW1 m c) (aB1 m c) (aW2 m c) (aB2 m c) := by
  refine (W9_arr m ρ c 4).trans ((RegionValue.region3 (V8 m ρ) c).trans ?_)
  show Cert.Spec.finalize (W8 m ρ c (Proc.devRef .tc main_v38) : S100000x8.Idx → Elt Ideal .f32) (W8 m ρ c (Proc.devRef .tc main_v28) : S100000x8.Idx → Elt Ideal .f32) (W8 m ρ c (Proc.devRef .tc main_v14) : S100000x1.Idx → Elt Ideal .f32) (W8 m ρ c (Proc.devRef .tc main_v39) : S1x8.Idx → Elt Ideal .f32) = _
  rw [agg2_at8, hw2s_at8, dis_at8, b2row_at8]
  first | done | rfl

/-- THE KERNEL PROGRAM'S RUN, READ: from any memory `m`, every weakly fair execution terminates without a fault, its result
    buffer holding the two-layer graph convolution `Stages.out` of the six argument arrays as launched, and the
    arguments unchanged. -/
theorem value_run : θ_run defs (onTc (τ := τ) (main (F := Ideal))) ⟨m, fun _ => 0, ρ⟩ (fun r => ∀ c : Dev nD,
      r.2.mem ((c.tc : Thread nD τ).loc main_v40) = Stages.out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (out_at9 m ρ c), (h c).2⟩) (run_W9 m ρ)

end Cert.KernelIdeal.ValueRun

end
-- ==== Proof.RStages.lean ====
/-
  The reference program's dataflow at the extended reals, stage by stage, as functions of its six argument arrays
  (the node features `x`, the edge list `ei`, the two layers' weights and biases), each stage spelt with the very
  operations the program applies, so that the program's run ends, by definition, at `out`.

  The reference appends to the edge list one loop per node (`srcC`, `dstC`: the edges, then node `v` to node `v` for
  every `v`), gives every edge of that longer list the weight `dis (source) · dis (destination)` (`norm`), and in
  each layer sums at every node the weighted rows of the sources of the edges arriving there.
-/
import proofs.«174125_j69157563400469_2_alg».proof.Proof.Gen.ReferenceIdeal
import Idealize.ShloMosaic.PureOps.Ideal

noncomputable section

namespace Cert.ReferenceIdeal.Stages

open Idealize.ShloMosaic Cert.ReferenceIdeal Cert.ReferenceIdeal.Gen

variable (x : FVec Ideal S100000x128 .f32) (ei : IVec S2x6400000 32) (w1 : FVec Ideal S128x16 .f32)
  (b1 : FVec Ideal S16 .f32) (w2 : FVec Ideal S16x8 .f32) (b2 : FVec Ideal S8 .f32)

/-- The edges' source nodes: row 0 of the edge list. -/
def src : IVec S6400000 32 :=
  shapeCast S6400000 (extractStridedSlice S1x6400000 ![0, 0] ei slices_S2x6400000_S1x6400000_0_0) shapeCasts_S1x6400000_S6400000
/-- The edges' destination nodes: row 1 of the edge list. -/
def dst : IVec S6400000 32 :=
  shapeCast S6400000 (extractStridedSlice S1x6400000 ![1, 0] ei slices_S2x6400000_S1x6400000_1_0) shapeCasts_S1x6400000_S6400000

/-- The nodes, counted from zero. -/
def nodes : IVec S100000 32 := iotaInDim S100000 32 0

/-- The sources of the longer edge list: the edges', then every node once. -/
def srcC : IVec S6500000 32 :=
  concatenate S6500000 0 [⟨S6400000, src ei⟩, ⟨S100000, nodes⟩] concatenates_S6400000_S100000_S6500000_d0
/-- The destinations of the longer edge list: the edges', then every node once. -/
def dstC : IVec S6500000 32 :=
  concatenate S6500000 0 [⟨S6400000, dst ei⟩, ⟨S100000, nodes⟩] concatenates_S6400000_S100000_S6500000_d0

/-- A node's degree: one for every edge of the longer list arriving at it. -/
def deg : FVec Ideal S100000 .f32 :=
  Host.scatterAdd scatter_S100000_S6500000x1_S6500000_n_0_0_1
    (broadcastInDim S100000 ![] bcast_S_S100000 (constant S_ .f32 0x00000000#32))
    (broadcastInDim S6500000x1 ![0] bcast_S6500000_S6500000x1_0 (dstC ei))
    (broadcastInDim S6500000 ![] bcast_S_S6500000 (constant S_ .f32 0x3F800000#32))

/-- A node's normalising factor: one over the square root of its degree where the degree is positive, zero elsewhere. -/
def dis : FVec Ideal S100000 .f32 :=
  select (cmpf .ogt (deg ei) (broadcastInDim S100000 ![] bcast_S_S100000 (constant S_ .f32 0x00000000#32)))
    (Host.rsqrt (deg ei))
    (broadcastInDim S100000 ![] bcast_S_S100000 (constant S_ .f32 0x00000000#32))

/-- The sources as a lookup takes them: a negative number counts from the end of the node list. -/
def srcN : IVec S6500000 32 :=
  select (cmpi .slt (srcC ei) (broadcastInDim S6500000 ![] bcast_S_S6500000 (constantI S_ 32 0#32)))
    (addi (srcC ei) (broadcastInDim S6500000 ![] bcast_S_S6500000 (constantI S_ 32 100000#32)))
    (srcC ei)
/-- The destinations as a lookup takes them. -/
def dstN : IVec S6500000 32 :=
  select (cmpi .slt (dstC ei) (broadcastInDim S6500000 ![] bcast_S_S6500000 (constantI S_ 32 0#32)))
    (addi (dstC ei) (broadcastInDim S6500000 ![] bcast_S_S6500000 (constantI S_ 32 100000#32)))
    (dstC ei)

/-- An edge's weight: its source's factor times its destination's factor. -/
def norm : FVec Ideal S6500000 .f32 :=
  mulf (Host.gather gather_S100000_S6500000x1_S6500000_n_0_n_n_0_1_1 (dis ei)
      (broadcastInDim S6500000x1 ![0] bcast_S6500000_S6500000x1_0 (srcN ei)))
    (Host.gather gather_S100000_S6500000x1_S6500000_n_0_n_n_0_1_1 (dis ei)
      (broadcastInDim S6500000x1 ![0] bcast_S6500000_S6500000x1_0 (dstN ei)))

/-- Layer 1, the products `x · w1`. -/
def hw1 : FVec Ideal S100000x16 .f32 := Host.dotGeneral dot_S100000x128_S128x16_S100000x16_1_0_0_1_n_n none x w1

/-- Layer 1, an edge's message: its source's row of products times the edge's weight. -/
def msg1 : FVec Ideal S6500000x16 .f32 :=
  mulf (Host.gather gather_S100000x16_S6500000x1_S6500000x16_1_0_n_n_0_1_116 (hw1 x w1)
      (broadcastInDim S6500000x1 ![0] bcast_S6500000_S6500000x1_0 (srcN ei)))
    (broadcastInDim S6500000x16 ![0, 1] bcast_S6500000x1_S6500000x16_0_1
      (broadcastInDim S6500000x1 ![0] bcast_S6500000_S6500000x1_0 (norm ei)))

/-- Layer 1, the aggregate: the messages summed at their destinations. -/
def agg1 : FVec Ideal S100000x16 .f32 :=
  Host.scatterAdd scatter_S100000x16_S6500000x1_S6500000x16_1_0_0_1
    (broadcastInDim S100000x16 ![] bcast_S_S100000x16 (constant S_ .f32 0x00000000#32))
    (broadcastInDim S6500000x1 ![0] bcast_S6500000_S6500000x1_0 (dstC ei))
    (msg1 x ei w1)

/-- Layer 1's result: the aggregate plus the bias, cut off at zero. -/
def h : FVec Ideal S100000x16 .f32 :=
  maximumf (addf (agg1 x ei w1)
      (broadcastInDim S100000x16 ![0, 1] bcast_S1x16_S100000x16_0_1 (broadcastInDim S1x16 ![1] bcast_S16_S1x16_1 b1)))
    (broadcastInDim S100000x16 ![] bcast_S_S100000x16 (constant S_ .f32 0x00000000#32))

/-- Layer 2, the products `h · w2`. -/
def hw2 : FVec Ideal S100000x8 .f32 := Host.dotGeneral dot_S100000x16_S16x8_S100000x8_1_0_0_1_n_n none (h x ei w1 b1) w2

/-- Layer 2, an edge's message. -/
def msg2 : FVec Ideal S6500000x8 .f32 :=
  mulf (Host.gather gather_S100000x8_S6500000x1_S6500000x8_1_0_n_n_0_1_18 (hw2 x ei w1 b1 w2)
      (broadcastInDim S6500000x1 ![0] bcast_S6500000_S6500000x1_0 (srcN ei)))
    (broadcastInDim S6500000x8 ![0, 1] bcast_S6500000x1_S6500000x8_0_1
      (broadcastInDim S6500000x1 ![0] bcast_S6500000_S6500000x1_0 (norm ei)))

/-- Layer 2, the aggregate. -/
def agg2 : FVec Ideal S100000x8 .f32 :=
  Host.scatterAdd scatter_S100000x8_S6500000x1_S6500000x8_1_0_0_1
    (broadcastInDim S100000x8 ![] bcast_S_S100000x8 (constant S_ .f32 0x00000000#32))
    (broadcastInDim S6500000x1 ![0] bcast_S6500000_S6500000x1_0 (dstC ei))
    (msg2 x ei w1 b1 w2)

/-- The program's result: layer 2's aggregate plus the bias. -/
def out : FVec Ideal S100000x8 .f32 :=
  addf (agg2 x ei w1 b1 w2)
    (broadcastInDim S100000x8 ![0, 1] bcast_S1x8_S100000x8_0_1 (broadcastInDim S1x8 ![1] bcast_S8_S1x8_1 b2))

end Cert.ReferenceIdeal.Stages

end
-- ==== Proof.RefRun.lean ====
/- The reference program's @main as one straight line of host operations, and its run.

   @main is printed in two windows and calls two outlined functions (the select of `jnp.where` and the
   maximum of `relu`). Unfolding the windows and the two function bodies at their call sites gives a
   single list of 83 operations; a straight line of operations runs to its end on every device, each
   buffer ending at the fold of the operations' results over the launch contents. Reading that fold at
   the result buffer gives the reference's output as the composed function of the six argument arrays. -/
import proofs.«174125_j69157563400469_2_alg».proof.Proof.Gen.ReferenceIdeal
import proofs.«174125_j69157563400469_2_alg».proof.Proof.RStages
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 83 operations in program order. Operations 19–21 are the body of the outlined select
    (the fill value converted to its own type, broadcast to the node vector, then the select that keeps
    the reciprocal square root where the degree is positive), written over the buffers of that call;
    operations 61–63 are the body of the outlined rectifier (the zero, its broadcast, the maximum),
    written over the buffers of that call. All other operations are @main's own, first window then second. -/
abbrev ops : List (HloOp τ sig (Elt F)) :=
  [ unary main_arg1 main_v0 ((extractStridedSlice S1x6400000 ![0, 0] · slices_S2x6400000_S1x6400000_0_0) : (⟨S2x6400000, .i32⟩ : BufTy).Contents (Elt F) → (⟨S1x6400000, .i32⟩ : BufTy).Contents (Elt F)),
    reshape main_v0 main_v1 rfl shapeCasts_S1x6400000_S6400000,
    unary main_arg1 main_v2 ((extractStridedSlice S1x6400000 ![1, 0] · slices_S2x6400000_S1x6400000_1_0) : (⟨S2x6400000, .i32⟩ : BufTy).Contents (Elt F) → (⟨S1x6400000, .i32⟩ : BufTy).Contents (Elt F)),
    reshape main_v2 main_v3 rfl shapeCasts_S1x6400000_S6400000,
    nullary main_v4 (iotaInDim S100000 32 0),
    binary main_v1 main_v4 main_v5 ((fun a b => concatenate S6500000 0 [⟨S6400000, a⟩, ⟨S100000, b⟩] concatenates_S6400000_S100000_S6500000_d0) : (⟨S6400000, .i32⟩ : BufTy).Contents (Elt F) → (⟨S100000, .i32⟩ : BufTy).Contents (Elt F) → (⟨S6500000, .i32⟩ : BufTy).Contents (Elt F)),
    binary main_v3 main_v4 main_v6 ((fun a b => concatenate S6500000 0 [⟨S6400000, a⟩, ⟨S100000, b⟩] concatenates_S6400000_S100000_S6500000_d0) : (⟨S6400000, .i32⟩ : BufTy).Contents (Elt F) → (⟨S100000, .i32⟩ : BufTy).Contents (Elt F) → (⟨S6500000, .i32⟩ : BufTy).Contents (Elt F)),
    nullary main_cst (constant S_ .f32 0x3F800000#32),
    unary main_cst main_v7 (broadcastInDim S6500000 ![] bcast_S_S6500000 : (⟨S_, .f32⟩ : BufTy).Contents (Elt F) → (⟨S6500000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S6500000x1 ![0] bcast_S6500000_S6500000x1_0 : (⟨S6500000, .i32⟩ : BufTy).Contents (Elt F) → (⟨S6500000x1, .i32⟩ : BufTy).Contents (Elt F)),
    ternary main_v8 main_v9 main_v7 main_v10 ((fun x i u => Host.scatterAdd scatter_S100000_S6500000x1_S6500000_n_0_0_1 x i u) : (⟨S100000, .f32⟩ : BufTy).Contents (Elt F) → (⟨S6500000x1, .i32⟩ : BufTy).Contents (Elt F) → (⟨S6500000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    unary main_cst_2 main_call0_v0 (id : (⟨S_, .f32⟩ : BufTy).Contents (Elt F) → (⟨S_, .f32⟩ : BufTy).Contents (Elt F)),
    unary main_call0_v0 main_call0_v1 (broadcastInDim S100000 ![] bcast_S_S100000 : (⟨S_, .f32⟩ : BufTy).Contents (Elt F) → (⟨S100000, .f32⟩ : BufTy).Contents (Elt F)),
    ternary main_v12 main_v13 main_call0_v1 main_v14 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    nullary main_c (constantI S_ 32 0#32),
    unary main_c main_v15 (broadcastInDim S6500000 ![] bcast_S_S6500000 : (⟨S_, .i32⟩ : BufTy).Contents (Elt F) → (⟨S6500000, .i32⟩ : BufTy).Contents (Elt F)),
    binary main_v5 main_v15 main_v16 (cmpi .slt : (⟨S6500000, .i32⟩ : BufTy).Contents (Elt F) → (⟨S6500000, .i32⟩ : BufTy).Contents (Elt F) → (⟨S6500000, .i1⟩ : BufTy).Contents (Elt F)),
    nullary main_c_3 (constantI S_ 32 100000#32),
    unary main_c_3 main_v17 (broadcastInDim S6500000 ![] bcast_S_S6500000 : (⟨S_, .i32⟩ : BufTy).Contents (Elt F) → (⟨S6500000, .i32⟩ : BufTy).Contents (Elt F)),
    binary main_v5 main_v17 main_v18 (addi : (⟨S6500000, .i32⟩ : BufTy).Contents (Elt F) → (⟨S6500000, .i32⟩ : BufTy).Contents (Elt F) → (⟨S6500000, .i32⟩ : BufTy).Contents (Elt F)),
    ternary main_v16 main_v18 main_v5 main_v19 (select : (⟨S6500000, .i1⟩ : BufTy).Contents (Elt F) → (⟨S6500000, .i32⟩ : BufTy).Contents (Elt F) → (⟨S6500000, .i32⟩ : BufTy).Contents (Elt F) → (⟨S6500000, .i32⟩ : BufTy).Contents (Elt F)),
    unary main_v19 main_v20 (broadcastInDim S6500000x1 ![0] bcast_S6500000_S6500000x1_0 : (⟨S6500000, .i32⟩ : BufTy).Contents (Elt F) → (⟨S6500000x1, .i32⟩ : BufTy).Contents (Elt F)),
    binary main_v14 main_v20 main_v21 ((fun x i => Host.gather gather_S100000_S6500000x1_S6500000_n_0_n_n_0_1_1 x i) : (⟨S100000, .f32⟩ : BufTy).Contents (Elt F) → (⟨S6500000x1, .i32⟩ : BufTy).Contents (Elt F) → (⟨S6500000, .f32⟩ : BufTy).Contents (Elt F)),
    nullary main_c_4 (constantI S_ 32 0#32),
    unary main_c_4 main_v22 (broadcastInDim S6500000 ![] bcast_S_S6500000 : (⟨S_, .i32⟩ : BufTy).Contents (Elt F) → (⟨S6500000, .i32⟩ : BufTy).Contents (Elt F)),
    binary main_v6 main_v22 main_v23 (cmpi .slt : (⟨S6500000, .i32⟩ : BufTy).Contents (Elt F) → (⟨S6500000, .i32⟩ : BufTy).Contents (Elt F) → (⟨S6500000, .i1⟩ : BufTy).Contents (Elt F)),
    nullary main_c_5 (constantI S_ 32 100000#32),
    unary main_c_5 main_v24 (broadcastInDim S6500000 ![] bcast_S_S6500000 : (⟨S_, .i32⟩ : BufTy).Contents (Elt F) → (⟨S6500000, .i32⟩ : BufTy).Contents (Elt F)),
    binary main_v6 main_v24 main_v25 (addi : (⟨S6500000, .i32⟩ : BufTy).Contents (Elt F) → (⟨S6500000, .i32⟩ : BufTy).Contents (Elt F) → (⟨S6500000, .i32⟩ : BufTy).Contents (Elt F)),
    ternary main_v23 main_v25 main_v6 main_v26 (select : (⟨S6500000, .i1⟩ : BufTy).Contents (Elt F) → (⟨S6500000, .i32⟩ : BufTy).Contents (Elt F) → (⟨S6500000, .i32⟩ : BufTy).Contents (Elt F) → (⟨S6500000, .i32⟩ : BufTy).Contents (Elt F)),
    unary main_v26 main_v27 (broadcastInDim S6500000x1 ![0] bcast_S6500000_S6500000x1_0 : (⟨S6500000, .i32⟩ : BufTy).Contents (Elt F) → (⟨S6500000x1, .i32⟩ : BufTy).Contents (Elt F)),
    binary main_v14 main_v27 main_v28 ((fun x i => Host.gather gather_S100000_S6500000x1_S6500000_n_0_n_n_0_1_1 x i) : (⟨S100000, .f32⟩ : BufTy).Contents (Elt F) → (⟨S6500000x1, .i32⟩ : BufTy).Contents (Elt F) → (⟨S6500000, .f32⟩ : BufTy).Contents (Elt F)),
    binary main_v21 main_v28 main_v29 (mulf : (⟨S6500000, .f32⟩ : BufTy).Contents (Elt F) → (⟨S6500000, .f32⟩ : BufTy).Contents (Elt F) → (⟨S6500000, .f32⟩ : BufTy).Contents (Elt F)),
    binary main_arg0 main_arg2 main_v30 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    nullary main_c_6 (constantI S_ 32 0#32),
    unary main_c_6 main_v31 (broadcastInDim S6500000 ![] bcast_S_S6500000 : (⟨S_, .i32⟩ : BufTy).Contents (Elt F) → (⟨S6500000, .i32⟩ : BufTy).Contents (Elt F)),
    binary main_v5 main_v31 main_v32 (cmpi .slt : (⟨S6500000, .i32⟩ : BufTy).Contents (Elt F) → (⟨S6500000, .i32⟩ : BufTy).Contents (Elt F) → (⟨S6500000, .i1⟩ : BufTy).Contents (Elt F)),
    nullary main_c_7 (constantI S_ 32 100000#32),
    unary main_c_7 main_v33 (broadcastInDim S6500000 ![] bcast_S_S6500000 : (⟨S_, .i32⟩ : BufTy).Contents (Elt F) → (⟨S6500000, .i32⟩ : BufTy).Contents (Elt F)),
    binary main_v5 main_v33 main_v34 (addi : (⟨S6500000, .i32⟩ : BufTy).Contents (Elt F) → (⟨S6500000, .i32⟩ : BufTy).Contents (Elt F) → (⟨S6500000, .i32⟩ : BufTy).Contents (Elt F)),
    ternary main_v32 main_v34 main_v5 main_v35 (select : (⟨S6500000, .i1⟩ : BufTy).Contents (Elt F) → (⟨S6500000, .i32⟩ : BufTy).Contents (Elt F) → (⟨S6500000, .i32⟩ : BufTy).Contents (Elt F) → (⟨S6500000, .i32⟩ : BufTy).Contents (Elt F)),
    unary main_v35 main_v36 (broadcastInDim S6500000x1 ![0] bcast_S6500000_S6500000x1_0 : (⟨S6500000, .i32⟩ : BufTy).Contents (Elt F) → (⟨S6500000x1, .i32⟩ : BufTy).Contents (Elt F)),
    binary main_v30 main_v36 main_v37 ((fun x i => Host.gather gather_S100000x16_S6500000x1_S6500000x16_1_0_n_n_0_1_116 x i) : (⟨S100000x16, .f32⟩ : BufTy).Contents (Elt F) → (⟨S6500000x1, .i32⟩ : BufTy).Contents (Elt F) → (⟨S6500000x16, .f32⟩ : BufTy).Contents (Elt F)),
    unary main_v29 main_v38 (broadcastInDim S6500000x1 ![0] bcast_S6500000_S6500000x1_0 : (⟨S6500000, .f32⟩ : BufTy).Contents (Elt F) → (⟨S6500000x1, .f32⟩ : BufTy).Contents (Elt F)),
    unary main_v38 main_v39 (broadcastInDim S6500000x16 ![0, 1] bcast_S6500000x1_S6500000x16_0_1 : (⟨S6500000x1, .f32⟩ : BufTy).Contents (Elt F) → (⟨S6500000x16, .f32⟩ : BufTy).Contents (Elt F)),
    binary main_v37 main_v39 main_v40 (mulf : (⟨S6500000x16, .f32⟩ : BufTy).Contents (Elt F) → (⟨S6500000x16, .f32⟩ : BufTy).Contents (Elt F) → (⟨S6500000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S6500000x1 ![0] bcast_S6500000_S6500000x1_0 : (⟨S6500000, .i32⟩ : BufTy).Contents (Elt F) → (⟨S6500000x1, .i32⟩ : BufTy).Contents (Elt F)),
    ternary main_v41 main_v42 main_v40 main_v43 ((fun x i u => Host.scatterAdd scatter_S100000x16_S6500000x1_S6500000x16_1_0_0_1 x i u) : (⟨S100000x16, .f32⟩ : BufTy).Contents (Elt F) → (⟨S6500000x1, .i32⟩ : BufTy).Contents (Elt F) → (⟨S6500000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    nullary main_call1_cst (constant S_ .f32 0x00000000#32),
    unary main_call1_cst main_call1_v0 (broadcastInDim S100000x16 ![] bcast_S_S100000x16 : (⟨S_, .f32⟩ : BufTy).Contents (Elt F) → (⟨S100000x16, .f32⟩ : BufTy).Contents (Elt F)),
    binary main_v46 main_call1_v0 main_v47 (maximumf : (⟨S100000x16, .f32⟩ : BufTy).Contents (Elt F) → (⟨S100000x16, .f32⟩ : BufTy).Contents (Elt F) → (⟨S100000x16, .f32⟩ : BufTy).Contents (Elt F)),
    binary main_v47 main_arg4 main_v48 ((fun l r => Host.dotGeneral dot_S100000x16_S16x8_S100000x8_1_0_0_1_n_n none l r) : (⟨S100000x16, .f32⟩ : BufTy).Contents (Elt F) → (⟨S16x8, .f32⟩ : BufTy).Contents (Elt F) → (⟨S100000x8, .f32⟩ : BufTy).Contents (Elt F)),
    nullary main_c_9 (constantI S_ 32 0#32),
    unary main_c_9 main_v49 (broadcastInDim S6500000 ![] bcast_S_S6500000 : (⟨S_, .i32⟩ : BufTy).Contents (Elt F) → (⟨S6500000, .i32⟩ : BufTy).Contents (Elt F)),
    binary main_v5 main_v49 main_v50 (cmpi .slt : (⟨S6500000, .i32⟩ : BufTy).Contents (Elt F) → (⟨S6500000, .i32⟩ : BufTy).Contents (Elt F) → (⟨S6500000, .i1⟩ : BufTy).Contents (Elt F)),
    nullary main_c_10 (constantI S_ 32 100000#32),
    unary main_c_10 main_v51 (broadcastInDim S6500000 ![] bcast_S_S6500000 : (⟨S_, .i32⟩ : BufTy).Contents (Elt F) → (⟨S6500000, .i32⟩ : BufTy).Contents (Elt F)),
    binary main_v5 main_v51 main_v52 (addi : (⟨S6500000, .i32⟩ : BufTy).Contents (Elt F) → (⟨S6500000, .i32⟩ : BufTy).Contents (Elt F) → (⟨S6500000, .i32⟩ : BufTy).Contents (Elt F)),
    ternary main_v50 main_v52 main_v5 main_v53 (select : (⟨S6500000, .i1⟩ : BufTy).Contents (Elt F) → (⟨S6500000, .i32⟩ : BufTy).Contents (Elt F) → (⟨S6500000, .i32⟩ : BufTy).Contents (Elt F) → (⟨S6500000, .i32⟩ : BufTy).Contents (Elt F)),
    unary main_v53 main_v54 (broadcastInDim S6500000x1 ![0] bcast_S6500000_S6500000x1_0 : (⟨S6500000, .i32⟩ : BufTy).Contents (Elt F) → (⟨S6500000x1, .i32⟩ : BufTy).Contents (Elt F)),
    binary main_v48 main_v54 main_v55 ((fun x i => Host.gather gather_S100000x8_S6500000x1_S6500000x8_1_0_n_n_0_1_18 x i) : (⟨S100000x8, .f32⟩ : BufTy).Contents (Elt F) → (⟨S6500000x1, .i32⟩ : BufTy).Contents (Elt F) → (⟨S6500000x8, .f32⟩ : BufTy).Contents (Elt F)),
    unary main_v29 main_v56 (broadcastInDim S6500000x1 ![0] bcast_S6500000_S6500000x1_0 : (⟨S6500000, .f32⟩ : BufTy).Contents (Elt F) → (⟨S6500000x1, .f32⟩ : BufTy).Contents (Elt F)),
    unary main_v56 main_v57 (broadcastInDim S6500000x8 ![0, 1] bcast_S6500000x1_S6500000x8_0_1 : (⟨S6500000x1, .f32⟩ : BufTy).Contents (Elt F) → (⟨S6500000x8, .f32⟩ : BufTy).Contents (Elt F)),
    binary main_v55 main_v57 main_v58 (mulf : (⟨S6500000x8, .f32⟩ : BufTy).Contents (Elt F) → (⟨S6500000x8, .f32⟩ : BufTy).Contents (Elt F) → (⟨S6500000x8, .f32⟩ : BufTy).Contents (Elt F)),
    nullary main_cst_11 (constant S_ .f32 0x00000000#32),
    unary main_cst_11 main_v59 (broadcastInDim S100000x8 ![] bcast_S_S100000x8 : (⟨S_, .f32⟩ : BufTy).Contents (Elt F) → (⟨S100000x8, .f32⟩ : BufTy).Contents (Elt F)),
    unary main_v6 main_v60 (broadcastInDim S6500000x1 ![0] bcast_S6500000_S6500000x1_0 : (⟨S6500000, .i32⟩ : BufTy).Contents (Elt F) → (⟨S6500000x1, .i32⟩ : BufTy).Contents (Elt F)),
    ternary main_v59 main_v60 main_v58 main_v61 ((fun x i u => Host.scatterAdd scatter_S100000x8_S6500000x1_S6500000x8_1_0_0_1 x i u) : (⟨S100000x8, .f32⟩ : BufTy).Contents (Elt F) → (⟨S6500000x1, .i32⟩ : BufTy).Contents (Elt F) → (⟨S6500000x8, .f32⟩ : BufTy).Contents (Elt F) → (⟨S100000x8, .f32⟩ : BufTy).Contents (Elt F)),
    unary main_arg5 main_v62 (broadcastInDim S1x8 ![1] bcast_S8_S1x8_1 : (⟨S8, .f32⟩ : BufTy).Contents (Elt F) → (⟨S1x8, .f32⟩ : BufTy).Contents (Elt F)),
    unary main_v62 main_v63 (broadcastInDim S100000x8 ![0, 1] bcast_S1x8_S100000x8_0_1 : (⟨S1x8, .f32⟩ : BufTy).Contents (Elt F) → (⟨S100000x8, .f32⟩ : BufTy).Contents (Elt F)),
    binary main_v61 main_v63 main_v64 (addf : (⟨S100000x8, .f32⟩ : BufTy).Contents (Elt F) → (⟨S100000x8, .f32⟩ : BufTy).Contents (Elt F) → (⟨S100000x8, .f32⟩ : BufTy).Contents (Elt F)) ]

set_option maxRecDepth 16384 in
set_option maxHeartbeats 4000000 in
/-- @main is that straight line: the two windows run in order, each outlined function's body stands at its
    call, and re-associating the sequencing makes both sides one chain of single-operation steps. -/
theorem main_eq (c : Dev nD) : main (F := F) c = seq ops := by
  simp only [main, main_part0, main_part1, fn_where.body, fn_relu.body, seq, bind_assoc, pure_bind]
  rfl

/-- The signature scopes no buffer. -/
theorem scopedRefs_eq : (Finset.univ.filter fun b : Ref sig .tc => b.isScoped) = ∅ := by decide
/-- The signature has no semaphore, hence no scoped one. -/
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., unary_bufs_sub .., unary_bufs_sub .., binary_bufs_sub ..⟩

set_option maxRecDepth 16384 in
set_option maxHeartbeats 4000000 in
/-- Read at the result buffer, the fold of the 83 operations over any starting contents is the reference's
    output as a function of the six argument arrays: every intermediate buffer is written once, before it
    is read, so the fold composes the operations' functions in dataflow order, and that composition is the
    chain of stages ending in `Stages.out`. -/
theorem out_eq (V : Valuation τ sig (Elt Ideal)) :
    after (ops (F := Ideal)) V (main_v64 : DevRef τ sig) = Stages.out (V (main_arg0 : DevRef τ sig)) (V (main_arg1 : DevRef τ sig)) (V (main_arg2 : DevRef τ sig)) (V (main_arg3 : DevRef τ sig)) (V (main_arg4 : DevRef τ sig)) (V (main_arg5 : DevRef τ sig)) := by
  after_results_simp
  rfl

set_option maxRecDepth 16384 in
set_option maxHeartbeats 4000000 in
/-- No operation writes argument 0's buffer: the fold leaves it as it was. -/
theorem arg0_eq (V : Valuation τ sig (Elt F)) :
    after (ops (F := F)) V (main_arg0 : DevRef τ sig) = V (main_arg0 : DevRef τ sig) := by
  after_results_simp

set_option maxRecDepth 16384 in
set_option maxHeartbeats 4000000 in
/-- No operation writes argument 1's buffer: the fold leaves it as it was. -/
theorem arg1_eq (V : Valuation τ sig (Elt F)) :
    after (ops (F := F)) V (main_arg1 : DevRef τ sig) = V (main_arg1 : DevRef τ sig) := by
  after_results_simp

set_option maxRecDepth 16384 in
set_option maxHeartbeats 4000000 in
/-- No operation writes argument 2's buffer: the fold leaves it as it was. -/
theorem arg2_eq (V : Valuation τ sig (Elt F)) :
    after (ops (F := F)) V (main_arg2 : DevRef τ sig) = V (main_arg2 : DevRef τ sig) := by
  after_results_simp

set_option maxRecDepth 16384 in
set_option maxHeartbeats 4000000 in
/-- No operation writes argument 3's buffer: the fold leaves it as it was. -/
theorem arg3_eq (V : Valuation τ sig (Elt F)) :
    after (ops (F := F)) V (main_arg3 : DevRef τ sig) = V (main_arg3 : DevRef τ sig) := by
  after_results_simp

set_option maxRecDepth 16384 in
set_option maxHeartbeats 4000000 in
/-- No operation writes argument 4's buffer: the fold leaves it as it was. -/
theorem arg4_eq (V : Valuation τ sig (Elt F)) :
    after (ops (F := F)) V (main_arg4 : DevRef τ sig) = V (main_arg4 : DevRef τ sig) := by
  after_results_simp

set_option maxRecDepth 16384 in
set_option maxHeartbeats 4000000 in
/-- No operation writes argument 5's buffer: the fold leaves it as it was. -/
theorem arg5_eq (V : Valuation τ sig (Elt F)) :
    after (ops (F := F)) V (main_arg5 : DevRef τ sig) = V (main_arg5 : DevRef τ sig) := by
  after_results_simp

set_option maxRecDepth 16384 in
set_option maxHeartbeats 4000000 in
/-- The reference's run at the extended reals. On every device, from any memory with zero counters, every
    weakly fair execution of @main terminates without a fault; the result buffer then holds `Stages.out` of the
    six argument arrays as the launch found them — the two-layer normalised graph convolution the reference
    computes with a self-loop appended for every node — and the six argument buffers hold what they held. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v64)
          = Stages.out (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v64).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (run_seq scopedRefs_eq scopedSems_eq defs main (fun _ => ops) main_eq (fun _ => ops_sub) m ρ)

end Cert.ReferenceIdeal.HandRun

end
-- ==== Proof.LibScatterAdd.lean ====
/-
  The host's accumulating scatter (`stablehlo.scatter` with an `add` body over many indices, at the extended reals the
  exact sum) read at one element, for the two layouts `jax.ops.segment_sum` lowers to:

  * ROWS: operand `[N, W]`, scatter indices `[R, 1]`, updates `[R, W]` (update_window_dims `[1]`, inserted_window_dims
    `[0]`, scatter_dims_to_operand_dims `[0]`, index vector on axis 1). Update row `r` is added to the operand's row
    `t`, where `t` is the start index `idx[r, 0]` read as a signed integer, when `0 ≤ t < N`; otherwise it is dropped.
    So element `(v, k)` of the result is the operand's `(v, k)` plus the sum of `upd (r, k)` over the rows `r` that
    land on `v`.
  * ENTRIES: operand `[N]`, scatter indices `[R, 1]`, updates `[R]` (no window axis): the same with single entries.
-/
import Idealize.ShloMosaic.PureOps.Ideal
import Idealize.ShloMosaic.Lib.ValueIdx

noncomputable section

namespace Cert.Lib.ScatterAdd

open Idealize.ShloMosaic Idealize.ShloMosaic.ValueIdx

/-- The row a start index names: the index read as a signed integer when that lies in `[0, N)`, no row otherwise
    (such an update is dropped, not moved to the nearest row). -/
def rowOf (N : Nat) {w : Nat} (v : BitVec w) : Option (Fin N) :=
  if h : 0 ≤ v.toInt ∧ v.toInt < N then some ⟨v.toInt.toNat, by omega⟩ else none

theorem rowOf_eq_some {N w : Nat} (v : BitVec w) (i : Fin N) : rowOf N v = some i ↔ v.toInt = (i.val : Int) := by
  unfold rowOf
  constructor
  · intro h
    split at h
    · rename_i hh
      have := Fin.ext_iff.mp (Option.some.inj h)
      simp only at this
      omega
    · exact absurd h (by simp)
  · intro h
    have hh : 0 ≤ v.toInt ∧ v.toInt < N := by have := i.isLt; omega
    rw [dif_pos hh]
    exact congrArg some (Fin.ext (by simp only; omega))

/-! ## Rows -/

/-- The dimension numbers of a row scatter: operand `[N, W]`, scatter indices `[R, 1]`, updates `[R, W]`. -/
abbrev rowsDims (N W R : Nat)
    (wf : ScatterDims.WF ⟨2, ![N, W]⟩ ⟨2, ![R, 1]⟩ ⟨2, ![R, W]⟩ [1] [0] [0] 1) :
    ScatterDims ⟨2, ![N, W]⟩ ⟨2, ![R, 1]⟩ ⟨2, ![R, W]⟩ where
  updateWindowDims := [1]
  insertedWindowDims := [0]
  scatterDimsToOperandDims := [0]
  indexVectorDim := 1
  wf := wf

section Rows
variable {N W R w : Nat} (wf : ScatterDims.WF ⟨2, ![N, W]⟩ ⟨2, ![R, 1]⟩ ⟨2, ![R, W]⟩ [1] [0] [0] 1)
  (idx : IVec ⟨2, ![R, 1]⟩ w)

theorem rows_start0 (j : (⟨2, ![R, W]⟩ : Shape).Idx) :
    (rowsDims N W R wf).start j idx 0 = (idx (ix2 (j 0) (0 : Fin 1))).toInt := by
  unfold ScatterDims.start
  rw [dif_pos (show (0 : Fin 2) ∈ (rowsDims N W R wf).scatterDimsToOperandDims from List.mem_singleton.mpr rfl)]
  have hsi : (rowsDims N W R wf).siIdx j ⟨List.idxOf (0 : Fin 2) (rowsDims N W R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rows_start1 (j : (⟨2, ![R, W]⟩ : Shape).Idx) : (rowsDims N W R wf).start j idx 1 = 0 := by
  unfold ScatterDims.start
  rw [dif_neg (fun h => absurd (List.mem_singleton.mp h) (show (1 : Fin 2) ≠ 0 by decide))]

theorem rows_window0 (j : (⟨2, ![R, W]⟩ : Shape).Idx) : (rowsDims N W R wf).window j 0 = 0 := by
  unfold ScatterDims.window
  have h : (0 : Fin 2) ∉ (rowsDims N W R wf).sKept := by
    show (0 : Fin 2) ∉ (List.finRange 2).filter (· ∉ [(0 : Fin 2)])
    decide
  rw [dif_neg h]

theorem rows_window1 (j : (⟨2, ![R, W]⟩ : Shape).Idx) : (rowsDims N W R wf).window j 1 = (j 1).val := by
  unfold ScatterDims.window
  have h : (1 : Fin 2) ∈ (rowsDims N W R wf).sKept := by
    show (1 : Fin 2) ∈ (List.finRange 2).filter (· ∉ [(0 : Fin 2)])
    decide
  rw [dif_pos h]
  rfl

/-- Where update element `j = (r, k)` lands: at `(t, k)` for the row `t` its start index names, if it names one. -/
theorem rows_resultIdx (j : (⟨2, ![R, W]⟩ : Shape).Idx) :
    (rowsDims N W R wf).resultIdx? j idx = (rowOf N (idx (ix2 (j 0) (0 : Fin 1)))).map (fun v => ix2 v (j 1)) := by
  unfold ScatterDims.resultIdx? rowOf
  have hk : (j 1).val < W := (j 1).isLt
  by_cases hh : 0 ≤ (idx (ix2 (j 0) (0 : Fin 1))).toInt ∧ (idx (ix2 (j 0) (0 : Fin 1))).toInt < N
  · have hall : ∀ a, 0 ≤ (rowsDims N W R wf).start j idx a + (rowsDims N W R wf).window j a
        ∧ (rowsDims N W R wf).start j idx a + (rowsDims N W R wf).window j a < (⟨2, ![N, W]⟩ : Shape).size a := by
      intro a
      match a with
      | ⟨0, _⟩ =>
        rw [show (⟨0, by omega⟩ : Fin 2) = 0 from rfl, rows_start0, rows_window0]
        show 0 ≤ _ + ((0 : Nat) : Int) ∧ _ + ((0 : Nat) : Int) < (N : Int)
        omega
      | ⟨1, _⟩ =>
        rw [show (⟨1, by omega⟩ : Fin 2) = 1 from rfl, rows_start1, rows_window1]
        show 0 ≤ 0 + ((j 1).val : Int) ∧ 0 + ((j 1).val : Int) < (W : Int)
        omega
    rw [dif_pos hall, dif_pos hh]
    refine congrArg some (funext fun a => Fin.ext ?_)
    match a with
    | ⟨0, _⟩ =>
      show ((rowsDims N W R wf).start j idx 0 + (rowsDims N W R wf).window j 0).toNat = _
      rw [rows_start0, rows_window0]
      show (_ + ((0 : Nat) : Int)).toNat = (idx (ix2 (j 0) (0 : Fin 1))).toInt.toNat
      simp
    | ⟨1, _⟩ =>
      show ((rowsDims N W R wf).start j idx 1 + (rowsDims N W R wf).window j 1).toNat = (j 1).val
      rw [rows_start1, rows_window1]
      simp
  · have hnot : ¬ ∀ a, 0 ≤ (rowsDims N W R wf).start j idx a + (rowsDims N W R wf).window j a
        ∧ (rowsDims N W R wf).start j idx a + (rowsDims N W R wf).window j a < (⟨2, ![N, W]⟩ : Shape).size a := by
      intro hall
      have h0 := hall 0
      rw [rows_start0, rows_window0] at h0
      apply hh
      have h0' : 0 ≤ (idx (ix2 (j 0) (0 : Fin 1))).toInt + ((0 : Nat) : Int)
          ∧ (idx (ix2 (j 0) (0 : Fin 1))).toInt + ((0 : Nat) : Int) < (N : Int) := h0
      omega
    rw [dif_neg hnot, dif_neg hh]
    rfl

/-- Update element `j` lands on `(v, k)` exactly when its row's start index names `v` and its column is `k`. -/
theorem rows_lands_iff (j : (⟨2, ![R, W]⟩ : Shape).Idx) (v : Fin N) (k : Fin W) :
    (rowsDims N W R wf).resultIdx? j idx = some (ix2 v k) ↔ rowOf N (idx (ix2 (j 0) (0 : Fin 1))) = some v ∧ j 1 = k := by
  rw [rows_resultIdx]
  constructor
  · intro h
    obtain ⟨v', hv', he⟩ := Option.map_eq_some_iff.mp h
    have h0 := congrFun he 0
    have h1 := congrFun he 1
    exact ⟨by rw [hv']; exact congrArg some h0, h1⟩
  · rintro ⟨h1, h2⟩
    rw [h1, Option.map_some, ← h2]
    rfl

/-- THE ROW SCATTER-ADD READ AT `(v, k)`: the operand's entry plus the entries `(r, k)` of the updates over the rows
    `r` whose start index names `v`. -/
theorem scatterAdd_rows_apply (x : (⟨2, ![N, W]⟩ : Shape).Idx → EReal) (upd : (⟨2, ![R, W]⟩ : Shape).Idx → EReal)
    (v : Fin N) (k : Fin W) :
    Ideal.hostScatterAdd (rowsDims N W R wf) x idx upd (ix2 v k)
      = x (ix2 v k) + ∑ r ∈ Finset.univ.filter (fun r : Fin R => rowOf N (idx (ix2 r (0 : Fin 1))) = some v), upd (ix2 r k) := by
  unfold Ideal.hostScatterAdd
  refine congrArg (x (ix2 v k) + ·) ?_
  refine Finset.sum_bij' (fun j _ => j 0) (fun r _ => ix2 r k) ?_ ?_ ?_ ?_ ?_
  · intro j hj
    have := (rows_lands_iff wf idx j v k).mp (Finset.mem_filter.mp hj).2
    exact Finset.mem_filter.mpr ⟨Finset.mem_univ _, this.1⟩
  · intro r hr
    refine Finset.mem_filter.mpr ⟨Finset.mem_univ _, (rows_lands_iff wf idx (ix2 r k) v k).mpr ⟨?_, rfl⟩⟩
    exact (Finset.mem_filter.mp hr).2
  · intro j hj
    have := (rows_lands_iff wf idx j v k).mp (Finset.mem_filter.mp hj).2
    rw [← this.2]
    exact (eq_ix2 j).symm
  · intro r _
    rfl
  · intro j hj
    have := (rows_lands_iff wf idx j v k).mp (Finset.mem_filter.mp hj).2
    rw [← this.2]
    exact congrArg upd (eq_ix2 j)

end Rows

/-! ## Entries -/

/-- The dimension numbers of an entry scatter: operand `[N]`, scatter indices `[R, 1]`, updates `[R]`. -/
abbrev entriesDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section Entries
variable {N R w : Nat} (wf : ScatterDims.WF ⟨1, ![N]⟩ ⟨2, ![R, 1]⟩ ⟨1, ![R]⟩ [] [0] [0] 1)
  (idx : IVec ⟨2, ![R, 1]⟩ w)

theorem entries_start0 (j : (⟨1, ![R]⟩ : Shape).Idx) :
    (entriesDims N R wf).start j idx 0 = (idx (ix2 (j 0) (0 : Fin 1))).toInt := by
  unfold ScatterDims.start
  rw [dif_pos (show (0 : Fin 1) ∈ (entriesDims N R wf).scatterDimsToOperandDims from List.mem_singleton.mpr rfl)]
  have hsi : (entriesDims N R wf).siIdx j ⟨List.idxOf (0 : Fin 1) (entriesDims N R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem entries_window0 (j : (⟨1, ![R]⟩ : Shape).Idx) : (entriesDims N R wf).window j 0 = 0 := by
  unfold ScatterDims.window
  have h : (0 : Fin 1) ∉ (entriesDims N R wf).sKept := by
    show (0 : Fin 1) ∉ (List.finRange 1).filter (· ∉ [(0 : Fin 1)])
    decide
  rw [dif_neg h]

/-- Where update entry `j = (r)` lands: at the row its start index names, if it names one. -/
theorem entries_resultIdx (j : (⟨1, ![R]⟩ : Shape).Idx) :
    (entriesDims N R wf).resultIdx? j idx = (rowOf N (idx (ix2 (j 0) (0 : Fin 1)))).map (fun v => ix1 v) := by
  unfold ScatterDims.resultIdx? rowOf
  by_cases hh : 0 ≤ (idx (ix2 (j 0) (0 : Fin 1))).toInt ∧ (idx (ix2 (j 0) (0 : Fin 1))).toInt < N
  · have hall : ∀ a, 0 ≤ (entriesDims N R wf).start j idx a + (entriesDims N R wf).window j a
        ∧ (entriesDims N R wf).start j idx a + (entriesDims N R wf).window j a < (⟨1, ![N]⟩ : Shape).size a := by
      intro a
      match a with
      | ⟨0, _⟩ =>
        rw [show (⟨0, by omega⟩ : Fin 1) = 0 from rfl, entries_start0, entries_window0]
        show 0 ≤ _ + ((0 : Nat) : Int) ∧ _ + ((0 : Nat) : Int) < (N : Int)
        omega
    rw [dif_pos hall, dif_pos hh]
    refine congrArg some (funext fun a => Fin.ext ?_)
    match a with
    | ⟨0, _⟩ =>
      show ((entriesDims N R wf).start j idx 0 + (entriesDims N R wf).window j 0).toNat = _
      rw [entries_start0, entries_window0]
      show (_ + ((0 : Nat) : Int)).toNat = (idx (ix2 (j 0) (0 : Fin 1))).toInt.toNat
      simp
  · have hnot : ¬ ∀ a, 0 ≤ (entriesDims N R wf).start j idx a + (entriesDims N R wf).window j a
        ∧ (entriesDims N R wf).start j idx a + (entriesDims N R wf).window j a < (⟨1, ![N]⟩ : Shape).size a := by
      intro hall
      have h0 := hall 0
      rw [entries_start0, entries_window0] at h0
      apply hh
      have h0' : 0 ≤ (idx (ix2 (j 0) (0 : Fin 1))).toInt + ((0 : Nat) : Int)
          ∧ (idx (ix2 (j 0) (0 : Fin 1))).toInt + ((0 : Nat) : Int) < (N : Int) := h0
      omega
    rw [dif_neg hnot, dif_neg hh]
    rfl

/-- Update entry `j` lands on `v` exactly when its start index names `v`. -/
theorem entries_lands_iff (j : (⟨1, ![R]⟩ : Shape).Idx) (v : Fin N) :
    (entriesDims N R wf).resultIdx? j idx = some (ix1 v) ↔ rowOf N (idx (ix2 (j 0) (0 : Fin 1))) = some v := by
  rw [entries_resultIdx]
  constructor
  · intro h
    obtain ⟨v', hv', he⟩ := Option.map_eq_some_iff.mp h
    have h0 := congrFun he 0
    rw [hv']; exact congrArg some h0
  · intro h1
    rw [h1, Option.map_some]

/-- THE ENTRY SCATTER-ADD READ AT `v`: the operand's entry plus the updates' entries `r` whose start index names `v`. -/
theorem scatterAdd_entries_apply (x : (⟨1, ![N]⟩ : Shape).Idx → EReal) (upd : (⟨1, ![R]⟩ : Shape).Idx → EReal) (v : Fin N) :
    Ideal.hostScatterAdd (entriesDims N R wf) x idx upd (ix1 v)
      = x (ix1 v) + ∑ r ∈ Finset.univ.filter (fun r : Fin R => rowOf N (idx (ix2 r (0 : Fin 1))) = some v), upd (ix1 r) := by
  unfold Ideal.hostScatterAdd
  refine congrArg (x (ix1 v) + ·) ?_
  refine Finset.sum_bij' (fun j _ => j 0) (fun r _ => ix1 r) ?_ ?_ ?_ ?_ ?_
  · intro j hj
    exact Finset.mem_filter.mpr ⟨Finset.mem_univ _, (entries_lands_iff wf idx j v).mp (Finset.mem_filter.mp hj).2⟩
  · intro r hr
    exact Finset.mem_filter.mpr ⟨Finset.mem_univ _, (entries_lands_iff wf idx (ix1 r) v).mpr (Finset.mem_filter.mp hr).2⟩
  · intro j _
    exact (eq_ix1 j).symm
  · intro r _
    rfl
  · intro j _
    exact congrArg upd (eq_ix1 j)

end Entries

end Cert.Lib.ScatterAdd

end
-- ==== Proof.LibGatherRows.lean ====
/-
  `stablehlo.gather` taking whole ROWS of a rank-2 operand, read at one result element.

  What `x[idx]` of an array `x : [N, W]` at an integer array `idx` lowers to: a gather with the one offset axis
  last in the result, collapsed_slice_dims `[0]`, start_index_map `[0]`, slice_sizes `[1, W]`, and the index vector on
  the start indices' last axis (of extent 1). Result element `(…, k)` is `x` at row "the start index, read as a signed
  integer and clamped into `[0, N − 1]`" and column `k`. Two layouts of the start indices are covered: `[R, C, 1]`
  (result `[R, C, W]`) and `[R, 1]` (result `[R, W]`). These are the rank-2 cousins of the library's
  `ValueIdx.gather_take_apply` (a rank-1 operand), and their proofs take the same steps.
-/
import Idealize.ShloMosaic.Lib.ValueIdx

noncomputable section

namespace Cert.Lib.GatherRows

open Idealize.ShloMosaic Idealize.ShloMosaic.ValueIdx

/-- A start index read as a signed integer and clamped into `[0, N − 1]`. -/
def clampRow (N : Nat) (hN : 0 < N) {w : Nat} (v : BitVec w) : Fin N := ⟨min v.toInt.toNat (N - 1), by omega⟩

/-! ## Start indices `[R, C, 1]`, result `[R, C, W]` -/

/-- The dimension numbers of `x[idx]` for an operand `x : [N, W]`, start indices given as `[R, C, 1]` and result
    `[R, C, W]`: the result's last axis is the one offset axis (it reads the operand's axis 1, whole: slice size `W`),
    the operand's axis 0 is collapsed (slice size 1) and is the one axis the start index names; the index vector lies
    on the start indices' axis 2. Their conditions `wf` are decided on a program's literal shapes. -/
abbrev rowsDims3 (N W R C : Nat)
    (wf : GatherDims.WF ⟨2, ![N, W]⟩ ⟨3, ![R, C, 1]⟩ ⟨3, ![R, C, W]⟩ [2] [0] [] [0] [] 2 ![1, W]) :
    GatherDims ⟨2, ![N, W]⟩ ⟨3, ![R, C, 1]⟩ ⟨3, ![R, C, W]⟩ where
  offsetDims := [2]
  collapsedSliceDims := [0]
  operandBatchingDims := []
  startIndicesBatchingDims := []
  startIndexMap := [0]
  indexVectorDim := 2
  sliceSizes := ![1, W]
  wf := wf

/-- THE GATHER READ AT `(r, c, k)`: the operand at row "the start index `idx[r, c, 0]`, read signed and clamped into
    `[0, N − 1]`" and column `k`. -/
theorem gather_rows3_apply {α : Type} {N W R C w : Nat} (hN : 0 < N)
    (wf : GatherDims.WF ⟨2, ![N, W]⟩ ⟨3, ![R, C, 1]⟩ ⟨3, ![R, C, W]⟩ [2] [0] [] [0] [] 2 ![1, W])
    (x : (⟨2, ![N, W]⟩ : Shape).Idx → α) (idx : IVec ⟨3, ![R, C, 1]⟩ w) (r : Fin R) (c : Fin C) (k : Fin W) :
    Host.gather (rowsDims3 N W R C wf) x idx (ix3 r c k) = x (ix2 (clampRow N hN (idx (ix3 r c (0 : Fin 1)))) k) := by
  unfold Host.gather
  congr 1
  funext a
  match a with
  | ⟨0, _⟩ =>
    -- axis 0: named by the start index map and collapsed
    refine Fin.ext ?_
    show (rowsDims3 N W R C wf).start (ix3 r c k) idx 0 + (rowsDims3 N W R C wf).batchCoord (ix3 r c k) 0
      + (rowsDims3 N W R C wf).offCoord (ix3 r c k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims3 N W R C wf).startIndexMap from List.mem_singleton.mpr rfl)]
    have hsi : (rowsDims3 N W R C wf).siIdx (ix3 r c k) ⟨List.idxOf (0 : Fin 2) (rowsDims3 N W R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  | ⟨1, _⟩ =>
    -- axis 1: not named by the start index map, and the one kept axis
    refine Fin.ext ?_
    show (rowsDims3 N W R C wf).start (ix3 r c k) idx 1 + (rowsDims3 N W R C wf).batchCoord (ix3 r c k) 1
      + (rowsDims3 N W R C wf).offCoord (ix3 r c k) 1 = _
    have hmap : (1 : Fin 2) ∉ (rowsDims3 N W R C wf).startIndexMap :=
      fun h => absurd (List.mem_singleton.mp h) (show (1 : Fin 2) ≠ 0 by decide)
    have hkept : (1 : Fin 2) ∈ (rowsDims3 N W R C wf).sKept :=
      (GatherDims.mem_sKept _ _).mpr ⟨fun h => absurd (List.mem_singleton.mp h) (show (1 : Fin 2) ≠ 0 by decide), List.not_mem_nil⟩
    rw [GatherDims.batchCoord_eq_zero _ _ _ List.not_mem_nil]
    unfold GatherDims.start
    rw [dif_neg hmap]
    unfold GatherDims.offCoord
    rw [dif_pos hkept]
    simp only [Nat.zero_add, Nat.add_zero]
    rfl

/-! ## Start indices `[R, 1]`, result `[R, W]` -/

/-- The same dimension numbers for start indices given as `[R, 1]` and result `[R, W]`: the result's axis 1 is the one
    offset axis, the operand's axis 0 is collapsed and named by the start index, and the index vector lies on the start
    indices' axis 1. Their conditions `wf` are decided on a program's literal shapes. -/
abbrev rowsDims2 (N W R : Nat)
    (wf : GatherDims.WF ⟨2, ![N, W]⟩ ⟨2, ![R, 1]⟩ ⟨2, ![R, W]⟩ [1] [0] [] [0] [] 1 ![1, W]) :
    GatherDims ⟨2, ![N, W]⟩ ⟨2, ![R, 1]⟩ ⟨2, ![R, W]⟩ where
  offsetDims := [1]
  collapsedSliceDims := [0]
  operandBatchingDims := []
  startIndicesBatchingDims := []
  startIndexMap := [0]
  indexVectorDim := 1
  sliceSizes := ![1, W]
  wf := wf

/-- THE GATHER READ AT `(r, k)`: the operand at row "the start index `idx[r, 0]`, read signed and clamped into
    `[0, N − 1]`" and column `k`. -/
theorem gather_rows2_apply {α : Type} {N W R w : Nat} (hN : 0 < N)
    (wf : GatherDims.WF ⟨2, ![N, W]⟩ ⟨2, ![R, 1]⟩ ⟨2, ![R, W]⟩ [1] [0] [] [0] [] 1 ![1, W])
    (x : (⟨2, ![N, W]⟩ : Shape).Idx → α) (idx : IVec ⟨2, ![R, 1]⟩ w) (r : Fin R) (k : Fin W) :
    Host.gather (rowsDims2 N W R wf) x idx (ix2 r k) = x (ix2 (clampRow N hN (idx (ix2 r (0 : Fin 1)))) k) := by
  unfold Host.gather
  congr 1
  funext a
  match a with
  | ⟨0, _⟩ =>
    -- axis 0: named by the start index map and collapsed
    refine Fin.ext ?_
    show (rowsDims2 N W R wf).start (ix2 r k) idx 0 + (rowsDims2 N W R wf).batchCoord (ix2 r k) 0
      + (rowsDims2 N W R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims2 N W R wf).startIndexMap from List.mem_singleton.mpr rfl)]
    have hsi : (rowsDims2 N W R wf).siIdx (ix2 r k) ⟨List.idxOf (0 : Fin 2) (rowsDims2 N W R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- axis 1: not named by the start index map, and the one kept axis
    refine Fin.ext ?_
    show (rowsDims2 N W R wf).start (ix2 r k) idx 1 + (rowsDims2 N W R wf).batchCoord (ix2 r k) 1
      + (rowsDims2 N W R wf).offCoord (ix2 r k) 1 = _
    have hmap : (1 : Fin 2) ∉ (rowsDims2 N W R wf).startIndexMap :=
      fun h => absurd (List.mem_singleton.mp h) (show (1 : Fin 2) ≠ 0 by decide)
    have hkept : (1 : Fin 2) ∈ (rowsDims2 N W R wf).sKept :=
      (GatherDims.mem_sKept _ _).mpr ⟨fun h => absurd (List.mem_singleton.mp h) (show (1 : Fin 2) ≠ 0 by decide), List.not_mem_nil⟩
    rw [GatherDims.batchCoord_eq_zero _ _ _ List.not_mem_nil]
    unfold GatherDims.start
    rw [dif_neg hmap]
    unfold GatherDims.offCoord
    rw [dif_pos hkept]
    simp only [Nat.zero_add, Nat.add_zero]
    rfl

/-! ## The two lemmas at literal shapes -/

/-- `gather_rows3_apply` at literal extents: a table `[100000, 64]` of extended reals read at 32-bit start indices
    `[16384, 5, 1]`. -/
example (wf : GatherDims.WF ⟨2, ![100000, 64]⟩ ⟨3, ![16384, 5, 1]⟩ ⟨3, ![16384, 5, 64]⟩ [2] [0] [] [0] [] 2 ![1, 64])
    (x : (⟨2, ![100000, 64]⟩ : Shape).Idx → EReal) (idx : IVec ⟨3, ![16384, 5, 1]⟩ 32)
    (r : Fin 16384) (c : Fin 5) (k : Fin 64) :
    Host.gather (rowsDims3 100000 64 16384 5 wf) x idx (ix3 r c k)
      = x (ix2 (clampRow 100000 (by decide) (idx (ix3 r c (0 : Fin 1)))) k) :=
  gather_rows3_apply _ wf x idx r c k

/-- `gather_rows2_apply` at literal extents: the same table read at 32-bit start indices `[16384, 1]`. -/
example (wf : GatherDims.WF ⟨2, ![100000, 64]⟩ ⟨2, ![16384, 1]⟩ ⟨2, ![16384, 64]⟩ [1] [0] [] [0] [] 1 ![1, 64])
    (x : (⟨2, ![100000, 64]⟩ : Shape).Idx → EReal) (idx : IVec ⟨2, ![16384, 1]⟩ 32)
    (r : Fin 16384) (k : Fin 64) :
    Host.gather (rowsDims2 100000 64 16384 wf) x idx (ix2 r k)
      = x (ix2 (clampRow 100000 (by decide) (idx (ix2 r (0 : Fin 1)))) k) :=
  gather_rows2_apply _ wf x idx r k

end Cert.Lib.GatherRows

end
-- ==== Proof.Index.lean ====
/-
  Node numbers as the two programs read them off 32-bit integers, for a graph of 100000 nodes.

  A LOOKUP `x[i]` first adds the node count to a negative `i` (`wrap`) and then clamps the result into the node range
  (`pick`): every integer reads some node. A SUM AT `i` lands on node `i` only when `0 ≤ i < 100000` as a signed
  integer and is dropped otherwise (`rowOf`). Where a sum lands, a lookup reads the same node; and the number of a
  node, written as a 32-bit integer, names that node both ways.
-/
import Idealize.ShloMosaic.PureOps.Ideal
import proofs.«174125_j69157563400469_2_alg».proof.Proof.LibScatterAdd
import proofs.«174125_j69157563400469_2_alg».proof.Proof.LibGatherRows

noncomputable section

namespace Cert.Index

open Idealize.ShloMosaic Cert.Lib.ScatterAdd Cert.Lib.GatherRows

/-- A lookup index as the programs normalise it: a negative index counts from the end of the node list. -/
def wrap (b : BitVec 32) : BitVec 32 := Scalar.select (IntOp.cmpi .slt b 0#32) (IntOp.addi b 100000#32) b

/-- The node a lookup at `b` reads. -/
def pick (b : BitVec 32) : Fin 100000 := clampRow 100000 (by decide) (wrap b)

theorem wrap_of_nonneg (b : BitVec 32) (h : 0 ≤ b.toInt) : wrap b = b := by
  unfold wrap IntOp.cmpi
  have hs : b.slt 0#32 = false := by
    rw [BitVec.slt]
    simp only [BitVec.toInt_zero, decide_eq_false_iff_not, not_lt]
    exact h
  simp only [hs]
  rfl

/-- Where a sum at `b` lands on node `v`, a lookup at `b` reads node `v`. -/
theorem pick_of_rowOf (b : BitVec 32) (v : Fin 100000) (h : rowOf 100000 b = some v) : pick b = v := by
  have hv := (rowOf_eq_some b v).mp h
  unfold pick
  rw [wrap_of_nonneg b (by omega)]
  unfold clampRow
  refine Fin.ext ?_
  have := v.isLt
  show min b.toInt.toNat (100000 - 1) = v.val
  omega

theorem toInt_ofNat_node (u : Fin 100000) : (BitVec.ofNat 32 u.val).toInt = (u.val : Int) := by
  have hu := u.isLt
  have h2 : ((2 : Nat) ^ 32 : Nat) = 4294967296 := by norm_num
  rw [BitVec.toInt_eq_toNat_cond, BitVec.toNat_ofNat, h2, Nat.mod_eq_of_lt (by omega), if_pos (by omega)]

/-- A sum at a node's own number lands on that node. -/
theorem rowOf_node (u : Fin 100000) : rowOf 100000 (BitVec.ofNat 32 u.val) = some u :=
  (rowOf_eq_some _ u).mpr (toInt_ofNat_node u)

/-- A lookup at a node's own number reads that node. -/
theorem pick_node (u : Fin 100000) : pick (BitVec.ofNat 32 u.val) = u := pick_of_rowOf _ u (rowOf_node u)

/-- The edges that arrive at node `v`: the positions of the destination list `d` whose entry names `v`. -/
def landing (d : IVec ⟨1, ![6400000]⟩ 32) (v : Fin 100000) : Finset (Fin 6400000) :=
  Finset.univ.filter fun e => rowOf 100000 (d (ValueIdx.ix1 e)) = some v

theorem mem_landing (d : IVec ⟨1, ![6400000]⟩ 32) (v : Fin 100000) (e : Fin 6400000) :
    e ∈ landing d v ↔ rowOf 100000 (d (ValueIdx.ix1 e)) = some v := by
  unfold landing; simp

end Cert.Index

end
-- ==== Proof.LibSegmentSum.lean ====
/-
  Sums of looked-up rows at their destinations (`jax.ops.segment_sum (x[src], dst)`), read at one element.

  A row lookup followed by a row scatter-add: entry `(v, c)` of the result is the operand's entry plus, over the
  positions `e` whose destination index names row `v`, entry `c` of the row the source index of `e` reads. The index
  vectors arrive as columns `[E, 1]` of vectors `[E]`; the two small reads of such columns are here too.
-/
import Idealize.ShloMosaic.Lib.Pipeline.Value
import Idealize.ShloMosaic.Lib.IdealHost
import proofs.«174125_j69157563400469_2_alg».proof.Proof.LibScatterAdd
import proofs.«174125_j69157563400469_2_alg».proof.Proof.LibGatherRows

noncomputable section

namespace Cert.Lib.SegmentSum

open Idealize.ShloMosaic Idealize.ShloMosaic.ValueIdx Cert.Lib.ScatterAdd Cert.Lib.GatherRows

/-- A vector `[E]` laid out as a column `[E, 1]` reads the vector. -/
theorem col_apply {α : Type} {E : Nat} (h : (⟨1, ![E]⟩ : Shape).BroadcastsInDim ⟨2, ![E, 1]⟩ ![0])
    (x : (⟨1, ![E]⟩ : Shape).Idx → α) (e : Fin E) :
    broadcastInDim ⟨2, ![E, 1]⟩ ![0] h x (ix2 e (0 : Fin 1)) = x (ix1 e) := by
  refine broadcastInDim_apply _ h x _ (ix1 e) ?_
  intro a
  match a with
  | ⟨0, _⟩ =>
    show e.val = if E = 1 then 0 else e.val
    split
    · have := e.isLt; omega
    · rfl

/-- A column `[E, 1]` repeated along `W` columns reads the column's entry of the row. -/
theorem colrow_apply {α : Type} {E W : Nat} (h : (⟨2, ![E, 1]⟩ : Shape).BroadcastsInDim ⟨2, ![E, W]⟩ ![0, 1])
    (y : (⟨2, ![E, 1]⟩ : Shape).Idx → α) (e : Fin E) (c : Fin W) :
    broadcastInDim ⟨2, ![E, W]⟩ ![0, 1] h y (ix2 e c) = y (ix2 e (0 : Fin 1)) := by
  refine broadcastInDim_apply _ h y _ (ix2 e (0 : Fin 1)) ?_
  intro a
  match a with
  | ⟨0, _⟩ =>
    show e.val = if E = 1 then 0 else e.val
    split
    · have := e.isLt; omega
    · rfl
  | ⟨1, _⟩ =>
    show (0 : Nat) = if (1 : Nat) = 1 then 0 else c.val
    rfl

/-- THE SUM OF LOOKED-UP ROWS READ AT `(v, c)`: the operand's constant plus, over the positions whose destination
    index names `v`, entry `c` of the row the source index reads (clamped into the row range). -/
theorem segment_rows_apply {N E W w : Nat} (hN : 0 < N)
    (wfS : ScatterDims.WF ⟨2, ![N, W]⟩ ⟨2, ![E, 1]⟩ ⟨2, ![E, W]⟩ [1] [0] [0] 1)
    (wfG : GatherDims.WF ⟨2, ![N, W]⟩ ⟨2, ![E, 1]⟩ ⟨2, ![E, W]⟩ [1] [0] [] [0] [] 1 ![1, W])
    (hb0 : (⟨0, ![]⟩ : Shape).BroadcastsInDim ⟨2, ![N, W]⟩ ![])
    (hc : (⟨1, ![E]⟩ : Shape).BroadcastsInDim ⟨2, ![E, 1]⟩ ![0])
    (z : (⟨0, ![]⟩ : Shape).Idx → EReal) (dIdx sIdx : IVec ⟨1, ![E]⟩ w)
    (rows : (⟨2, ![N, W]⟩ : Shape).Idx → EReal) (v : Fin N) (c : Fin W) :
    Ideal.hostScatterAdd (rowsDims N W E wfS) (broadcastInDim ⟨2, ![N, W]⟩ ![] hb0 z)
        (broadcastInDim ⟨2, ![E, 1]⟩ ![0] hc dIdx)
        (Host.gather (rowsDims2 N W E wfG) rows (broadcastInDim ⟨2, ![E, 1]⟩ ![0] hc sIdx)) (ix2 v c)
      = z ix0 + ∑ e ∈ Finset.univ.filter (fun e : Fin E => rowOf N (dIdx (ix1 e)) = some v),
          rows (ix2 (clampRow N hN (sIdx (ix1 e))) c) := by
  rw [scatterAdd_rows_apply, broadcastInDim_scalar_apply]
  have hd : ∀ e : Fin E, broadcastInDim ⟨2, ![E, 1]⟩ ![0] hc dIdx (ix2 e (0 : Fin 1)) = dIdx (ix1 e) :=
    fun e => col_apply hc dIdx e
  have hs : ∀ e : Fin E, broadcastInDim ⟨2, ![E, 1]⟩ ![0] hc sIdx (ix2 e (0 : Fin 1)) = sIdx (ix1 e) :=
    fun e => col_apply hc sIdx e
  have hg : ∀ e : Fin E, Host.gather (rowsDims2 N W E wfG) rows (broadcastInDim ⟨2, ![E, 1]⟩ ![0] hc sIdx) (ix2 e c)
      = rows (ix2 (clampRow N hN (sIdx (ix1 e))) c) := fun e => by rw [gather_rows2_apply hN, hs]
  simp only [hd, hg]

/-- The same with every looked-up row weighted by its position's weight `wt e` (carried as a column repeated along
    the columns): the summand at position `e` is the row entry times `wt e`. -/
theorem segment_rows_weighted_apply {N E W w : Nat} (hN : 0 < N)
    (wfS : ScatterDims.WF ⟨2, ![N, W]⟩ ⟨2, ![E, 1]⟩ ⟨2, ![E, W]⟩ [1] [0] [0] 1)
    (wfG : GatherDims.WF ⟨2, ![N, W]⟩ ⟨2, ![E, 1]⟩ ⟨2, ![E, W]⟩ [1] [0] [] [0] [] 1 ![1, W])
    (hb0 : (⟨0, ![]⟩ : Shape).BroadcastsInDim ⟨2, ![N, W]⟩ ![])
    (hc : (⟨1, ![E]⟩ : Shape).BroadcastsInDim ⟨2, ![E, 1]⟩ ![0])
    (hcr : (⟨2, ![E, 1]⟩ : Shape).BroadcastsInDim ⟨2, ![E, W]⟩ ![0, 1])
    (z : (⟨0, ![]⟩ : Shape).Idx → EReal) (dIdx sIdx : IVec ⟨1, ![E]⟩ w)
    (rows : (⟨2, ![N, W]⟩ : Shape).Idx → EReal) (wt : (⟨1, ![E]⟩ : Shape).Idx → EReal) (v : Fin N) (c : Fin W) :
    Ideal.hostScatterAdd (rowsDims N W E wfS) (broadcastInDim ⟨2, ![N, W]⟩ ![] hb0 z)
        (broadcastInDim ⟨2, ![E, 1]⟩ ![0] hc dIdx)
        (mulf (F := Ideal) (φ := .f32) (Host.gather (rowsDims2 N W E wfG) rows (broadcastInDim ⟨2, ![E, 1]⟩ ![0] hc sIdx))
          (broadcastInDim ⟨2, ![E, W]⟩ ![0, 1] hcr (broadcastInDim ⟨2, ![E, 1]⟩ ![0] hc wt))) (ix2 v c)
      = z ix0 + ∑ e ∈ Finset.univ.filter (fun e : Fin E => rowOf N (dIdx (ix1 e)) = some v),
          rows (ix2 (clampRow N hN (sIdx (ix1 e))) c) * wt (ix1 e) := by
  rw [scatterAdd_rows_apply, broadcastInDim_scalar_apply]
  have hd : ∀ e : Fin E, broadcastInDim ⟨2, ![E, 1]⟩ ![0] hc dIdx (ix2 e (0 : Fin 1)) = dIdx (ix1 e) :=
    fun e => col_apply hc dIdx e
  have hs : ∀ e : Fin E, broadcastInDim ⟨2, ![E, 1]⟩ ![0] hc sIdx (ix2 e (0 : Fin 1)) = sIdx (ix1 e) :=
    fun e => col_apply hc sIdx e
  have hu : ∀ e : Fin E,
      mulf (F := Ideal) (φ := .f32) (Host.gather (rowsDims2 N W E wfG) rows (broadcastInDim ⟨2, ![E, 1]⟩ ![0] hc sIdx))
          (broadcastInDim ⟨2, ![E, W]⟩ ![0, 1] hcr (broadcastInDim ⟨2, ![E, 1]⟩ ![0] hc wt)) (ix2 e c)
        = rows (ix2 (clampRow N hN (sIdx (ix1 e))) c) * wt (ix1 e) := fun e => by
    show Host.gather (rowsDims2 N W E wfG) rows (broadcastInDim ⟨2, ![E, 1]⟩ ![0] hc sIdx) (ix2 e c)
        * broadcastInDim ⟨2, ![E, W]⟩ ![0, 1] hcr (broadcastInDim ⟨2, ![E, 1]⟩ ![0] hc wt) (ix2 e c) = _
    rw [gather_rows2_apply hN, hs, colrow_apply hcr, col_apply hc wt]
  simp only [hd, hu]

end Cert.Lib.SegmentSum

end
-- ==== Proof.Forms.lean ====
/-
  The host-side steps of a graph-convolution layer, each read at one element, for ANY number of nodes `N` and of
  edges `E`: the degree count, the normalising factor, the scaled products, the aggregate over arriving edges, and the
  finishing step. The destination and source lists, the rows and the factors are arbitrary; each statement is spelt
  with the operations a program applies, so that it can be cited for a program's stage as it stands.
-/
import Idealize.ShloMosaic.PureOps.Ideal.Laws
import Idealize.ShloMosaic.Lib.Pipeline.Value
import Idealize.ShloMosaic.Lib.IdealHost
import proofs.«174125_j69157563400469_2_alg».proof.Proof.Spec
import proofs.«174125_j69157563400469_2_alg».proof.Proof.LibSegmentSum

noncomputable section

namespace Cert.Forms

open Idealize.ShloMosaic Idealize.ShloMosaic.ValueIdx
open Cert.Lib.ScatterAdd Cert.Lib.GatherRows Cert.Lib.SegmentSum

/-- A constant spread over an array reads the constant. -/
theorem splat_apply {T : Shape} (h : (⟨0, ![]⟩ : Shape).BroadcastsInDim T ![]) (b : BitVec 32) (j : T.Idx) :
    broadcastInDim T ![] h (constant (F := Ideal) (⟨0, ![]⟩ : Shape) .f32 b) j = Ideal.ofBits .f32 b :=
  broadcastInDim_scalar_apply h _ j

variable {N E : Nat}

/-- THE DEGREE COUNT: the constant `z`, the constant `o` once for every position of the destination list `d` that
    names node `v`, and `o` once more. -/
theorem deg_form (hs0 : (⟨0, ![]⟩ : Shape).BroadcastsInDim ⟨1, ![N]⟩ ![])
    (hsE : (⟨0, ![]⟩ : Shape).BroadcastsInDim ⟨1, ![E]⟩ ![])
    (hcE : (⟨1, ![E]⟩ : Shape).BroadcastsInDim ⟨2, ![E, 1]⟩ ![0])
    (sd : ScatterDims ⟨1, ![N]⟩ ⟨2, ![E, 1]⟩ ⟨1, ![E]⟩)
    (wf : ScatterDims.WF ⟨1, ![N]⟩ ⟨2, ![E, 1]⟩ ⟨1, ![E]⟩ [] [0] [0] 1) (hsd : sd = entriesDims N E wf)
    (z o : BitVec 32) (d : IVec ⟨1, ![E]⟩ 32) (v : Fin N) :
    addf (F := Ideal) (φ := .f32)
        (Host.scatterAdd sd (broadcastInDim ⟨1, ![N]⟩ ![] hs0 (constant (⟨0, ![]⟩ : Shape) .f32 z))
          (broadcastInDim ⟨2, ![E, 1]⟩ ![0] hcE d)
          (broadcastInDim ⟨1, ![E]⟩ ![] hsE (constant (⟨0, ![]⟩ : Shape) .f32 o)))
        (broadcastInDim ⟨1, ![N]⟩ ![] hs0 (constant (⟨0, ![]⟩ : Shape) .f32 o)) (ix1 v)
      = (Ideal.ofBits .f32 z
          + ∑ _e ∈ Finset.univ.filter (fun e : Fin E => rowOf N (d (ix1 e)) = some v), Ideal.ofBits .f32 o)
        + Ideal.ofBits .f32 o := by
  subst hsd
  show Ideal.hostScatterAdd (entriesDims N E wf)
        (broadcastInDim ⟨1, ![N]⟩ ![] hs0 (constant (F := Ideal) (⟨0, ![]⟩ : Shape) .f32 z))
        (broadcastInDim ⟨2, ![E, 1]⟩ ![0] hcE d)
        (broadcastInDim ⟨1, ![E]⟩ ![] hsE (constant (F := Ideal) (⟨0, ![]⟩ : Shape) .f32 o)) (ix1 v)
      + broadcastInDim ⟨1, ![N]⟩ ![] hs0 (constant (F := Ideal) (⟨0, ![]⟩ : Shape) .f32 o) (ix1 v) = _
  rw [scatterAdd_entries_apply, splat_apply, splat_apply]
  have hd : ∀ e : Fin E, broadcastInDim ⟨2, ![E, 1]⟩ ![0] hcE d (ix2 e (0 : Fin 1)) = d (ix1 e) :=
    fun e => col_apply hcE d e
  have hu : ∀ e : Fin E,
      broadcastInDim ⟨1, ![E]⟩ ![] hsE (constant (F := Ideal) (⟨0, ![]⟩ : Shape) .f32 o) (ix1 e) = Ideal.ofBits .f32 o :=
    fun e => splat_apply _ _ _
  simp only [hd, hu]

/-- THE FACTOR of a degree array `g`: at node `v`, one over the square root of `g v` where `g v > 0`, else zero. -/
theorem dis_form (hs0 : (⟨0, ![]⟩ : Shape).BroadcastsInDim ⟨1, ![N]⟩ ![]) (g : FVec Ideal ⟨1, ![N]⟩ .f32) (v : Fin N) :
    select (cmpf .ogt g (broadcastInDim ⟨1, ![N]⟩ ![] hs0 (constant (F := Ideal) (⟨0, ![]⟩ : Shape) .f32 0x00000000#32)))
        (Host.rsqrt g) (broadcastInDim ⟨1, ![N]⟩ ![] hs0 (constant (F := Ideal) (⟨0, ![]⟩ : Shape) .f32 0x00000000#32)) (ix1 v)
      = Scalar.select (Ideal.cmp .ogt (g (ix1 v)) 0) (Ideal.rsqrt (g (ix1 v))) 0 := by
  show Scalar.select (Ideal.cmp .ogt (g (ix1 v))
        (broadcastInDim ⟨1, ![N]⟩ ![] hs0 (constant (F := Ideal) (⟨0, ![]⟩ : Shape) .f32 0x00000000#32) (ix1 v)))
      (Ideal.rsqrt (g (ix1 v)))
      (broadcastInDim ⟨1, ![N]⟩ ![] hs0 (constant (F := Ideal) (⟨0, ![]⟩ : Shape) .f32 0x00000000#32) (ix1 v)) = _
  rw [splat_apply, Ideal.ofBits_zero_f32]

/-- THE SCALED PRODUCTS: entry `(v, c)` of `x · w` times `δ v`, the factors given as a column. -/
theorem linScale_form {Kc D : Nat} (hcN : (⟨1, ![N]⟩ : Shape).BroadcastsInDim ⟨2, ![N, 1]⟩ ![0])
    (x : (⟨2, ![N, Kc]⟩ : Shape).Idx → EReal) (w : (⟨2, ![Kc, D]⟩ : Shape).Idx → EReal)
    (δ : (⟨1, ![N]⟩ : Shape).Idx → EReal) (v : Fin N) (c : Fin D) :
    Cert.Spec.linScale x w (broadcastInDim ⟨2, ![N, 1]⟩ ![0] hcN δ) (ix2 v c)
      = (∑ k : Fin Kc, x (ix2 v k) * w (ix2 k c)) * δ (ix1 v) := by
  show (∑ k : Fin Kc, x (ix2 v k) * w (ix2 k c)) * broadcastInDim ⟨2, ![N, 1]⟩ ![0] hcN δ (ix2 v (0 : Fin 1)) = _
  rw [col_apply]

/-- THE AGGREGATE: at `(v, c)`, the sum over the positions of the destination list `d` naming `v` of entry `c` of the
    row that position of the lookup list `sN` reads. -/
theorem agg_form {W : Nat} (hN : 0 < N)
    (hcE : (⟨1, ![E]⟩ : Shape).BroadcastsInDim ⟨2, ![E, 1]⟩ ![0])
    (hb0 : (⟨0, ![]⟩ : Shape).BroadcastsInDim ⟨2, ![N, W]⟩ ![])
    (sd : ScatterDims ⟨2, ![N, W]⟩ ⟨2, ![E, 1]⟩ ⟨2, ![E, W]⟩) (gd : GatherDims ⟨2, ![N, W]⟩ ⟨2, ![E, 1]⟩ ⟨2, ![E, W]⟩)
    (wfS : ScatterDims.WF ⟨2, ![N, W]⟩ ⟨2, ![E, 1]⟩ ⟨2, ![E, W]⟩ [1] [0] [0] 1)
    (wfG : GatherDims.WF ⟨2, ![N, W]⟩ ⟨2, ![E, 1]⟩ ⟨2, ![E, W]⟩ [1] [0] [] [0] [] 1 ![1, W])
    (hsd : sd = rowsDims N W E wfS) (hgd : gd = rowsDims2 N W E wfG)
    (d sN : IVec ⟨1, ![E]⟩ 32) (rows : (⟨2, ![N, W]⟩ : Shape).Idx → EReal) (v : Fin N) (c : Fin W) :
    Host.scatterAdd (F := Ideal) (φ := .f32) sd
        (broadcastInDim ⟨2, ![N, W]⟩ ![] hb0 (constant (⟨0, ![]⟩ : Shape) .f32 0x00000000#32))
        (broadcastInDim ⟨2, ![E, 1]⟩ ![0] hcE d)
        (Host.gather gd rows (broadcastInDim ⟨2, ![E, 1]⟩ ![0] hcE sN)) (ix2 v c)
      = 0 + ∑ e ∈ Finset.univ.filter (fun e : Fin E => rowOf N (d (ix1 e)) = some v),
          rows (ix2 (clampRow N hN (sN (ix1 e))) c) := by
  subst hsd hgd
  show Ideal.hostScatterAdd (rowsDims N W E wfS)
      (broadcastInDim ⟨2, ![N, W]⟩ ![] hb0 (constant (F := Ideal) (⟨0, ![]⟩ : Shape) .f32 0x00000000#32))
      (broadcastInDim ⟨2, ![E, 1]⟩ ![0] hcE d)
      (Host.gather (rowsDims2 N W E wfG) rows (broadcastInDim ⟨2, ![E, 1]⟩ ![0] hcE sN)) (ix2 v c) = _
  rw [segment_rows_apply hN]
  show Ideal.ofBits .f32 0x00000000#32 + _ = _
  rw [Ideal.ofBits_zero_f32]

/-- The bias, a vector of `D` entries recast as a row `[1, D]`, reads the vector. -/
theorem biasRow_form {D : Nat} (b : (⟨1, ![D]⟩ : Shape).Idx → EReal) (h : (⟨1, ![D]⟩ : Shape).ShapeCasts ⟨2, ![1, D]⟩) (c : Fin D) :
    shapeCast ⟨2, ![1, D]⟩ b h (ix2 (0 : Fin 1) c) = b (ix1 c) := by
  rw [shapeCast_addUnit_apply ![D] b h (ix2 (0 : Fin 1) c)]
  exact congrArg b (funext fun a => by match a with | ⟨0, _⟩ => rfl)

/-- A LAYER'S RESULT: `δ v` times (aggregate plus own scaled entry), plus the bias of column `c`. -/
theorem finalize_form {D : Nat} (hcN : (⟨1, ![N]⟩ : Shape).BroadcastsInDim ⟨2, ![N, 1]⟩ ![0])
    (agg hws : (⟨2, ![N, D]⟩ : Shape).Idx → EReal) (δ : (⟨1, ![N]⟩ : Shape).Idx → EReal)
    (b : (⟨1, ![D]⟩ : Shape).Idx → EReal) (h : (⟨1, ![D]⟩ : Shape).ShapeCasts ⟨2, ![1, D]⟩) (v : Fin N) (c : Fin D) :
    Cert.Spec.finalize agg hws (broadcastInDim ⟨2, ![N, 1]⟩ ![0] hcN δ) (shapeCast ⟨2, ![1, D]⟩ b h) (ix2 v c)
      = δ (ix1 v) * (agg (ix2 v c) + hws (ix2 v c)) + b (ix1 c) := by
  show broadcastInDim ⟨2, ![N, 1]⟩ ![0] hcN δ (ix2 v (0 : Fin 1)) * (agg (ix2 v c) + hws (ix2 v c))
      + shapeCast ⟨2, ![1, D]⟩ b h (ix2 (0 : Fin 1) c) = _
  rw [col_apply, biasRow_form]

/-- The same cut off at zero. -/
theorem finalizeRelu_form {D : Nat} (hcN : (⟨1, ![N]⟩ : Shape).BroadcastsInDim ⟨2, ![N, 1]⟩ ![0])
    (agg hws : (⟨2, ![N, D]⟩ : Shape).Idx → EReal) (δ : (⟨1, ![N]⟩ : Shape).Idx → EReal)
    (b : (⟨1, ![D]⟩ : Shape).Idx → EReal) (h : (⟨1, ![D]⟩ : Shape).ShapeCasts ⟨2, ![1, D]⟩) (v : Fin N) (c : Fin D) :
    Cert.Spec.finalizeRelu agg hws (broadcastInDim ⟨2, ![N, 1]⟩ ![0] hcN δ) (shapeCast ⟨2, ![1, D]⟩ b h) (ix2 v c)
      = max (δ (ix1 v) * (agg (ix2 v c) + hws (ix2 v c)) + b (ix1 c)) 0 := by
  show max (Cert.Spec.finalize agg hws (broadcastInDim ⟨2, ![N, 1]⟩ ![0] hcN δ) (shapeCast ⟨2, ![1, D]⟩ b h) (ix2 v c)) 0 = _
  rw [finalize_form]

end Cert.Forms

end
-- ==== Proof.KRead.lean ====
/-
  The kernel program's stages read at an index.

  Node `v`'s degree is one for each edge arriving at `v` and one more; its factor is one over the square root of the
  degree where that is positive; the scaled products of a layer are the rows of `x · w` times the row's factor; a
  layer's aggregate at `(v, c)` is the sum, over the edges arriving at `v`, of entry `c` of the scaled row of the
  edge's source; and a layer's result at `(v, c)` is `v`'s factor times (aggregate plus own scaled entry), plus the bias.
-/
import proofs.«174125_j69157563400469_2_alg».proof.Proof.KStages
import proofs.«174125_j69157563400469_2_alg».proof.Proof.Index
import proofs.«174125_j69157563400469_2_alg».proof.Proof.LibSegmentSum
import proofs.«174125_j69157563400469_2_alg».proof.Proof.Forms
import Idealize.ShloMosaic.PureOps.Ideal.Laws
import Idealize.ShloMosaic.Lib.Pipeline.Value
import Idealize.ShloMosaic.Lib.IdealHost

noncomputable section

namespace Cert.KernelIdeal.Read

open Idealize.ShloMosaic Idealize.ShloMosaic.ValueIdx Cert.KernelIdeal Cert.KernelIdeal.Gen
open Cert.Index Cert.Lib.ScatterAdd Cert.Lib.GatherRows Cert.Lib.SegmentSum

variable (x : FVec Ideal S100000x128 .f32) (ei : IVec S2x6400000 32) (w1 : FVec Ideal S128x16 .f32)
  (b1 : FVec Ideal S16 .f32) (w2 : FVec Ideal S16x8 .f32) (b2 : FVec Ideal S8 .f32)

/-- Node `v`'s degree: the program's zero, plus a one for every edge arriving at `v`, plus one more. -/
theorem deg_apply (v : Fin 100000) :
    Stages.deg ei (ix1 v)
      = (Ideal.ofBits .f32 0x00000000#32 + ∑ _e ∈ landing (Stages.dst ei) v, Ideal.ofBits .f32 0x3F800000#32)
        + Ideal.ofBits .f32 0x3F800000#32 := by
  unfold Stages.deg landing
  exact Cert.Forms.deg_form bcast_S_S100000 bcast_S_S6400000 bcast_S6400000_S6400000x1_0
    scatter_S100000_S6400000x1_S6400000_n_0_0_1 scatter_S100000_S6400000x1_S6400000_n_0_0_1.wf rfl
    0x00000000#32 0x3F800000#32 (Stages.dst ei) v

/-- Node `v`'s factor: one over the square root of its degree where the degree is positive, zero elsewhere. -/
theorem dis_apply (v : Fin 100000) :
    Stages.dis ei (ix1 v)
      = Scalar.select (Ideal.cmp .ogt (Stages.deg ei (ix1 v)) 0) (Ideal.rsqrt (Stages.deg ei (ix1 v))) 0 := by
  unfold Stages.dis
  exact Cert.Forms.dis_form bcast_S_S100000 (Stages.deg ei) v

/-- Layer 1, the scaled products at `(v, c)`: entry `(v, c)` of `x · w1` times `v`'s factor. -/
theorem hw1s_apply (v : Fin 100000) (c : Fin 16) :
    Stages.hw1s x ei w1 (ix2 v c) = (∑ k : Fin 128, x (ix2 v k) * w1 (ix2 k c)) * Stages.dis ei (ix1 v) := by
  unfold Stages.hw1s Stages.dis2d
  exact Cert.Forms.linScale_form bcast_S100000_S100000x1_0 x w1 (Stages.dis ei) v c

/-- Layer 2, the scaled products at `(v, c)`. -/
theorem hw2s_apply (v : Fin 100000) (c : Fin 8) :
    Stages.hw2s x ei w1 b1 w2 (ix2 v c)
      = (∑ k : Fin 16, Stages.h x ei w1 b1 (ix2 v k) * w2 (ix2 k c)) * Stages.dis ei (ix1 v) := by
  unfold Stages.hw2s Stages.dis2d
  exact Cert.Forms.linScale_form bcast_S100000_S100000x1_0 (Stages.h x ei w1 b1) w2 (Stages.dis ei) v c

/-- Position `e` of the lookup list reads the node `pick` of the edge's source. -/
theorem srcN_pick (e : Fin 6400000) :
    clampRow 100000 (by decide) (Stages.srcN ei (ix1 e)) = pick (Stages.src ei (ix1 e)) := rfl

/-- Layer 1, the aggregate at `(v, c)`: over the edges arriving at `v`, entry `c` of the source's scaled row. -/
theorem agg1_apply (v : Fin 100000) (c : Fin 16) :
    Stages.agg1 x ei w1 (ix2 v c)
      = 0 + ∑ e ∈ landing (Stages.dst ei) v, Stages.hw1s x ei w1 (ix2 (pick (Stages.src ei (ix1 e))) c) := by
  unfold Stages.agg1 landing
  rw [Cert.Forms.agg_form (by decide) bcast_S6400000_S6400000x1_0 bcast_S_S100000x16
    scatter_S100000x16_S6400000x1_S6400000x16_1_0_0_1 gather_S100000x16_S6400000x1_S6400000x16_1_0_n_n_0_1_116
    scatter_S100000x16_S6400000x1_S6400000x16_1_0_0_1.wf gather_S100000x16_S6400000x1_S6400000x16_1_0_n_n_0_1_116.wf rfl rfl
    (Stages.dst ei) (Stages.srcN ei) (Stages.hw1s x ei w1) v c]
  simp only [srcN_pick]

/-- Layer 2, the aggregate at `(v, c)`. -/
theorem agg2_apply (v : Fin 100000) (c : Fin 8) :
    Stages.agg2 x ei w1 b1 w2 (ix2 v c)
      = 0 + ∑ e ∈ landing (Stages.dst ei) v, Stages.hw2s x ei w1 b1 w2 (ix2 (pick (Stages.src ei (ix1 e))) c) := by
  unfold Stages.agg2 landing
  rw [Cert.Forms.agg_form (by decide) bcast_S6400000_S6400000x1_0 bcast_S_S100000x8
    scatter_S100000x8_S6400000x1_S6400000x8_1_0_0_1 gather_S100000x8_S6400000x1_S6400000x8_1_0_n_n_0_1_18
    scatter_S100000x8_S6400000x1_S6400000x8_1_0_0_1.wf gather_S100000x8_S6400000x1_S6400000x8_1_0_n_n_0_1_18.wf rfl rfl
    (Stages.dst ei) (Stages.srcN ei) (Stages.hw2s x ei w1 b1 w2) v c]
  simp only [srcN_pick]

/-- Layer 1's result at `(v, c)`: `v`'s factor times (aggregate plus own scaled entry), plus the bias, cut off at zero. -/
theorem h_apply (v : Fin 100000) (c : Fin 16) :
    Stages.h x ei w1 b1 (ix2 v c)
      = max (Stages.dis ei (ix1 v) * (Stages.agg1 x ei w1 (ix2 v c) + Stages.hw1s x ei w1 (ix2 v c)) + b1 (ix1 c)) 0 := by
  unfold Stages.h Stages.dis2d
  exact Cert.Forms.finalizeRelu_form bcast_S100000_S100000x1_0 (Stages.agg1 x ei w1) (Stages.hw1s x ei w1) (Stages.dis ei)
    b1 shapeCasts_S16_S1x16 v c

/-- The program's result at `(v, c)`: `v`'s factor times (aggregate plus own scaled entry), plus the bias. -/
theorem out_apply (v : Fin 100000) (c : Fin 8) :
    Stages.out x ei w1 b1 w2 b2 (ix2 v c)
      = Stages.dis ei (ix1 v) * (Stages.agg2 x ei w1 b1 w2 (ix2 v c) + Stages.hw2s x ei w1 b1 w2 (ix2 v c)) + b2 (ix1 c) := by
  unfold Stages.out Stages.dis2d
  exact Cert.Forms.finalize_form bcast_S100000_S100000x1_0 (Stages.agg2 x ei w1 b1 w2) (Stages.hw2s x ei w1 b1 w2)
    (Stages.dis ei) b2 shapeCasts_S8_S1x8 v c

end Cert.KernelIdeal.Read

end
-- ==== Proof.LibGatherEntries.lean ====
/-
  `stablehlo.gather` taking single ENTRIES of a rank-1 operand, read at one result element.

  What `x[idx]` of an array `x : [N]` at an integer array `idx : [R]` lowers to: start indices `[R, 1]` with the index
  vector on their last axis, no offset axis, collapsed_slice_dims `[0]`, start_index_map `[0]`, slice_sizes `[1]`.
  Result entry `r` is `x` at "the start index `idx[r, 0]`, read as a signed integer and clamped into `[0, N − 1]`".
-/
import Idealize.ShloMosaic.Lib.ValueIdx
import proofs.«174125_j69157563400469_2_alg».proof.Proof.LibGatherRows

noncomputable section

namespace Cert.Lib.GatherEntries

open Idealize.ShloMosaic Idealize.ShloMosaic.ValueIdx Cert.Lib.GatherRows

/-- The dimension numbers of `x[idx]` for an operand `x : [N]`, start indices `[R, 1]` and result `[R]`. -/
abbrev entryDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE GATHER READ AT `r`: the operand at "the start index `idx[r, 0]`, read signed and clamped into `[0, N − 1]`". -/
theorem gather_entries_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (entryDims N R wf) x idx (ix1 r) = x (ix1 (clampRow N hN (idx (ix2 r (0 : Fin 1))))) := by
  unfold Host.gather
  congr 1
  funext a
  match a with
  | ⟨0, _⟩ =>
    refine Fin.ext ?_
    show (entryDims N R wf).start (ix1 r) idx 0 + (entryDims N R wf).batchCoord (ix1 r) 0
      + (entryDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (entryDims N R wf).startIndexMap from List.mem_singleton.mpr rfl)]
    have hsi : (entryDims N R wf).siIdx (ix1 r) ⟨List.idxOf (0 : Fin 1) (entryDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

end Cert.Lib.GatherEntries

end
-- ==== Proof.Algebra.lean ====
/-
  The extended-real algebra that joins the two forms of a graph-convolution layer.

  One form weights every edge's message by `dis (source) · dis (destination)` and sums the weighted messages at the
  destination, the node's own loop being one more edge of the list. The other scales each node's row by `dis` once,
  sums the scaled rows of the sources at the destination, adds the node's own scaled row, and scales the total by the
  destination's `dis`. They agree because the factor `dis` is a NON-NEGATIVE REAL NUMBER: such a factor distributes
  over sums of extended reals whatever the summands are, infinite ones included (on the extended reals distributivity
  fails for a general factor, as `x · (∞ − ∞)` shows). The factor is real and non-negative whatever the degree is:
  one over the square root of a positive real, zero at an infinite degree, and zero where the degree is not positive.
-/
import Idealize.ShloMosaic.PureOps.Ideal

noncomputable section

namespace Cert.Algebra

open Idealize.ShloMosaic

/-- A non-negative real factor distributes over a sum of two extended reals. -/
theorem coe_mul_add {r : ℝ} (hr : 0 ≤ r) (y z : EReal) : (r : EReal) * (y + z) = (r : EReal) * y + (r : EReal) * z :=
  EReal.left_distrib_of_nonneg_of_ne_top (by exact_mod_cast hr) (EReal.coe_ne_top r) y z

theorem rsqrt_top : Ideal.rsqrt (⊤ : EReal) = 0 := rfl
theorem rsqrt_coe (x : ℝ) :
    Ideal.rsqrt (x : EReal) = if x < 0 then ⊥ else if x = 0 then ⊤ else (((Real.sqrt x)⁻¹ : ℝ) : EReal) := rfl

/-- The normalising factor of a degree `d` — `1 / √d` where `d > 0`, zero elsewhere — is a non-negative real for
    every extended real `d`. -/
theorem factor_real (d : EReal) :
    ∃ r : ℝ, 0 ≤ r ∧ Scalar.select (Ideal.cmp .ogt d 0) (Ideal.rsqrt d) (0 : EReal) = (r : EReal) := by
  induction d using EReal.rec with
  | bot =>
    refine ⟨0, le_refl _, ?_⟩
    simp [Scalar.select, Ideal.cmp]
  | top =>
    refine ⟨0, le_refl _, ?_⟩
    simp [Scalar.select, Ideal.cmp, rsqrt_top]
  | coe x =>
    by_cases hx : 0 < x
    · refine ⟨(Real.sqrt x)⁻¹, inv_nonneg.mpr (Real.sqrt_nonneg x), ?_⟩
      have h1 : ¬ x < 0 := not_lt.mpr hx.le
      have h2 : x ≠ 0 := ne_of_gt hx
      have h3 : (0 : EReal) < (x : EReal) := by exact_mod_cast hx
      simp [Scalar.select, Ideal.cmp, rsqrt_coe, h1, h2, h3]
    · refine ⟨0, le_refl _, ?_⟩
      have h3 : ¬ (0 : EReal) < (x : EReal) := by exact_mod_cast hx
      simp [Scalar.select, Ideal.cmp, h3]

/-- A non-negative real factor distributes over a finite sum of extended reals. -/
theorem coe_mul_sum {ι : Type} (r : ℝ) (hr : 0 ≤ r) (s : Finset ι) (f : ι → EReal) :
    (r : EReal) * ∑ i ∈ s, f i = ∑ i ∈ s, (r : EReal) * f i := by
  classical
  induction s using Finset.induction_on with
  | empty => simp
  | insert a t ha ih =>
    rw [Finset.sum_insert ha, Finset.sum_insert ha, coe_mul_add hr, ih]

/-- A sum over the entries of a list of `E + N` items that satisfy `p` is the sum over the first `E` items that do
    plus the sum over the last `N` items that do. -/
theorem sum_filter_append {E N : Nat} (p : Fin (E + N) → Prop) [DecidablePred p] (f : Fin (E + N) → EReal) :
    ∑ j ∈ Finset.univ.filter p, f j
      = ∑ e ∈ Finset.univ.filter (fun e : Fin E => p (Fin.castAdd N e)), f (Fin.castAdd N e)
        + ∑ u ∈ Finset.univ.filter (fun u : Fin N => p (Fin.natAdd E u)), f (Fin.natAdd E u) := by
  rw [Finset.sum_filter, Fin.sum_univ_add, Finset.sum_filter, Finset.sum_filter]

/-- THE NODE IDENTITY. With `r ≥ 0` the destination's factor, `a e` the source row entry and `δ e` the source's
    factor of edge `e`, `p` the node's own row entry and `b` the bias: scaling the sum of the scaled source entries
    and the node's own scaled entry by `r` is summing the entries weighted by `δ e · r`, the node's own by `r · r`. -/
theorem node_identity {ι : Type} (r : ℝ) (hr : 0 ≤ r) (s : Finset ι) (a δ : ι → EReal) (p b : EReal) :
    (r : EReal) * ((0 + ∑ e ∈ s, a e * δ e) + p * (r : EReal)) + b
      = (0 + (∑ e ∈ s, a e * (δ e * (r : EReal)) + p * ((r : EReal) * (r : EReal)))) + b := by
  rw [zero_add, zero_add, coe_mul_add hr, coe_mul_sum r hr]
  congr 2
  · exact Finset.sum_congr rfl fun e _ => by rw [mul_left_comm, mul_comm (r : EReal) (δ e)]
  · rw [mul_left_comm]

end Cert.Algebra

end
-- ==== Proof.RRead.lean ====
/- The reference's stages read at one element.

   Each stage of the reference's dataflow is an array; here every one of them is read at an index built from
   coordinates. The longer edge list (the edges, then one loop per node) is read separately at an edge and at a
   loop; a node's degree is the number of edges arriving at it plus one; an edge's weight is the product of its two
   end nodes' factors; a matrix product is a plain sum over the contracted axis; and a layer's aggregate at a node is
   the sum, over the edges arriving there, of the source rows weighted by the two end nodes' factors, plus the
   node's own row weighted by its factor squared. -/
import proofs.«174125_j69157563400469_2_alg».proof.Proof.RStages
import proofs.«174125_j69157563400469_2_alg».proof.Proof.Index
import proofs.«174125_j69157563400469_2_alg».proof.Proof.LibScatterAdd
import proofs.«174125_j69157563400469_2_alg».proof.Proof.LibGatherRows
import proofs.«174125_j69157563400469_2_alg».proof.Proof.LibGatherEntries
import proofs.«174125_j69157563400469_2_alg».proof.Proof.LibSegmentSum
import proofs.«174125_j69157563400469_2_alg».proof.Proof.Algebra
import Idealize.ShloMosaic.Lib.Pipeline.Value
import Idealize.ShloMosaic.Lib.IdealHost
import Idealize.ShloMosaic.Lib.KernelVsHost
import Idealize.ShloMosaic.Lib.ValueIdx
import Idealize.ShloMosaic.PureOps.Ideal.Laws

noncomputable section

open scoped BigOperators

namespace Cert.ReferenceIdeal.Read

open Idealize.ShloMosaic Idealize.ShloMosaic.ValueIdx Cert.ReferenceIdeal Cert.ReferenceIdeal.Gen
open Cert.Index Cert.Lib.ScatterAdd Cert.Lib.GatherRows Cert.Lib.GatherEntries Cert.Lib.SegmentSum Cert.Algebra

variable (x : FVec Ideal S100000x128 .f32) (ei : IVec S2x6400000 32) (w1 : FVec Ideal S128x16 .f32)
  (b1 : FVec Ideal S16 .f32) (w2 : FVec Ideal S16x8 .f32) (b2 : FVec Ideal S8 .f32) (v : Fin 100000)

/-! ## Single operations read at an index, over any operand -/

/-- The zero word, as a rank-zero array read at its one index, is the extended real zero. -/
theorem zero_scalar : constant (F := Ideal) S_ .f32 0x00000000#32 ix0 = 0 := Ideal.ofBits_zero_f32

/-- The host's reciprocal square root of an array reads the reciprocal square root of the element. -/
theorem host_rsqrt_apply {s : Shape} (a : FVec Ideal s .f32) (i : s.Idx) : Host.rsqrt a i = Ideal.rsqrt (a i) := rfl

/-- The guarded reciprocal square root of a node vector `d`, read at node `v`. -/
theorem factor_apply (d : FVec Ideal S100000 .f32) :
    select (cmpf .ogt d (broadcastInDim S100000 ![] bcast_S_S100000 (constant S_ .f32 0x00000000#32)))
        (Host.rsqrt d) (broadcastInDim S100000 ![] bcast_S_S100000 (constant S_ .f32 0x00000000#32)) (ix1 v)
      = Scalar.select (Ideal.cmp .ogt (d (ix1 v)) 0) (Ideal.rsqrt (d (ix1 v))) 0 := by
  rw [select_apply, cmpf_apply, Ideal.cmpf_def, broadcastInDim_scalar_apply, zero_scalar, host_rsqrt_apply]

/-- An index list `s` normalised for a lookup (a negative entry has the node count added), read at a position. -/
theorem wrap_apply (s : IVec S6500000 32) (j : Fin 6500000) :
    select (cmpi .slt s (broadcastInDim S6500000 ![] bcast_S_S6500000 (constantI S_ 32 0#32)))
        (addi s (broadcastInDim S6500000 ![] bcast_S_S6500000 (constantI S_ 32 100000#32))) s (ix1 j)
      = wrap (s (ix1 j)) := rfl

/-- The first layer's matrix product of any two operands, read at `(v, c)`: the sum over the 128 contracted positions. -/
theorem dot1_apply (A : FVec Ideal S100000x128 .f32) (B : FVec Ideal S128x16 .f32) (c : Fin 16) :
    Host.dotGeneral dot_S100000x128_S128x16_S100000x16_1_0_0_1_n_n none A B (ix2 v c)
      = ∑ k : Fin 128, A (ix2 v k) * B (ix2 k c) := by
  simp only [Host.dotGeneral]
  rw [Ideal.dotGeneral_apply,
    ← Equiv.sum_comp (contrEquiv1 dot_S100000x128_S128x16_S100000x16_1_0_0_1_n_n 128 rfl rfl).symm]
  refine Finset.sum_congr rfl fun k _ => ?_
  have hk := contrEquiv1_symm_val dot_S100000x128_S128x16_S100000x16_1_0_0_1_n_n 128 rfl rfl k
  have hl := DotDims.lhsIdx_val_of_single dot_S100000x128_S128x16_S100000x16_1_0_0_1_n_n (cl := 1) rfl (ix2 v c)
    ((contrEquiv1 dot_S100000x128_S128x16_S100000x16_1_0_0_1_n_n 128 rfl rfl).symm k)
  have hr := DotDims.rhsIdx_val_of_single dot_S100000x128_S128x16_S100000x16_1_0_0_1_n_n (cr := 0) rfl (ix2 v c)
    ((contrEquiv1 dot_S100000x128_S128x16_S100000x16_1_0_0_1_n_n 128 rfl rfl).symm k)
  congr 1
  · refine congrArg A (funext fun a => Fin.ext ?_)
    match a with
    | ⟨0, _⟩ => rfl
    | ⟨1, _⟩ => exact hl.trans hk
  · refine congrArg B (funext fun a => Fin.ext ?_)
    match a with
    | ⟨0, _⟩ => exact hr.trans hk
    | ⟨1, _⟩ => rfl

/-- The second layer's matrix product of any two operands, read at `(v, c)`: the sum over the 16 contracted positions. -/
theorem dot2_apply (A : FVec Ideal S100000x16 .f32) (B : FVec Ideal S16x8 .f32) (c : Fin 8) :
    Host.dotGeneral dot_S100000x16_S16x8_S100000x8_1_0_0_1_n_n none A B (ix2 v c)
      = ∑ k : Fin 16, A (ix2 v k) * B (ix2 k c) := by
  simp only [Host.dotGeneral]
  rw [Ideal.dotGeneral_apply,
    ← Equiv.sum_comp (contrEquiv1 dot_S100000x16_S16x8_S100000x8_1_0_0_1_n_n 16 rfl rfl).symm]
  refine Finset.sum_congr rfl fun k _ => ?_
  have hk := contrEquiv1_symm_val dot_S100000x16_S16x8_S100000x8_1_0_0_1_n_n 16 rfl rfl k
  have hl := DotDims.lhsIdx_val_of_single dot_S100000x16_S16x8_S100000x8_1_0_0_1_n_n (cl := 1) rfl (ix2 v c)
    ((contrEquiv1 dot_S100000x16_S16x8_S100000x8_1_0_0_1_n_n 16 rfl rfl).symm k)
  have hr := DotDims.rhsIdx_val_of_single dot_S100000x16_S16x8_S100000x8_1_0_0_1_n_n (cr := 0) rfl (ix2 v c)
    ((contrEquiv1 dot_S100000x16_S16x8_S100000x8_1_0_0_1_n_n 16 rfl rfl).symm k)
  congr 1
  · refine congrArg A (funext fun a => Fin.ext ?_)
    match a with
    | ⟨0, _⟩ => rfl
    | ⟨1, _⟩ => exact hl.trans hk
  · refine congrArg B (funext fun a => Fin.ext ?_)
    match a with
    | ⟨0, _⟩ => exact hr.trans hk
    | ⟨1, _⟩ => rfl

/-- A bias vector laid out as one row and repeated down the nodes reads the bias at the column. -/
theorem bias_apply {W : Nat} (h1 : (⟨1, ![W]⟩ : Shape).BroadcastsInDim ⟨2, ![1, W]⟩ ![1])
    (h2 : (⟨2, ![1, W]⟩ : Shape).BroadcastsInDim ⟨2, ![100000, W]⟩ ![0, 1])
    (b : (⟨1, ![W]⟩ : Shape).Idx → EReal) (c : Fin W) :
    broadcastInDim ⟨2, ![100000, W]⟩ ![0, 1] h2 (broadcastInDim ⟨2, ![1, W]⟩ ![1] h1 b) (ix2 v c) = b (ix1 c) := by
  rw [broadcastInDim_oneRow_apply]
  refine broadcastInDim_apply _ h1 b _ (ix1 c) ?_
  intro a
  match a with
  | ⟨0, _⟩ =>
    show c.val = if W = 1 then 0 else c.val
    split
    · have := c.isLt; omega
    · rfl

/-- A layer's closing step over any aggregate `A`: the bias added, the result cut off at zero. -/
theorem relu_bias_apply (A : FVec Ideal S100000x16 .f32) (c : Fin 16) :
    maximumf (addf A (broadcastInDim S100000x16 ![0, 1] bcast_S1x16_S100000x16_0_1 (broadcastInDim S1x16 ![1] bcast_S16_S1x16_1 b1)))
        (broadcastInDim S100000x16 ![] bcast_S_S100000x16 (constant S_ .f32 0x00000000#32)) (ix2 v c)
      = max (A (ix2 v c) + b1 (ix1 c)) 0 := by
  rw [maximumf_apply, addf_apply, broadcastInDim_scalar_apply, zero_scalar,
    bias_apply v bcast_S16_S1x16_1 bcast_S1x16_S100000x16_0_1 b1 c]

/-- The last step over any aggregate `A`: the bias added. -/
theorem plus_bias_apply (A : FVec Ideal S100000x8 .f32) (c : Fin 8) :
    addf A (broadcastInDim S100000x8 ![0, 1] bcast_S1x8_S100000x8_0_1 (broadcastInDim S1x8 ![1] bcast_S8_S1x8_1 b2)) (ix2 v c)
      = A (ix2 v c) + b2 (ix1 c) := by
  rw [addf_apply, bias_apply v bcast_S8_S1x8_1 bcast_S1x8_S100000x8_0_1 b2 c]

/-! ## Sums at destinations, over any sizes

Everything that mentions a sum over the longer list is proved here with the sizes as variables: `E` edges, `N` nodes,
the longer list of `E + N` entries. What is known of the list enters as two hypotheses: an edge's position reads the
edge's destination, and node `u`'s loop lands on `u`. -/

section AnySize
variable {N E W w : Nat}

/-- A sum over the positions of the longer list that land on `v`: the edges that arrive at `v`, and `v`'s own loop. -/
theorem split_sum (t : IVec ⟨1, ![E + N]⟩ w) (d : IVec ⟨1, ![E]⟩ w)
    (hedge : ∀ e : Fin E, t (ix1 (Fin.castAdd N e)) = d (ix1 e))
    (hloop : ∀ u : Fin N, rowOf N (t (ix1 (Fin.natAdd E u))) = some u)
    (v : Fin N) (f : Fin (E + N) → EReal) :
    ∑ r ∈ Finset.univ.filter (fun r : Fin (E + N) => rowOf N (t (ix1 r)) = some v), f r
      = ∑ e ∈ Finset.univ.filter (fun e : Fin E => rowOf N (d (ix1 e)) = some v), f (Fin.castAdd N e)
        + f (Fin.natAdd E v) := by
  rw [sum_filter_append]
  have h1 : (Finset.univ.filter fun e : Fin E => rowOf N (t (ix1 (Fin.castAdd N e))) = some v)
      = Finset.univ.filter fun e : Fin E => rowOf N (d (ix1 e)) = some v := by
    simp only [hedge]
  have h2 : (Finset.univ.filter fun u : Fin N => rowOf N (t (ix1 (Fin.natAdd E u))) = some v) = {v} := by
    ext u
    simp only [Finset.mem_filter, Finset.mem_univ, true_and, Finset.mem_singleton, hloop, Option.some.injEq]
  rw [h1, h2, Finset.sum_singleton]

/-- A constant `o` summed at the entries of an index list `t`, from the constant `z`, read at `v`. -/
theorem count_gen {R : Nat} (wf : ScatterDims.WF ⟨1, ![N]⟩ ⟨2, ![R, 1]⟩ ⟨1, ![R]⟩ [] [0] [0] 1)
    (hb0 : (⟨0, ![]⟩ : Shape).BroadcastsInDim ⟨1, ![N]⟩ ![])
    (hc : (⟨1, ![R]⟩ : Shape).BroadcastsInDim ⟨2, ![R, 1]⟩ ![0])
    (hb1 : (⟨0, ![]⟩ : Shape).BroadcastsInDim ⟨1, ![R]⟩ ![])
    (z o : FVec Ideal ⟨0, ![]⟩ .f32) (t : IVec ⟨1, ![R]⟩ w) (v : Fin N) :
    Host.scatterAdd (entriesDims N R wf) (broadcastInDim ⟨1, ![N]⟩ ![] hb0 z)
        (broadcastInDim ⟨2, ![R, 1]⟩ ![0] hc t) (broadcastInDim ⟨1, ![R]⟩ ![] hb1 o) (ix1 v)
      = z ix0 + ∑ r ∈ Finset.univ.filter (fun r : Fin R => rowOf N (t (ix1 r)) = some v), o ix0 := by
  unfold Host.scatterAdd
  rw [Ideal.hostScatterAdd_def, scatterAdd_entries_apply, broadcastInDim_scalar_apply]
  have hd : ∀ r : Fin R, broadcastInDim ⟨2, ![R, 1]⟩ ![0] hc t (ix2 r (0 : Fin 1)) = t (ix1 r) :=
    fun r => col_apply hc t r
  have ho : ∀ r : Fin R, broadcastInDim ⟨1, ![R]⟩ ![] hb1 o (ix1 r) = o ix0 :=
    fun r => broadcastInDim_scalar_apply hb1 o _
  simp only [hd, ho]

/-- The degree count over the longer list: from `z`, an `o` for every edge arriving at `v`, and one more for `v`'s loop. -/
theorem degree_gen (wf : ScatterDims.WF ⟨1, ![N]⟩ ⟨2, ![E + N, 1]⟩ ⟨1, ![E + N]⟩ [] [0] [0] 1)
    (hb0 : (⟨0, ![]⟩ : Shape).BroadcastsInDim ⟨1, ![N]⟩ ![])
    (hc : (⟨1, ![E + N]⟩ : Shape).BroadcastsInDim ⟨2, ![E + N, 1]⟩ ![0])
    (hb1 : (⟨0, ![]⟩ : Shape).BroadcastsInDim ⟨1, ![E + N]⟩ ![])
    (z o : FVec Ideal ⟨0, ![]⟩ .f32) (t : IVec ⟨1, ![E + N]⟩ w) (d : IVec ⟨1, ![E]⟩ w)
    (hedge : ∀ e : Fin E, t (ix1 (Fin.castAdd N e)) = d (ix1 e))
    (hloop : ∀ u : Fin N, rowOf N (t (ix1 (Fin.natAdd E u))) = some u) (v : Fin N) :
    Host.scatterAdd (entriesDims N (E + N) wf) (broadcastInDim ⟨1, ![N]⟩ ![] hb0 z)
        (broadcastInDim ⟨2, ![E + N, 1]⟩ ![0] hc t) (broadcastInDim ⟨1, ![E + N]⟩ ![] hb1 o) (ix1 v)
      = z ix0 + (∑ e ∈ Finset.univ.filter (fun e : Fin E => rowOf N (d (ix1 e)) = some v), o ix0 + o ix0) := by
  rw [count_gen, split_sum t d hedge hloop v (fun _ => o ix0)]

/-- The weighted sum of looked-up rows over the longer list, read at `(v, c)`: from `z`, the summands `G e` of the
    edges arriving at `v`, and the summand `L` of `v`'s loop — `hG` and `hL` say what the summands are. -/
theorem aggregate_gen (hN : 0 < N)
    (wfS : ScatterDims.WF ⟨2, ![N, W]⟩ ⟨2, ![E + N, 1]⟩ ⟨2, ![E + N, W]⟩ [1] [0] [0] 1)
    (wfG : GatherDims.WF ⟨2, ![N, W]⟩ ⟨2, ![E + N, 1]⟩ ⟨2, ![E + N, W]⟩ [1] [0] [] [0] [] 1 ![1, W])
    (hb0 : (⟨0, ![]⟩ : Shape).BroadcastsInDim ⟨2, ![N, W]⟩ ![])
    (hc : (⟨1, ![E + N]⟩ : Shape).BroadcastsInDim ⟨2, ![E + N, 1]⟩ ![0])
    (hcr : (⟨2, ![E + N, 1]⟩ : Shape).BroadcastsInDim ⟨2, ![E + N, W]⟩ ![0, 1])
    (z : FVec Ideal ⟨0, ![]⟩ .f32) (t s : IVec ⟨1, ![E + N]⟩ w) (wt : FVec Ideal ⟨1, ![E + N]⟩ .f32)
    (rows : FVec Ideal ⟨2, ![N, W]⟩ .f32) (d : IVec ⟨1, ![E]⟩ w)
    (hedge : ∀ e : Fin E, t (ix1 (Fin.castAdd N e)) = d (ix1 e))
    (hloop : ∀ u : Fin N, rowOf N (t (ix1 (Fin.natAdd E u))) = some u)
    (v : Fin N) (c : Fin W) (G : Fin E → EReal) (L : EReal)
    (hG : ∀ e : Fin E, rowOf N (d (ix1 e)) = some v →
      rows (ix2 (clampRow N hN (s (ix1 (Fin.castAdd N e)))) c) * wt (ix1 (Fin.castAdd N e)) = G e)
    (hL : rows (ix2 (clampRow N hN (s (ix1 (Fin.natAdd E v)))) c) * wt (ix1 (Fin.natAdd E v)) = L) :
    Host.scatterAdd (rowsDims N W (E + N) wfS) (broadcastInDim ⟨2, ![N, W]⟩ ![] hb0 z)
        (broadcastInDim ⟨2, ![E + N, 1]⟩ ![0] hc t)
        (mulf (Host.gather (rowsDims2 N W (E + N) wfG) rows (broadcastInDim ⟨2, ![E + N, 1]⟩ ![0] hc s))
          (broadcastInDim ⟨2, ![E + N, W]⟩ ![0, 1] hcr (broadcastInDim ⟨2, ![E + N, 1]⟩ ![0] hc wt))) (ix2 v c)
      = z ix0 + (∑ e ∈ Finset.univ.filter (fun e : Fin E => rowOf N (d (ix1 e)) = some v), G e + L) := by
  unfold Host.scatterAdd
  rw [Ideal.hostScatterAdd_def, segment_rows_weighted_apply hN,
    split_sum t d hedge hloop v (fun r => rows (ix2 (clampRow N hN (s (ix1 r))) c) * wt (ix1 r)), hL]
  refine congrArg (z ix0 + ·) (congrArg (· + L) ?_)
  exact Finset.sum_congr rfl fun e he => hG e (Finset.mem_filter.mp he).2

end AnySize

/-! ## The longer edge list at an edge and at a loop -/

/-- At an edge's position the longer source list reads the edge's source. -/
theorem srcC_edge (e : Fin 6400000) : Stages.srcC ei (ix1 (Fin.castAdd 100000 e)) = Stages.src ei (ix1 e) := by
  unfold Stages.srcC
  exact concatenate_pair_apply_left (t := S6500000) (s₁ := S6400000) (s₂ := S100000) (0 : Fin 1) _ _ _ (ix1 (Fin.castAdd 100000 e)) rfl (ix1 e)
    (fun b => by match b with | ⟨0, _⟩ => rfl)

/-- At an edge's position the longer destination list reads the edge's destination. -/
theorem dstC_edge (e : Fin 6400000) : Stages.dstC ei (ix1 (Fin.castAdd 100000 e)) = Stages.dst ei (ix1 e) := by
  unfold Stages.dstC
  exact concatenate_pair_apply_left (t := S6500000) (s₁ := S6400000) (s₂ := S100000) (0 : Fin 1) _ _ _ (ix1 (Fin.castAdd 100000 e)) rfl (ix1 e)
    (fun b => by match b with | ⟨0, _⟩ => rfl)

/-- At node `u`'s loop the longer source list reads `u`'s own number. -/
theorem srcC_node (u : Fin 100000) : Stages.srcC ei (ix1 (Fin.natAdd 6400000 u)) = BitVec.ofNat 32 u.val := by
  unfold Stages.srcC
  refine (concatenate_pair_apply_right (t := S6500000) (s₁ := S6400000) (s₂ := S100000) (0 : Fin 1) _ _ _ (ix1 (Fin.natAdd 6400000 u)) rfl rfl (ix1 u)
    (fun b hb => absurd (Subsingleton.elim _ _) hb) ?_).trans rfl
  show u.val + 6400000 = 6400000 + u.val
  omega

/-- At node `u`'s loop the longer destination list reads `u`'s own number. -/
theorem dstC_node (u : Fin 100000) : Stages.dstC ei (ix1 (Fin.natAdd 6400000 u)) = BitVec.ofNat 32 u.val := by
  unfold Stages.dstC
  refine (concatenate_pair_apply_right (t := S6500000) (s₁ := S6400000) (s₂ := S100000) (0 : Fin 1) _ _ _ (ix1 (Fin.natAdd 6400000 u)) rfl rfl (ix1 u)
    (fun b hb => absurd (Subsingleton.elim _ _) hb) ?_).trans rfl
  show u.val + 6400000 = 6400000 + u.val
  omega

/-! ## The factor, the products, the closing steps of the two layers -/

/-- A node's factor is one over the square root of its degree where the degree is positive, zero elsewhere. -/
theorem dis_apply : Stages.dis ei (ix1 v)
    = Scalar.select (Ideal.cmp .ogt (Stages.deg ei (ix1 v)) 0) (Ideal.rsqrt (Stages.deg ei (ix1 v))) 0 := by
  unfold Stages.dis
  exact factor_apply v (Stages.deg ei)

/-- Layer 1's product at `(v, c)` is the sum over the 128 features. -/
theorem hw1_apply (c : Fin 16) : Stages.hw1 x w1 (ix2 v c) = ∑ k : Fin 128, x (ix2 v k) * w1 (ix2 k c) := by
  unfold Stages.hw1
  exact dot1_apply v x w1 c

/-- Layer 2's product at `(v, c)` is the sum over the 16 hidden features. -/
theorem hw2_apply (c : Fin 8) :
    Stages.hw2 x ei w1 b1 w2 (ix2 v c) = ∑ k : Fin 16, Stages.h x ei w1 b1 (ix2 v k) * w2 (ix2 k c) := by
  unfold Stages.hw2
  exact dot2_apply v (Stages.h x ei w1 b1) w2 c

/-- Layer 1's result at `(v, c)`: the aggregate plus the bias, cut off at zero. -/
theorem h_apply (c : Fin 16) :
    Stages.h x ei w1 b1 (ix2 v c) = max (Stages.agg1 x ei w1 (ix2 v c) + b1 (ix1 c)) 0 := by
  unfold Stages.h
  exact relu_bias_apply b1 v (Stages.agg1 x ei w1) c

/-- The reference's result at `(v, c)`: layer 2's aggregate plus the bias. -/
theorem out_apply (c : Fin 8) :
    Stages.out x ei w1 b1 w2 b2 (ix2 v c) = Stages.agg2 x ei w1 b1 w2 (ix2 v c) + b2 (ix1 c) := by
  unfold Stages.out
  exact plus_bias_apply b2 v (Stages.agg2 x ei w1 b1 w2) c

/-! ## An edge's weight -/

/-- The entry lookup of a node vector `d` at a normalised index list `s`, read at a position: `d` at the node the
    position's entry picks. -/
theorem lookup_apply (d : FVec Ideal S100000 .f32) (s : IVec S6500000 32) (j : Fin 6500000) :
    Host.gather gather_S100000_S6500000x1_S6500000_n_0_n_n_0_1_1 d
        (broadcastInDim S6500000x1 ![0] bcast_S6500000_S6500000x1_0
          (select (cmpi .slt s (broadcastInDim S6500000 ![] bcast_S_S6500000 (constantI S_ 32 0#32)))
            (addi s (broadcastInDim S6500000 ![] bcast_S_S6500000 (constantI S_ 32 100000#32))) s)) (ix1 j)
      = d (ix1 (pick (s (ix1 j)))) := by
  show Host.gather (entryDims 100000 6500000 gather_S100000_S6500000x1_S6500000_n_0_n_n_0_1_1_wf) d _ (ix1 j) = _
  rw [gather_entries_apply (by decide), col_apply, wrap_apply]
  rfl

/-- An edge's weight is the product of its source's and its destination's factors. -/
theorem norm_apply (j : Fin 6500000) : Stages.norm ei (ix1 j)
    = Stages.dis ei (ix1 (pick (Stages.srcC ei (ix1 j)))) * Stages.dis ei (ix1 (pick (Stages.dstC ei (ix1 j)))) := by
  unfold Stages.norm Stages.srcN Stages.dstN
  rw [mulf_apply, lookup_apply, lookup_apply]

/-! ## The longer list's facts, for the sums above -/

/-- The normalised source list at a position: the source entry, a negative one counted from the end. -/
theorem srcN_apply (j : Fin 6500000) : Stages.srcN ei (ix1 j) = wrap (Stages.srcC ei (ix1 j)) := by
  unfold Stages.srcN
  exact wrap_apply (Stages.srcC ei) j

/-- A lookup clamps the normalised entry: together that is `pick`. -/
theorem pick_def (b : BitVec 32) : clampRow 100000 (by decide) (wrap b) = pick b := rfl

/-- Node `u`'s loop lands on `u`. -/
theorem loop_lands (u : Fin 100000) :
    rowOf 100000 (Stages.dstC ei (ix1 (Fin.natAdd 6400000 u))) = some u := by
  rw [dstC_node]
  exact rowOf_node u

/-! ## A node's degree -/

/-- A node's degree: zero, plus a one for every edge arriving at it, plus the one of its own loop. -/
theorem deg_apply : Stages.deg ei (ix1 v)
    = Ideal.ofBits .f32 0x00000000#32
      + (∑ e ∈ landing (Stages.dst ei) v, Ideal.ofBits .f32 0x3F800000#32 + Ideal.ofBits .f32 0x3F800000#32) := by
  unfold Stages.deg landing
  have key := degree_gen (N := 100000) (E := 6400000) scatter_S100000_S6500000x1_S6500000_n_0_0_1_wf
    bcast_S_S100000 bcast_S6500000_S6500000x1_0 bcast_S_S6500000
    (constant (F := Ideal) S_ .f32 0x00000000#32) (constant (F := Ideal) S_ .f32 0x3F800000#32)
    (Stages.dstC ei) (Stages.dst ei) (dstC_edge ei) (loop_lands ei) v
  simp only [constant_apply] at key
  exact key

/-! ## A layer's aggregate -/

/-- The summand of an edge arriving at `v`: its source's row entry, weighted by the source's factor times `v`'s. -/
theorem edge_summand {W : Nat} (rows : FVec Ideal ⟨2, ![100000, W]⟩ .f32) (c : Fin W) (e : Fin 6400000)
    (he : rowOf 100000 (Stages.dst ei (ix1 e)) = some v) :
    rows (ix2 (clampRow 100000 (by decide) (Stages.srcN ei (ix1 (Fin.castAdd 100000 e)))) c)
        * Stages.norm ei (ix1 (Fin.castAdd 100000 e))
      = rows (ix2 (pick (Stages.src ei (ix1 e))) c)
        * (Stages.dis ei (ix1 (pick (Stages.src ei (ix1 e)))) * Stages.dis ei (ix1 v)) := by
  rw [srcN_apply, pick_def, norm_apply, srcC_edge, dstC_edge, pick_of_rowOf _ _ he]

/-- The summand of `v`'s own loop: `v`'s row entry, weighted by `v`'s factor squared. -/
theorem loop_summand {W : Nat} (rows : FVec Ideal ⟨2, ![100000, W]⟩ .f32) (c : Fin W) :
    rows (ix2 (clampRow 100000 (by decide) (Stages.srcN ei (ix1 (Fin.natAdd 6400000 v)))) c)
        * Stages.norm ei (ix1 (Fin.natAdd 6400000 v))
      = rows (ix2 v c) * (Stages.dis ei (ix1 v) * Stages.dis ei (ix1 v)) := by
  rw [srcN_apply, pick_def, norm_apply, srcC_node, dstC_node, pick_node]

/-- THE AGGREGATE of any rows of any width `W`, read at `(v, c)`: the rows looked up at the sources of the longer
    list, weighted edge by edge, and summed at the destinations, are — at node `v` — the sum over the edges arriving
    at `v` of the source's row entry times the two end nodes' factors, plus `v`'s own row entry times its factor
    squared. -/
theorem aggregate_apply {W : Nat}
    (wfS : ScatterDims.WF ⟨2, ![100000, W]⟩ ⟨2, ![6500000, 1]⟩ ⟨2, ![6500000, W]⟩ [1] [0] [0] 1)
    (wfG : GatherDims.WF ⟨2, ![100000, W]⟩ ⟨2, ![6500000, 1]⟩ ⟨2, ![6500000, W]⟩ [1] [0] [] [0] [] 1 ![1, W])
    (hb0 : (⟨0, ![]⟩ : Shape).BroadcastsInDim ⟨2, ![100000, W]⟩ ![])
    (hcr : (⟨2, ![6500000, 1]⟩ : Shape).BroadcastsInDim ⟨2, ![6500000, W]⟩ ![0, 1])
    (rows : FVec Ideal ⟨2, ![100000, W]⟩ .f32) (c : Fin W) :
    Host.scatterAdd (rowsDims 100000 W 6500000 wfS)
        (broadcastInDim ⟨2, ![100000, W]⟩ ![] hb0 (constant (F := Ideal) S_ .f32 0x00000000#32))
        (broadcastInDim S6500000x1 ![0] bcast_S6500000_S6500000x1_0 (Stages.dstC ei))
        (mulf (Host.gather (rowsDims2 100000 W 6500000 wfG) rows
            (broadcastInDim S6500000x1 ![0] bcast_S6500000_S6500000x1_0 (Stages.srcN ei)))
          (broadcastInDim ⟨2, ![6500000, W]⟩ ![0, 1] hcr
            (broadcastInDim S6500000x1 ![0] bcast_S6500000_S6500000x1_0 (Stages.norm ei)))) (ix2 v c)
      = 0 + (∑ e ∈ landing (Stages.dst ei) v,
          rows (ix2 (pick (Stages.src ei (ix1 e))) c)
            * (Stages.dis ei (ix1 (pick (Stages.src ei (ix1 e)))) * Stages.dis ei (ix1 v))
        + rows (ix2 v c) * (Stages.dis ei (ix1 v) * Stages.dis ei (ix1 v))) := by
  unfold landing
  have key := aggregate_gen (N := 100000) (E := 6400000) (W := W) (by decide) wfS wfG hb0
    bcast_S6500000_S6500000x1_0 hcr (constant (F := Ideal) S_ .f32 0x00000000#32)
    (Stages.dstC ei) (Stages.srcN ei) (Stages.norm ei) rows (Stages.dst ei) (dstC_edge ei) (loop_lands ei) v c
    (fun e => rows (ix2 (pick (Stages.src ei (ix1 e))) c)
      * (Stages.dis ei (ix1 (pick (Stages.src ei (ix1 e)))) * Stages.dis ei (ix1 v)))
    (rows (ix2 v c) * (Stages.dis ei (ix1 v) * Stages.dis ei (ix1 v)))
    (fun e he => edge_summand ei v rows c e he) (loop_summand ei v rows c)
  rw [zero_scalar] at key
  exact key

/-- Layer 1's aggregate at `(v, c)`. -/
theorem agg1_apply (c : Fin 16) : Stages.agg1 x ei w1 (ix2 v c)
    = 0 + (∑ e ∈ landing (Stages.dst ei) v,
          Stages.hw1 x w1 (ix2 (pick (Stages.src ei (ix1 e))) c)
            * (Stages.dis ei (ix1 (pick (Stages.src ei (ix1 e)))) * Stages.dis ei (ix1 v))
        + Stages.hw1 x w1 (ix2 v c) * (Stages.dis ei (ix1 v) * Stages.dis ei (ix1 v))) := by
  unfold Stages.agg1 Stages.msg1
  exact aggregate_apply ei v scatter_S100000x16_S6500000x1_S6500000x16_1_0_0_1_wf
    gather_S100000x16_S6500000x1_S6500000x16_1_0_n_n_0_1_116_wf bcast_S_S100000x16 bcast_S6500000x1_S6500000x16_0_1
    (Stages.hw1 x w1) c

/-- Layer 2's aggregate at `(v, c)`. -/
theorem agg2_apply (c : Fin 8) : Stages.agg2 x ei w1 b1 w2 (ix2 v c)
    = 0 + (∑ e ∈ landing (Stages.dst ei) v,
          Stages.hw2 x ei w1 b1 w2 (ix2 (pick (Stages.src ei (ix1 e))) c)
            * (Stages.dis ei (ix1 (pick (Stages.src ei (ix1 e)))) * Stages.dis ei (ix1 v))
        + Stages.hw2 x ei w1 b1 w2 (ix2 v c) * (Stages.dis ei (ix1 v) * Stages.dis ei (ix1 v))) := by
  unfold Stages.agg2 Stages.msg2
  exact aggregate_apply ei v scatter_S100000x8_S6500000x1_S6500000x8_1_0_0_1_wf
    gather_S100000x8_S6500000x1_S6500000x8_1_0_n_n_0_1_18_wf bcast_S_S100000x8 bcast_S6500000x1_S6500000x8_0_1
    (Stages.hw2 x ei w1 b1 w2) c

end Cert.ReferenceIdeal.Read

end
-- ==== Proof.Bridge.lean ====
/-
  The two programs compute one function.

  Both take a node's degree to be the number of edges arriving at it plus one — the kernel program adds the one to the
  count, the reference counts a loop it has appended to the edge list — so they have the same normalising factors
  `dis`, each a non-negative real number. In a layer the reference sums, over the edges arriving at `v` and `v`'s own
  loop, the source's row of `h · w` weighted by `dis (source) · dis v`; the kernel program scales every row by its own
  `dis` first, sums the scaled rows of the sources, adds `v`'s own scaled row and scales the total by `dis v`. Since
  `dis v` is a non-negative real it distributes over the sum (`Cert.Algebra.node_identity`), whatever the rows hold.
  The first layer's results agree, hence the second layer's products, hence the results.
-/
import proofs.«174125_j69157563400469_2_alg».proof.Proof.KRead
import proofs.«174125_j69157563400469_2_alg».proof.Proof.RRead
import proofs.«174125_j69157563400469_2_alg».proof.Proof.Algebra

noncomputable section

namespace Cert.Bridge

open Idealize.ShloMosaic Idealize.ShloMosaic.ValueIdx Cert.Index

variable (x : (⟨2, ![100000, 128]⟩ : Shape).Idx → EReal) (ei : IVec ⟨2, ![2, 6400000]⟩ 32)
  (w1 : (⟨2, ![128, 16]⟩ : Shape).Idx → EReal) (b1 : (⟨1, ![16]⟩ : Shape).Idx → EReal)
  (w2 : (⟨2, ![16, 8]⟩ : Shape).Idx → EReal) (b2 : (⟨1, ![8]⟩ : Shape).Idx → EReal)

/-- Both programs read the same source list off the edge list. -/
theorem src_eq : Cert.KernelIdeal.Stages.src ei = Cert.ReferenceIdeal.Stages.src ei := rfl
/-- Both programs read the same destination list off the edge list. -/
theorem dst_eq : Cert.KernelIdeal.Stages.dst ei = Cert.ReferenceIdeal.Stages.dst ei := rfl

/-- The degrees agree: a count plus one is the count with one more counted. -/
theorem deg_eq (v : Fin 100000) : Cert.KernelIdeal.Stages.deg ei (ix1 v) = Cert.ReferenceIdeal.Stages.deg ei (ix1 v) := by
  rw [Cert.KernelIdeal.Read.deg_apply, Cert.ReferenceIdeal.Read.deg_apply, dst_eq]
  exact add_assoc _ _ _

/-- The factors agree. -/
theorem dis_eq (v : Fin 100000) : Cert.KernelIdeal.Stages.dis ei (ix1 v) = Cert.ReferenceIdeal.Stages.dis ei (ix1 v) := by
  rw [Cert.KernelIdeal.Read.dis_apply, Cert.ReferenceIdeal.Read.dis_apply, deg_eq]

/-- Every factor is a non-negative real. -/
theorem dis_real (v : Fin 100000) : ∃ r : ℝ, 0 ≤ r ∧ Cert.ReferenceIdeal.Stages.dis ei (ix1 v) = (r : EReal) := by
  rw [Cert.ReferenceIdeal.Read.dis_apply]
  exact Cert.Algebra.factor_real _

/-- The first layer's results agree. -/
theorem h_eq : Cert.KernelIdeal.Stages.h x ei w1 b1 = Cert.ReferenceIdeal.Stages.h x ei w1 b1 := by
  funext i
  obtain ⟨v, c, rfl⟩ : ∃ (v : Fin 100000) (c : Fin 16), i = ix2 v c := ⟨i 0, i 1, eq_ix2 i⟩
  rw [Cert.KernelIdeal.Read.h_apply, Cert.ReferenceIdeal.Read.h_apply, Cert.KernelIdeal.Read.agg1_apply,
    Cert.ReferenceIdeal.Read.agg1_apply]
  simp only [Cert.KernelIdeal.Read.hw1s_apply, Cert.ReferenceIdeal.Read.hw1_apply, dis_eq, src_eq, dst_eq]
  obtain ⟨r, hr, hδ⟩ := dis_real ei v
  rw [hδ]
  exact congrArg (fun t => max t 0)
    (Cert.Algebra.node_identity r hr (landing (Cert.ReferenceIdeal.Stages.dst ei) v)
      (fun e => ∑ k : Fin 128, x (ix2 (pick (Cert.ReferenceIdeal.Stages.src ei (ix1 e))) k) * w1 (ix2 k c))
      (fun e => Cert.ReferenceIdeal.Stages.dis ei (ix1 (pick (Cert.ReferenceIdeal.Stages.src ei (ix1 e)))))
      (∑ k : Fin 128, x (ix2 v k) * w1 (ix2 k c)) (b1 (ix1 c)))

/-- The results agree. -/
theorem out_eq : Cert.KernelIdeal.Stages.out x ei w1 b1 w2 b2 = Cert.ReferenceIdeal.Stages.out x ei w1 b1 w2 b2 := by
  funext i
  obtain ⟨v, c, rfl⟩ : ∃ (v : Fin 100000) (c : Fin 8), i = ix2 v c := ⟨i 0, i 1, eq_ix2 i⟩
  rw [Cert.KernelIdeal.Read.out_apply, Cert.ReferenceIdeal.Read.out_apply, Cert.KernelIdeal.Read.agg2_apply,
    Cert.ReferenceIdeal.Read.agg2_apply]
  simp only [Cert.KernelIdeal.Read.hw2s_apply, Cert.ReferenceIdeal.Read.hw2_apply, h_eq, dis_eq, src_eq, dst_eq]
  obtain ⟨r, hr, hδ⟩ := dis_real ei v
  rw [hδ]
  exact Cert.Algebra.node_identity r hr (landing (Cert.ReferenceIdeal.Stages.dst ei) v)
    (fun e => ∑ k : Fin 16, Cert.ReferenceIdeal.Stages.h x ei w1 b1 (ix2 (pick (Cert.ReferenceIdeal.Stages.src ei (ix1 e))) k)
      * w2 (ix2 k c))
    (fun e => Cert.ReferenceIdeal.Stages.dis ei (ix1 (pick (Cert.ReferenceIdeal.Stages.src ei (ix1 e)))))
    (∑ k : Fin 16, Cert.ReferenceIdeal.Stages.h x ei w1 b1 (ix2 v k) * w2 (ix2 k c)) (b2 (ix1 c))

end Cert.Bridge

end
-- ==== Proof.lean ====
/-
  The certificate of a two-layer graph convolution (100000 nodes, 6400000 edges, features 128 → 16 → 8) against its
  plain reference.

  The kernel program counts each node's degree on the host, runs four node-wise steps on the accelerator (scaled
  products and finishing step, per layer) and sums looked-up rows at their destinations on the host in between; the
  reference appends a loop per node to the edge list, weights every edge and sums the weighted messages. The frames of
  the two kernel programs are the generated ones; the reference is a host program, and its frame is its run with the
  result dropped. Nothing was rewritten by the idealization, so `preserves` is trivial. For `algebraic`: the kernel
  program's run ends at `Cert.KernelIdeal.Stages.out` of the argument arrays (`ValueRun.value_run`), the reference's at
  `Cert.ReferenceIdeal.Stages.out` (`HandRun.run`), and the two are one function (`Cert.Bridge.out_eq`): the degrees
  agree, the normalising factor is a non-negative real, and such a factor distributes over the sum over arriving edges.
-/
import proofs.«174125_j69157563400469_2_alg».proof.Defs
import proofs.«174125_j69157563400469_2_alg».proof.Proof.Gen.Kernel
import proofs.«174125_j69157563400469_2_alg».proof.Proof.Gen.Kernel.Skeleton
import proofs.«174125_j69157563400469_2_alg».proof.Proof.Gen.Kernel.Launch
import proofs.«174125_j69157563400469_2_alg».proof.Proof.Gen.Kernel.Points
import proofs.«174125_j69157563400469_2_alg».proof.Proof.Gen.Kernel.Frame
import proofs.«174125_j69157563400469_2_alg».proof.Proof.Gen.KernelIdeal
import proofs.«174125_j69157563400469_2_alg».proof.Proof.Gen.KernelIdeal.Skeleton
import proofs.«174125_j69157563400469_2_alg».proof.Proof.Gen.KernelIdeal.Launch
import proofs.«174125_j69157563400469_2_alg».proof.Proof.Gen.KernelIdeal.Points
import proofs.«174125_j69157563400469_2_alg».proof.Proof.Gen.KernelIdeal.Frame
import proofs.«174125_j69157563400469_2_alg».proof.Proof.Gen.ReferenceIdeal
import proofs.«174125_j69157563400469_2_alg».proof.Proof.Gen.Pre_finite_inputs
import proofs.«174125_j69157563400469_2_alg».proof.Proof.KRun
import proofs.«174125_j69157563400469_2_alg».proof.Proof.RefRun
import proofs.«174125_j69157563400469_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run with its result dropped. -/
theorem frame_ri : Cert.frame_ReferenceIdeal := fun m ρ _ =>
  (θ_run Cert.ReferenceIdeal.defs _ _).mono (fun _ h c => (h c).2) (Cert.ReferenceIdeal.HandRun.run m ρ)

/-- Both runs end at one function of arguments that agree. -/
theorem algebraic : Cert.algebraic_KernelIdeal_ReferenceIdeal := by
  intro m ρ m' ρ' _ hagree
  refine ⟨_, Cert.KernelIdeal.ValueRun.value_run m ρ, ?_⟩
  refine (θ_run Cert.ReferenceIdeal.defs _ _).mono (fun _ h c => ⟨(h c).1.trans ?_, (h c).2⟩)
    (Cert.ReferenceIdeal.HandRun.run m' ρ')
  rw [(hagree c).1, (hagree c).2.1, (hagree c).2.2.1, (hagree c).2.2.2.1, (hagree c).2.2.2.2.1, (hagree c).2.2.2.2.2]
  exact (Cert.Bridge.out_eq _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
